-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x19x1024x2048 : Shape := ⟨4, ![1, 19, 1024, 2048]⟩
abbrev S1x1024x2048 : Shape := ⟨3, ![1, 1024, 2048]⟩
abbrev S_ : Shape := ⟨0, ![]⟩

class Facts : Prop where
  bcast_S_S1x19x1024x2048 : S_.BroadcastsInDim S1x19x1024x2048 (![] : Fin 0 → Fin S1x19x1024x2048.rank)
  reducesTo_S1x19x1024x2048_S_d0_1_2_3 : S1x19x1024x2048.ReducesTo [0, 1, 2, 3] S_
  h_S_ : 0 < S_.numel

variable [Facts]

def fn {F : FTy → Type} [FloatOps F] (main_arg0 : FVec F S1x19x1024x2048 .f32) (main_arg1 : IVec S1x1024x2048 32) : IVec S_ 1 :=
  let main_v0 : FVec F S1x19x1024x2048 .f32 := Host.absf main_arg0
  let main_cst : FVec F S_ .f32 := constant S_ .f32 0x7F800000#32
  let main_v1 : FVec F S1x19x1024x2048 .f32 := broadcastInDim S1x19x1024x2048 ![] bcast_S_S1x19x1024x2048 main_cst
  let main_v2 : IVec S1x19x1024x2048 1 := cmpf .olt main_v0 main_v1
  let main_c : IVec S_ 1 := constantI S_ 1 1#1
  let main_v3 : IVec S_ 1 := (fun x v => Host.reduce IntOp.andi x v reducesTo_S1x19x1024x2048_S_d0_1_2_3 h_S_) main_v2 main_c
  main_v3
-- ==== Kernel.lean ====
abbrev S1x19x1024x2048 : Shape := ⟨4, ![1, 19, 1024, 2048]⟩
abbrev S1x1024x2048 : Shape := ⟨3, ![1, 1024, 2048]⟩
abbrev S19x1024x2048 : Shape := ⟨3, ![19, 1024, 2048]⟩
abbrev S1024x2048 : Shape := ⟨2, ![1024, 2048]⟩
abbrev S8x19x10 : Shape := ⟨3, ![8, 19, 10]⟩
abbrev S19x128x128 : Shape := ⟨3, ![19, 128, 128]⟩
abbrev S128x128 : Shape := ⟨2, ![128, 128]⟩
abbrev S1x19x10 : Shape := ⟨3, ![1, 19, 10]⟩
abbrev S19x10 : Shape := ⟨2, ![19, 10]⟩
abbrev S1x128x128 : Shape := ⟨3, ![1, 128, 128]⟩
abbrev S19x128 : Shape := ⟨2, ![19, 128]⟩
abbrev S19 : Shape := ⟨1, ![19]⟩
abbrev S19x1 : Shape := ⟨2, ![19, 1]⟩
abbrev S_ : Shape := ⟨0, ![]⟩

abbrev nBuf : Space → Nat
  | .hbm => 30
  | .vmem => 10
  | .smem => 0
  | _ => 0

abbrev bufTy : (tb : Table) → Fin (tcTables nBuf tb) → BufTy
  | .hbm, ⟨0, _⟩ => ⟨S1x19x1024x2048, .f32⟩
  | .hbm, ⟨1, _⟩ => ⟨S1x1024x2048, .i32⟩
  | .hbm, ⟨2, _⟩ => ⟨S19x1024x2048, .f32⟩
  | .hbm, ⟨3, _⟩ => ⟨S1024x2048, .i32⟩
  | .hbm, ⟨4, _⟩ => ⟨S8x19x10, .f32⟩
  | .hbm, ⟨5, _⟩ => ⟨S8x19x10, .f32⟩
  | .hbm, ⟨6, _⟩ => ⟨S8x19x10, .f32⟩
  | .hbm, ⟨7, _⟩ => ⟨S_, .f32⟩
  | .hbm, ⟨8, _⟩ => ⟨S19x10, .f32⟩
  | .hbm, ⟨9, _⟩ => ⟨S_, .f32⟩
  | .hbm, ⟨10, _⟩ => ⟨S19x10, .f32⟩
  | .hbm, ⟨11, _⟩ => ⟨S_, .f32⟩
  | .hbm, ⟨12, _⟩ => ⟨S19x10, .f32⟩
  | .hbm, ⟨13, _⟩ => ⟨S_, .f32⟩
  | .hbm, ⟨14, _⟩ => ⟨S19x10, .f32⟩
  | .hbm, ⟨15, _⟩ => ⟨S19x10, .f32⟩
  | .hbm, ⟨16, _⟩ => ⟨S19x10, .f32⟩
  | .hbm, ⟨17, _⟩ => ⟨S_, .f32⟩
  | .hbm, ⟨18, _⟩ => ⟨S19x10, .f32⟩
  | .hbm, ⟨19, _⟩ => ⟨S19x10, .f32⟩
  | .hbm, ⟨20, _⟩ => ⟨S19x10, .f32⟩
  | .hbm, ⟨21, _⟩ => ⟨S_, .f32⟩
  | .hbm, ⟨22, _⟩ => ⟨S_, .f32⟩
  | .hbm, ⟨23, _⟩ => ⟨S19x10, .f32⟩
  | .hbm, ⟨24, _⟩ => ⟨S19x10, .f32⟩
  | .hbm, ⟨25, _⟩ => ⟨S19x10, .f32⟩
  | .hbm, ⟨26, _⟩ => ⟨S19x10, .f32⟩
  | .hbm, ⟨27, _⟩ => ⟨S19x10, .f32⟩
  | .hbm, ⟨28, _⟩ => ⟨S_, .f32⟩
  | .hbm, ⟨29, _⟩ => ⟨S_, .f32⟩
  | .local _ .vmem, ⟨0, _⟩ => ⟨S19x128x128, .f32⟩
  | .local _ .vmem, ⟨1, _⟩ => ⟨S19x128x128, .f32⟩
  | .local _ .vmem, ⟨2, _⟩ => ⟨S128x128, .i32⟩
  | .local _ .vmem, ⟨3, _⟩ => ⟨S128x128, .i32⟩
  | .local _ .vmem, ⟨4, _⟩ => ⟨S1x19x10, .f32⟩
  | .local _ .vmem, ⟨5, _⟩ => ⟨S1x19x10, .f32⟩
  | .local _ .vmem, ⟨6, _⟩ => ⟨S1x19x10, .f32⟩
  | .local _ .vmem, ⟨7, _⟩ => ⟨S1x19x10, .f32⟩
  | .local _ .vmem, ⟨8, _⟩ => ⟨S1x19x10, .f32⟩
  | .local _ .vmem, ⟨9, _⟩ => ⟨S1x19x10, .f32⟩
  | _, _ => ⟨S1x19x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S19x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x19x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x19x1024x2048_S19x1024x2048 : S1x19x1024x2048.ShapeCasts S19x1024x2048
  shapeCasts_S1x1024x2048_S1024x2048 : S1x1024x2048.ShapeCasts S1024x2048
  inb_S1x19x10_S1x19x10_0_0_0 : ∀ a, (![0, 0, 0] : Fin 3 → Nat) a + S1x19x10.size a ≤ S1x19x10.size a
  h_S1x19x10 : 0 < S1x19x10.numel
  shapeCasts_S1x19x10_S19x10 : S1x19x10.ShapeCasts S19x10
  shapeCasts_S19x10_S1x19x10 : S19x10.ShapeCasts S1x19x10
  inb_S19x128x128_S19x128x128_0_0_0 : ∀ a, (![0, 0, 0] : Fin 3 → Nat) a + S19x128x128.size a ≤ S19x128x128.size a
  h_S19x128x128 : 0 < S19x128x128.numel
  shapeCasts_S19x128x128_S19x128x128 : S19x128x128.ShapeCasts S19x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S19x128x128_S128x128 : S19x128x128.Reduces [0] S128x128
  shapeCasts_S128x128_S1x128x128 : S128x128.ShapeCasts S1x128x128
  broadcasts_S1x128x128_S19x128x128 : S1x128x128.Broadcasts S19x128x128
  iota_S19x128x128_d0_w32 : S19x128x128.Iotas .tc 32 [0]
  natLt_1_32 : 1 < 32
  reduces_S19x128x128_S19x128 : S19x128x128.Reduces [2] S19x128
  reduces_S19x128_S19 : S19x128.Reduces [1] S19
  shapeCasts_S19_S19x1 : S19.ShapeCasts S19x1
  concatenates_S19x1_S19x1_S19x1_S19x1_S19x1_S19x1_S19x1_S19x1_S19x1_S19x1_S19x10_d1 : Shape.Concatenates [S19x1, S19x1, S19x1, S19x1, S19x1, S19x1, S19x1, S19x1, S19x1, S19x1] S19x10 1
  reducesTo_S8x19x10_S19x10_d0 : S8x19x10.ReducesTo [0] S19x10
  h_S_ : 0 < S_.numel
  bcast_S_S19x10 : S_.BroadcastsInDim S19x10 (![] : Fin 0 → Fin S19x10.rank)
  reducesTo_S19x10_S_d0_1 : S19x10.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S19x128x128.size a ≤ S19x1024x2048.size a
  hwx0_0 : ∀ i : grid0.Coords, EltTy.bits .f32 = 32 ∨ (Rect.block (s := S19x1024x2048) S19x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x2048.size a
  hwx0_1 : ∀ i : grid0.Coords, EltTy.bits .i32 = 32 ∨ (Rect.block (s := S1024x2048) S128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x10.size a ≤ S8x19x10.size a
  hwx0_2 : ∀ i : grid0.Coords, EltTy.bits .f32 = 32 ∨ (Rect.block (s := S8x19x10) S1x19x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x10.size a ≤ S8x19x10.size a
  hwx0_3 : ∀ i : grid0.Coords, EltTy.bits .f32 = 32 ∨ (Rect.block (s := S8x19x10) S1x19x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x10.size a ≤ S8x19x10.size a
  hwx0_4 : ∀ i : grid0.Coords, EltTy.bits .f32 = 32 ∨ (Rect.block (s := S8x19x10) S1x19x10.size (cc0_transform_4 i) (hinb0_4 i)).WholeWords (EltTy.packing .f32)

variable [Facts₀]

abbrev win0_0 : Pipeline.Window sig grid0 :=
  Pipeline.Window.ofSpec (Memref.whole main_v0) S19x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x19x10.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x19x10.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x19x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x19x1024x2048 : Shape := ⟨4, ![1, 19, 1024, 2048]⟩
abbrev S1x1024x2048 : Shape := ⟨3, ![1, 1024, 2048]⟩
abbrev S_ : Shape := ⟨0, ![]⟩
abbrev S1x1x1024x2048 : Shape := ⟨4, ![1, 1, 1024, 2048]⟩
abbrev S19 : Shape := ⟨1, ![19]⟩
abbrev S1x19x1x1 : Shape := ⟨4, ![1, 19, 1, 1]⟩
abbrev S39845888 : Shape := ⟨1, ![39845888]⟩
abbrev S191 : Shape := ⟨1, ![191]⟩
abbrev S39845888x1 : Shape := ⟨2, ![39845888, 1]⟩
abbrev S190 : Shape := ⟨1, ![190]⟩
abbrev S19x10 : Shape := ⟨2, ![19, 10]⟩

abbrev nBuf : Space → Nat
  | .hbm => 91
  | .vmem => 0
  | .smem => 0
  | _ => 0

abbrev bufTy : (tb : Table) → Fin (tcTables nBuf tb) → BufTy
  | .hbm, ⟨0, _⟩ => ⟨S1x19x1024x2048, .f32⟩
  | .hbm, ⟨1, _⟩ => ⟨S1x1024x2048, .i32⟩
  | .hbm, ⟨2, _⟩ => ⟨S_, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S1x1x1024x2048, .f32⟩
  | .hbm, ⟨8, _⟩ => ⟨S1x19x1024x2048, .f32⟩
  | .hbm, ⟨9, _⟩ => ⟨S1x19x1024x2048, .f32⟩
  | .hbm, ⟨10, _⟩ => ⟨S1x19x1024x2048, .f32⟩
  | .hbm, ⟨11, _⟩ => ⟨S_, .f32⟩
  | .hbm, ⟨12, _⟩ => ⟨S1x1024x2048, .f32⟩
  | .hbm, ⟨13, _⟩ => ⟨S1x1x1024x2048, .f32⟩
  | .hbm, ⟨14, _⟩ => ⟨S1x19x1024x2048, .f32⟩
  | .hbm, ⟨15, _⟩ => ⟨S1x19x1024x2048, .f32⟩
  | .hbm, ⟨16, _⟩ => ⟨S_, .f32⟩
  | .hbm, ⟨17, _⟩ => ⟨S1x19x1024x2048, .f32⟩
  | .hbm, ⟨18, _⟩ => ⟨S1x19x1024x2048, .f32⟩
  | .hbm, ⟨19, _⟩ => ⟨S1x19x1024x2048, .f32⟩
  | .hbm, ⟨20, _⟩ => ⟨S1x19x1024x2048, .i32⟩
  | .hbm, ⟨21, _⟩ => ⟨S_, .i32⟩
  | .hbm, ⟨22, _⟩ => ⟨S1x19x1024x2048, .i32⟩
  | .hbm, ⟨23, _⟩ => ⟨S1x19x1024x2048, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x19x1024x2048, .i32⟩
  | .hbm, ⟨28, _⟩ => ⟨S1x19x1024x2048, .i32⟩
  | .hbm, ⟨29, _⟩ => ⟨S_, .i32⟩
  | .hbm, ⟨30, _⟩ => ⟨S1x19x1024x2048, .i32⟩
  | .hbm, ⟨31, _⟩ => ⟨S1x19x1024x2048, .i32⟩
  | .hbm, ⟨32, _⟩ => ⟨S_, .f32⟩
  | .hbm, ⟨33, _⟩ => ⟨S1x19x1024x2048, .f32⟩
  | .hbm, ⟨34, _⟩ => ⟨S1x19x1024x2048, .i1⟩
  | .hbm, ⟨35, _⟩ => ⟨S19, .i32⟩
  | .hbm, ⟨36, _⟩ => ⟨S1x19x1x1, .i32⟩
  | .hbm, ⟨37, _⟩ => ⟨S_, .i32⟩
  | .hbm, ⟨38, _⟩ => ⟨S1x19x1x1, .i32⟩
  | .hbm, ⟨39, _⟩ => ⟨S1x19x1x1, .i32⟩
  | .hbm, ⟨40, _⟩ => ⟨S1x19x1024x2048, .i32⟩
  | .hbm, ⟨41, _⟩ => ⟨S1x19x1024x2048, .i32⟩
  | .hbm, ⟨42, _⟩ => ⟨S_, .i32⟩
  | .hbm, ⟨43, _⟩ => ⟨S_, .i32⟩
  | .hbm, ⟨44, _⟩ => ⟨S1x19x1024x2048, .i32⟩
  | .hbm, ⟨45, _⟩ => ⟨S1x19x1024x2048, .i32⟩
  | .hbm, ⟨46, _⟩ => ⟨S39845888, .i32⟩
  | .hbm, ⟨47, _⟩ => ⟨S39845888, .f32⟩
  | .hbm, ⟨48, _⟩ => ⟨S_, .f32⟩
  | .hbm, ⟨49, _⟩ => ⟨S191, .f32⟩
  | .hbm, ⟨50, _⟩ => ⟨S39845888x1, .i32⟩
  | .hbm, ⟨51, _⟩ => ⟨S191, .f32⟩
  | .hbm, ⟨52, _⟩ => ⟨S190, .f32⟩
  | .hbm, ⟨53, _⟩ => ⟨S19x10, .f32⟩
  | .hbm, ⟨54, _⟩ => ⟨S_, .f32⟩
  | .hbm, ⟨55, _⟩ => ⟨S39845888, .f32⟩
  | .hbm, ⟨56, _⟩ => ⟨S_, .f32⟩
  | .hbm, ⟨57, _⟩ => ⟨S191, .f32⟩
  | .hbm, ⟨58, _⟩ => ⟨S39845888x1, .i32⟩
  | .hbm, ⟨59, _⟩ => ⟨S191, .f32⟩
  | .hbm, ⟨60, _⟩ => ⟨S190, .f32⟩
  | .hbm, ⟨61, _⟩ => ⟨S19x10, .f32⟩
  | .hbm, ⟨62, _⟩ => ⟨S1x1x1024x2048, .i32⟩
  | .hbm, ⟨63, _⟩ => ⟨S1x19x1024x2048, .i32⟩
  | .hbm, ⟨64, _⟩ => ⟨S1x19x1024x2048, .i32⟩
  | .hbm, ⟨65, _⟩ => ⟨S1x19x1024x2048, .i1⟩
  | .hbm, ⟨66, _⟩ => ⟨S1x19x1024x2048, .f32⟩
  | .hbm, ⟨67, _⟩ => ⟨S39845888, .f32⟩
  | .hbm, ⟨68, _⟩ => ⟨S_, .f32⟩
  | .hbm, ⟨69, _⟩ => ⟨S191, .f32⟩
  | .hbm, ⟨70, _⟩ => ⟨S39845888x1, .i32⟩
  | .hbm, ⟨71, _⟩ => ⟨S191, .f32⟩
  | .hbm, ⟨72, _⟩ => ⟨S190, .f32⟩
  | .hbm, ⟨73, _⟩ => ⟨S19x10, .f32⟩
  | .hbm, ⟨74, _⟩ => ⟨S_, .f32⟩
  | .hbm, ⟨75, _⟩ => ⟨S19x10, .f32⟩
  | .hbm, ⟨76, _⟩ => ⟨S19x10, .f32⟩
  | .hbm, ⟨77, _⟩ => ⟨S19x10, .f32⟩
  | .hbm, ⟨78, _⟩ => ⟨S_, .f32⟩
  | .hbm, ⟨79, _⟩ => ⟨S19x10, .f32⟩
  | .hbm, ⟨80, _⟩ => ⟨S19x10, .f32⟩
  | .hbm, ⟨81, _⟩ => ⟨S19x10, .f32⟩
  | .hbm, ⟨82, _⟩ => ⟨S19x10, .f32⟩
  | .hbm, ⟨83, _⟩ => ⟨S19x10, .f32⟩
  | .hbm, ⟨84, _⟩ => ⟨S_, .f32⟩
  | .hbm, ⟨85, _⟩ => ⟨S_, .f32⟩
  | .hbm, ⟨86, _⟩ => ⟨S19x10, .f32⟩
  | .hbm, ⟨87, _⟩ => ⟨S19x10, .f32⟩
  | .hbm, ⟨88, _⟩ => ⟨S19x10, .f32⟩
  | .hbm, ⟨89, _⟩ => ⟨S_, .f32⟩
  | .hbm, ⟨90, _⟩ => ⟨S_, .f32⟩
  | _, _ => ⟨S1x19x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  reducesTo_S1x19x1024x2048_S1x1024x2048_d1 : S1x19x1024x2048.ReducesTo [1] S1x1024x2048
  h_S_ : 0 < S_.numel
  bcast_S_S1x1024x2048 : S_.BroadcastsInDim S1x1024x2048 (![] : Fin 0 → Fin S1x1024x2048.rank)
  bcast_S1x1024x2048_S1x1x1024x2048_0_2_3 : S1x1024x2048.BroadcastsInDim S1x1x1024x2048 (![0, 2, 3] : Fin 3 → Fin S1x1x1024x2048.rank)
  bcast_S1x1x1024x2048_S1x19x1024x2048_0_1_2_3 : S1x1x1024x2048.BroadcastsInDim S1x19x1024x2048 (![0, 1, 2, 3] : Fin 4 → Fin S1x19x1024x2048.rank)
  bcast_S_S1x19x1024x2048 : S_.BroadcastsInDim S1x19x1024x2048 (![] : Fin 0 → Fin S1x19x1024x2048.rank)
  bcast_S19_S1x19x1x1_1 : S19.BroadcastsInDim S1x19x1x1 (![1] : Fin 1 → Fin S1x19x1x1.rank)
  bcast_S_S1x19x1x1 : S_.BroadcastsInDim S1x19x1x1 (![] : Fin 0 → Fin S1x19x1x1.rank)
  bcast_S1x19x1x1_S1x19x1024x2048_0_1_2_3 : S1x19x1x1.BroadcastsInDim S1x19x1024x2048 (![0, 1, 2, 3] : Fin 4 → Fin S1x19x1024x2048.rank)
  shapeCasts_S1x19x1024x2048_S39845888 : S1x19x1024x2048.ShapeCasts S39845888
  bcast_S_S191 : S_.BroadcastsInDim S191 (![] : Fin 0 → Fin S191.rank)
  bcast_S39845888_S39845888x1_0 : S39845888.BroadcastsInDim S39845888x1 (![0] : Fin 1 → Fin S39845888x1.rank)
  slices_S191_S190_0 : S191.Slices ![0] S190
  shapeCasts_S190_S19x10 : S190.ShapeCasts S19x10
  bcast_S_S39845888 : S_.BroadcastsInDim S39845888 (![] : Fin 0 → Fin S39845888.rank)
  bcast_S_S19x10 : S_.BroadcastsInDim S19x10 (![] : Fin 0 → Fin S19x10.rank)
  reducesTo_S19x10_S_d0_1 : S19x10.ReducesTo [0, 1] S_
  scatter_S191_S39845888x1_S39845888_n_0_0_1_wf : ScatterDims.WF S191 S39845888x1 S39845888 [] [0] [0] 1

variable [Facts₀]

def scatter_S191_S39845888x1_S39845888_n_0_0_1 : ScatterDims S191 S39845888x1 S39845888 where
  updateWindowDims := []
  insertedWindowDims := [0]
  scatterDimsToOperandDims := [0]
  indexVectorDim := 1
  wf := scatter_S191_S39845888x1_S39845888_n_0_0_1_wf

class Facts : Prop extends Facts₀ where

variable [Facts]
-- ==== Proof.Spec.lean ====
/-
  The histogram of softmax confidences, as plain functions of the two argument arrays.

  For logits X[1, 19, 1024, 2048] the softmax over the class axis at a pixel (h, w) is
  P c h w = exp (X c h w - M h w) / Σ c', exp (X c' h w - M h w), with M the maximum over the classes.
  A probability is scaled by ten, Q = P * 10, and falls in bin b (0 ≤ b ≤ 9) when b < Q and, for b < 9, not b + 1 < Q.
  Three tables [19, 10] are accumulated over all pixels: the sum of P, the count, and the count of pixels whose
  label is the class.  A program may reach a table as a difference of threshold sums taken tile by tile
  (ksum) or by adding each pixel into its bin (canon); both are stated here, over the extended reals.
-/
import Idealize.ShloMosaic.PureOps.Ideal
import Idealize.ShloMosaic.Lib.ValueIdx

noncomputable section

open scoped BigOperators

namespace Cert.Hist

open Idealize.ShloMosaic Idealize.ShloMosaic.ValueIdx

/-- The logits' shape and the labels' shape. -/
abbrev SX : Shape := ⟨4, ![1, 19, 1024, 2048]⟩
abbrev ST : Shape := ⟨3, ![1, 1024, 2048]⟩

/-- A function of class, row and column. -/
abbrev Field := Fin 19 → Fin 1024 → Fin 2048 → EReal

/-- The logit of class c at pixel (h, w). -/
def xat (X : SX.Idx → EReal) : Field := fun c h w => X (ix4 (0 : Fin 1) c h w)

/-- The largest logit at a pixel: the fold of max from -∞ over the classes. -/
def mx (X : SX.Idx → EReal) (h : Fin 1024) (w : Fin 2048) : EReal :=
  (Finset.univ : Finset (Fin 19)).fold max ⊥ (fun c => xat X c h w)

/-- The shifted exponential, its sum over the classes, and the softmax probability. -/
def ex (X : SX.Idx → EReal) : Field := fun c h w => Ideal.exp (xat X c h w - mx X h w)
def den (X : SX.Idx → EReal) (h : Fin 1024) (w : Fin 2048) : EReal := ∑ c : Fin 19, ex X c h w
def P (X : SX.Idx → EReal) : Field := fun c h w => Ideal.div (ex X c h w) (den X h w)

/-- The scale (the single-precision word of 10.0) and the scaled probability. -/
def ten : EReal := Ideal.ofBits .f32 0x41200000#32
def Q (X : SX.Idx → EReal) : Field := fun c h w => P X c h w * ten

/-- 1 where the pixel's label is the class, else 0. -/
def hit (Tg : ST.Idx → BitVec 32) : Field := fun c h w =>
  if Tg (ix3 (0 : Fin 1) h w) = BitVec.ofNat 32 c.val then 1 else 0

/-- The single-precision words of 0.0, 1.0, …, 9.0 and the thresholds they denote. -/
def thrW : Fin 10 → BitVec 32 :=
  ![0x00000000#32, 0x3F800000#32, 0x40000000#32, 0x40400000#32, 0x40800000#32,
    0x40A00000#32, 0x40C00000#32, 0x40E00000#32, 0x41000000#32, 0x41100000#32]
def thr (b : Fin 10) : EReal := Ideal.ofBits .f32 (thrW b)

/-- 1 where q is above the threshold t, else 0. -/
def above (q t : EReal) : EReal := if t < q then 1 else 0

/-- q is in bin b: above threshold b and, unless b is the last bin, not above threshold b + 1. -/
def inBin (q : EReal) (b : Fin 10) : Prop :=
  thr b < q ∧ ∀ hb : b.val + 1 < 10, ¬ thr ⟨b.val + 1, hb⟩ < q

/-- Each pixel added into its bin: the table of a weight U binned by a quantity q. -/
def canon (U q : Field) (c : Fin 19) (b : Fin 10) : EReal := by
  classical exact ∑ h : Fin 1024, ∑ w : Fin 2048, if inBin (q c h w) b then U c h w else 0

/-- Row r of row-tile i, column l of column-tile j (tiles of 128 × 128). -/
def row (i : Fin 8) (r : Fin 128) : Fin 1024 := ⟨128 * i.val + r.val, by have := i.isLt; have := r.isLt; omega⟩
def col (j : Fin 16) (l : Fin 128) : Fin 2048 := ⟨128 * j.val + l.val, by have := j.isLt; have := l.isLt; omega⟩

/-- The sum over tile (i, j) of a threshold-b term V b, and the same at the next threshold (nothing past the last). -/
def tsum (V : Fin 10 → Field) (b : Fin 10) (i : Fin 8) (j : Fin 16) (c : Fin 19) : EReal :=
  ∑ r : Fin 128, ∑ l : Fin 128, V b c (row i r) (col j l)
def tnext (V : Fin 10 → Field) (b : Fin 10) (i : Fin 8) (j : Fin 16) (c : Fin 19) : EReal :=
  if hb : b.val + 1 < 10 then tsum V ⟨b.val + 1, hb⟩ i j c else 0

/-- The table as differences of consecutive threshold sums, tile by tile. -/
def ksum (V : Fin 10 → Field) (c : Fin 19) (b : Fin 10) : EReal :=
  ∑ i : Fin 8, ∑ j : Fin 16, (tsum V b i j c - tnext V b i j c)

/-- The three threshold terms: probability above the threshold, the indicator alone, and the label's indicator
    times the indicator taken at the label's own probability Pt. -/
def Vconf (X : SX.Idx → EReal) : Fin 10 → Field := fun b c h w => P X c h w * above (Q X c h w) (thr b)
def Vpred (X : SX.Idx → EReal) : Fin 10 → Field := fun b c h w => above (Q X c h w) (thr b)
def Pt (X : SX.Idx → EReal) (Tg : ST.Idx → BitVec 32) (h : Fin 1024) (w : Fin 2048) : EReal :=
  ∑ c : Fin 19, hit Tg c h w * P X c h w
def Vacc (X : SX.Idx → EReal) (Tg : ST.Idx → BitVec 32) : Fin 10 → Field := fun b c h w =>
  hit Tg c h w * above (Pt X Tg h w * ten) (thr b)

/-- The weight that counts: 1 everywhere. -/
def one : Field := fun _ _ _ => 1

end Cert.Hist

end
-- ==== Proof.Tile.lean ====
/-
  One tile of the histogram kernel, in one vocabulary.

  On a [19, 128, 128] block of logits and a [128, 128] block of labels the body forms the softmax p, its scaling q,
  the label indicator, and for each of ten thresholds three sums over the tile: of p where q is above the threshold,
  of the indicator of that, and of the label indicator where the label's own scaled probability is above it.  The
  ten consecutive differences of each family, side by side, make a [19, 10] table, which is added to what the
  output block held (zero at the first column tile of a row).  Here those values are named once, for any float
  instance, and each store of the body is identified with "old contents plus table".
-/
import proofs.«139248_j19292993094305_2_alg».proof.Proof.Gen.KernelIdeal.Frame
import proofs.«139248_j19292993094305_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Hist

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- 1.0 where q is above the number a word denotes, else 0.0: on the block, and on one plane of it. -/
def ind3 (W : BitVec 32) (q : FVec F S19x128x128 .f32) : FVec F S19x128x128 .f32 :=
  sitofp .f32 (extui 32 (cmpf .ogt q (broadcast S19x128x128 (Scalar.ofBits .f32 W))) natLt_1_32)
def ind2 (W : BitVec 32) (q : FVec F S128x128 .f32) : FVec F S128x128 .f32 :=
  sitofp .f32 (extui 32 (cmpf .ogt q (broadcast S128x128 (Scalar.ofBits .f32 W))) natLt_1_32)

/-- The sum of a block over its columns and then its rows: one number per class. -/
def red2 (v : FVec F S19x128x128 .f32) : FVec F S19 .f32 :=
  multiReduction .add [1] S19 (multiReduction .add [2] S19x128 v 0x00000000#32 reduces_S19x128x128_S19x128 (.inl rfl) rfl)
    0x00000000#32 reduces_S19x128_S19 (.inl rfl) rfl

/-- A plane repeated for every class. -/
def up (v : FVec F S128x128 .f32) : FVec F S19x128x128 .f32 :=
  broadcastTo S19x128x128 (shapeCast S1x128x128 v shapeCasts_S128x128_S1x128x128) broadcasts_S1x128x128_S19x128x128

/-- The three threshold sums. -/
def sconf (W : BitVec 32) (p q : FVec F S19x128x128 .f32) : FVec F S19 .f32 := red2 (mulf p (ind3 W q))
def spred (W : BitVec 32) (q : FVec F S19x128x128 .f32) : FVec F S19 .f32 := red2 (ind3 W q)
def sacc (W : BitVec 32) (h : FVec F S19x128x128 .f32) (qt : FVec F S128x128 .f32) : FVec F S19 .f32 :=
  red2 (mulf h (up (ind2 W qt)))

def zero19 : FVec F S19 .f32 := broadcast S19 (Scalar.ofBits .f32 0x00000000#32)
def col (v : FVec F S19 .f32) : FVec F S19x1 .f32 := shapeCast S19x1 v shapeCasts_S19_S19x1

/-- Ten consecutive differences of a family of threshold sums, side by side (nothing is subtracted from the last). -/
def table (S : Fin 10 → FVec F S19 .f32) : FVec F S19x10 .f32 :=
  concatenate S19x10 1 [⟨S19x1, col (subf (S 0) (S 1))⟩, ⟨S19x1, col (subf (S 1) (S 2))⟩, ⟨S19x1, col (subf (S 2) (S 3))⟩,
    ⟨S19x1, col (subf (S 3) (S 4))⟩, ⟨S19x1, col (subf (S 4) (S 5))⟩, ⟨S19x1, col (subf (S 5) (S 6))⟩,
    ⟨S19x1, col (subf (S 6) (S 7))⟩, ⟨S19x1, col (subf (S 7) (S 8))⟩, ⟨S19x1, col (subf (S 8) (S 9))⟩,
    ⟨S19x1, col (subf (S 9) zero19)⟩] concatenates_S19x1_S19x1_S19x1_S19x1_S19x1_S19x1_S19x1_S19x1_S19x1_S19x1_S19x10_d1

/-- Old contents plus a table, in the block's [1, 19, 10] layout; and the zero block. -/
def store (T : FVec F S19x10 .f32) (xo : Vec F S1x19x10 .f32) : FVec F S1x19x10 .f32 :=
  shapeCast S1x19x10 (addf (shapeCast S19x10 xo shapeCasts_S1x19x10_S19x10) T) shapeCasts_S19x10_S1x19x10
def zeroT : FVec F S1x19x10 .f32 :=
  shapeCast S1x19x10 (broadcast S19x10 (Scalar.ofBits .f32 0x00000000#32)) shapeCasts_S19x10_S1x19x10

/-- The three tables of a tile. -/
def confT (x0 : Vec F S19x128x128 .f32) : FVec F S19x10 .f32 := table fun b => sconf (thrW b) (k0_pay7 x0) (k0_pay8 x0)
def predT (x0 : Vec F S19x128x128 .f32) : FVec F S19x10 .f32 := table fun b => spred (thrW b) (k0_pay8 x0)
def accT (x0 : Vec F S19x128x128 .f32) (x1 : Vec F S128x128 .i32) : FVec F S19x10 .f32 :=
  table fun b => sacc (thrW b) (k0_pay9 x1) (k0_pay10 x0 x1)

/-- What the body leaves in output 2 at a later column tile: what it held plus the tile's table. -/
theorem out_B2 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : ¬cond0_0 i) (x0 : Vec F S19x128x128 .f32) (x1 : Vec F S128x128 .i32) (xo2 xo3 xo4 : Vec F S1x19x10 .f32) :
    out0_B_2 c i a2 h2 a3 h3 a4 h4 a5 h5 a6 h6 hc x0 x1 xo2 xo3 xo4 = store (confT x0) xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

/-- What the body leaves in output 3 at a later column tile: what it held plus the tile's table. -/
theorem out_B3 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : ¬cond0_0 i) (x0 : Vec F S19x128x128 .f32) (x1 : Vec F S128x128 .i32) (xo2 xo3 xo4 : Vec F S1x19x10 .f32) :
    out0_B_3 c i a2 h2 a3 h3 a4 h4 a5 h5 a6 h6 hc x0 x1 xo2 xo3 xo4 = store (predT x0) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

/-- What the body leaves in output 4 at a later column tile: what it held plus the tile's table. -/
theorem out_B4 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : ¬cond0_0 i) (x0 : Vec F S19x128x128 .f32) (x1 : Vec F S128x128 .i32) (xo2 xo3 xo4 : Vec F S1x19x10 .f32) :
    out0_B_4 c i a2 h2 a3 h3 a4 h4 a5 h5 a6 h6 hc x0 x1 xo2 xo3 xo4 = store (accT x0 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

/-- What the body leaves in output 2 at the first column tile of a row: zero plus the tile's table. -/
theorem out_A2 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : cond0_0 i) (x0 : Vec F S19x128x128 .f32) (x1 : Vec F S128x128 .i32)  :
    out0_A_2 c i a2 h2 a3 h3 a4 h4 a5 h5 a6 h6 hc x0 x1 = store (confT x0) zeroT := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x19x10) hz3, View.readCov_unit_zero (S := S1x19x10) _ hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

/-- What the body leaves in output 3 at the first column tile of a row: zero plus the tile's table. -/
theorem out_A3 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : cond0_0 i) (x0 : Vec F S19x128x128 .f32) (x1 : Vec F S128x128 .i32)  :
    out0_A_3 c i a2 h2 a3 h3 a4 h4 a5 h5 a6 h6 hc x0 x1 = store (predT x0) zeroT := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x19x10) hz3, View.readCov_unit_zero (S := S1x19x10) _ hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

/-- What the body leaves in output 4 at the first column tile of a row: zero plus the tile's table. -/
theorem out_A4 (c : Dev nD) (i : grid0.Coords) (a2 : Memref sig .tc .vmem S19x128x128 .f32) (h2 : a2.IsWhole)
    (a3 : Memref sig .tc .vmem S128x128 .i32) (h3 : a3.IsWhole) (a4 : Memref sig .tc .vmem S1x19x10 .f32) (h4 : a4.IsWhole)
    (a5 : Memref sig .tc .vmem S1x19x10 .f32) (h5 : a5.IsWhole) (a6 : Memref sig .tc .vmem S1x19x10 .f32) (h6 : a6.IsWhole)
    (hc : cond0_0 i) (x0 : Vec F S19x128x128 .f32) (x1 : Vec F S128x128 .i32)  :
    out0_A_4 c i a2 h2 a3 h3 a4 h4 a5 h5 a6 h6 hc x0 x1 = store (accT x0 x1) zeroT := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x19x10) hz3, View.readCov_unit_zero (S := S1x19x10) _ hz3]
  simp only [View.readAt_eq_ld, h2.read_unread, h3.read_unread, h4.read_unread, h5.read_unread, h6.read_unread, View.ld_unit_zero (S := S1x19x10) hz3, View.ld_unit_zero (S := S19x128x128) hz3, View.ld_unit_zero (S := S128x128) hz2]
  rfl

end Cert.KernelIdeal.Tile

end
-- ==== Proof.Law1.lean ====
/-
  The values of the literal words: the thresholds 0, 1, …, 9, the scale 10, the word of -∞ and the word of 1.
  A single-precision word with sign 0, exponent field E and significand field T denotes (2^23 + T) · 2^(E - 150).
-/
import proofs.«139248_j19292993094305_2_alg».proof.Proof.Spec
import Idealize.ShloMosaic.PureOps.Ideal.Laws

noncomputable section

open scoped BigOperators

namespace Cert.Hist

open Idealize.ShloMosaic

theorem lit0 : Ideal.ofBits .f32 0x00000000#32 = ((0 : ℝ) : EReal) := by
  simp [Ideal.ofBits, Ideal.ieee]
theorem lit1 : Ideal.ofBits .f32 0x3F800000#32 = ((1 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit3 : Ideal.ofBits .f32 0x40400000#32 = ((3 : ℝ) : EReal) := by
  simp [Ideal.ofBits, Ideal.ieee, -EReal.coe_mul]; norm_num
theorem lit4 : Ideal.ofBits .f32 0x40800000#32 = ((4 : ℝ) : EReal) := by
  simp [Ideal.ofBits, Ideal.ieee, -EReal.coe_mul]; norm_num
theorem lit5 : Ideal.ofBits .f32 0x40A00000#32 = ((5 : ℝ) : EReal) := by
  simp [Ideal.ofBits, Ideal.ieee, -EReal.coe_mul]; norm_num
theorem lit6 : Ideal.ofBits .f32 0x40C00000#32 = ((6 : ℝ) : EReal) := by
  simp [Ideal.ofBits, Ideal.ieee, -EReal.coe_mul]; norm_num
theorem lit7 : Ideal.ofBits .f32 0x40E00000#32 = ((7 : ℝ) : EReal) := by
  simp [Ideal.ofBits, Ideal.ieee, -EReal.coe_mul]; norm_num
theorem lit8 : Ideal.ofBits .f32 0x41000000#32 = ((8 : ℝ) : EReal) := by
  simp [Ideal.ofBits, Ideal.ieee, -EReal.coe_mul]; norm_num
theorem lit9 : Ideal.ofBits .f32 0x41100000#32 = ((9 : ℝ) : EReal) := by
  simp [Ideal.ofBits, Ideal.ieee, -EReal.coe_mul]; norm_num
theorem lit10 : Ideal.ofBits .f32 0x41200000#32 = ((10 : ℝ) : EReal) := by
  simp [Ideal.ofBits, Ideal.ieee, -EReal.coe_mul]; norm_num

/-- The scale is ten. -/
theorem ten_val : ten = ((10 : ℝ) : EReal) := lit10

/-- The word with sign 1, all-ones exponent and zero significand denotes -∞. -/
theorem negInf_val : Ideal.ofBits .f32 0xFF800000#32 = (⊥ : EReal) := by
  simp [Ideal.ofBits, Ideal.ieee]

/-- The word of 1.0 denotes 1. -/
theorem one_val : Ideal.ofBits .f32 0x3F800000#32 = (1 : EReal) := by
  rw [lit1]; rfl

/-- Threshold b is the number b. -/
theorem thr_val (b : Fin 10) : thr b = (((b.val : ℕ) : ℝ) : EReal) := by
  fin_cases b
  · show Ideal.ofBits .f32 0x00000000#32 = _; rw [lit0]; norm_num
  · show Ideal.ofBits .f32 0x3F800000#32 = _; rw [lit1]; norm_num
  · show Ideal.ofBits .f32 0x40000000#32 = _; rw [lit2]; norm_num
  · show Ideal.ofBits .f32 0x40400000#32 = _; rw [lit3]; norm_num
  · show Ideal.ofBits .f32 0x40800000#32 = _; rw [lit4]; norm_num
  · show Ideal.ofBits .f32 0x40A00000#32 = _; rw [lit5]; norm_num
  · show Ideal.ofBits .f32 0x40C00000#32 = _; rw [lit6]; norm_num
  · show Ideal.ofBits .f32 0x40E00000#32 = _; rw [lit7]; norm_num
  · show Ideal.ofBits .f32 0x41000000#32 = _; rw [lit8]; norm_num
  · show Ideal.ofBits .f32 0x41100000#32 = _; rw [lit9]; norm_num

end Cert.Hist

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibNormalize.lean ====
/-
  General facts about the idealized operations, for any kernel that normalises by a reciprocal square root against a
  reference that divides by a square root, builds a strict-triangle mask from 32-bit indices, or accumulates a scalar over
  grid points.
-/
import Idealize.ShloMosaic.PureOps.Ideal
import Mathlib.Algebra.BigOperators.Fin

noncomputable section

open scoped BigOperators

namespace Cert.LibNormalize

open Idealize.ShloMosaic

/-- On the extended reals, for ANY `s > 0` (a positive real or `+∞`), multiplying by the reciprocal square root of `s` is
    dividing by its square root: `x * Ideal.rsqrt s = Ideal.div x (Ideal.sqrt s)`. At a positive real both are `x · (√s)⁻¹`;
    at `+∞` both are `x · 0`. (At `s = 0` they differ: `0 · ⊤ = 0` against `Ideal.div 0 0 = ⊥`.) -/
theorem mul_rsqrt_eq_div_sqrt (x s : EReal) (hs : 0 < s) : x * Ideal.rsqrt s = Ideal.div x (Ideal.sqrt s) := by
  induction s using EReal.rec with
  | bot => exact absurd hs (by simp)
  | coe r =>
    have hr : 0 < r := by exact_mod_cast hs
    have hsq : Real.sqrt r ≠ 0 := (Real.sqrt_pos.2 hr).ne'
    rw [Ideal.rsqrt_coe, Ideal.sqrt_coe, if_neg (not_lt.2 hr.le), if_neg hr.ne', if_neg (not_lt.2 hr.le), Ideal.div_coe hsq, one_div]
  | top =>
    rw [Ideal.rsqrt_top, Ideal.sqrt_top, Ideal.div, if_neg EReal.top_ne_zero, EReal.inv_top]

/-- What `jnp.triu(ones, k=1)` lowers to, against a kernel's signed "less than": selecting 0 where `a + 0 ≥ b` (signed) and 1
    elsewhere is the bit of `a < b` (signed), for any two 32-bit words. -/
theorem select_sge (a b : BitVec 32) : Scalar.select (IntOp.cmpi .sge (IntOp.addi a 0#32) b) 0#1 1#1 = IntOp.cmpi .slt a b := by
  simp only [IntOp.cmpi, IntOp.addi, BitVec.add_zero, Scalar.select, BitVec.slt, BitVec.sle]
  by_cases h : a.toInt < b.toInt
  · have h' : ¬ b.toInt ≤ a.toInt := not_le.2 h
    simp [h, h']
  · have h' : b.toInt ≤ a.toInt := not_lt.1 h
    simp [h, h']

/-- One bit zero-extended to 32 bits and read as a signed integer is the bit read unsigned: a kernel's
    `sitofp (extui mask)` against a reference's `convert` of the same `i1`. -/
theorem toInt_setWidth_one : ∀ b : BitVec 1, (b.setWidth 32).toInt = (b.toNat : ℤ) := by decide

variable {M : Type*} [AddCommMonoid M]

/-- An accumulator that starts at `z + T 0` and adds `T (n + 1)` at each later step holds `z` plus the sum of the `T`s so
    far: a scalar output accumulated across grid points, read after point `n`. In any commutative monoid (the extended
    reals: no finiteness asked). -/
theorem acc_eq_sum (z : M) (T : ℕ → M) (acc : ℕ → M) (h0 : acc 0 = z + T 0) (hs : ∀ n, acc (n + 1) = acc n + T (n + 1)) (n : ℕ) :
    acc n = z + ∑ t ∈ Finset.range (n + 1), T t := by
  induction n with
  | zero => rw [h0, Finset.sum_range_one]
  | succ n ih => rw [hs, ih, Finset.sum_range_succ _ (n + 1), add_assoc]

end Cert.LibNormalize

end
-- ==== Proof.TileAt.lean ====
/-
  One tile of the histogram kernel read entry by entry over the extended reals.

  The indicator of "q above a threshold" is 1 or 0; the double lane sum of a block is the sum over its rows and
  columns; a plane repeated along the classes reads the plane; the side-by-side table reads a difference of two
  threshold sums; "old contents plus table" reads the sum of the two entries.  When the block of logits is the
  tile (i, j) of the whole array, the body's softmax, scaled softmax, label indicator and label probability are
  the whole-array functions P, Q, hit, Pt at row 128 i + r and column 128 j + l, so each table entry is the
  tile's threshold sum minus the next threshold's.
-/
import proofs.«139248_j19292993094305_2_alg».proof.Proof.Tile
import proofs.«139248_j19292993094305_2_alg».proof.Proof.Law1
import proofs.«139248_j19292993094305_2_alg».proof.Proof.LibKeepdims
import proofs.«139248_j19292993094305_2_alg».proof.Proof.LibNormalize
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.KernelIdeal.Tile

open Cert.KernelIdeal Cert.KernelIdeal.Gen Cert.Hist

/-- The zero-extended comparison bit, read as a number, is the indicator. -/
theorem ind_word (a t : EReal) :
    (((BitVec.setWidth 32 (Ideal.cmp .ogt a t)).toInt : ℝ) : EReal) = above a t := by
  unfold above Ideal.cmp
  rw [Cert.LibNormalize.toInt_setWidth_one]
  by_cases h : t < a
  · rw [if_pos h]; simp [h]
  · rw [if_neg h]; simp [h]

theorem ind3_at (W : BitVec 32) (q : FVec Ideal S19x128x128 .f32) (j : S19x128x128.Idx) :
    ind3 W q j = above (q j) (Ideal.ofBits .f32 W) := ind_word _ _
theorem ind2_at (W : BitVec 32) (q : FVec Ideal S128x128 .f32) (j : S128x128.Idx) :
    ind2 W q j = above (q j) (Ideal.ofBits .f32 W) := ind_word _ _

/-- The double lane sum at class c: over the rows, over the columns. -/
theorem red2_at (v : FVec Ideal S19x128x128 .f32) (c : Fin 19) :
    red2 v (ix1 c) = ∑ r : Fin 128, ∑ l : Fin 128, v (ix3 c r l) := by
  unfold red2
  refine (Ideal.multiReduction_add_single _ 0x00000000#32 reduces_S19x128_S19 (.inl rfl) rfl (ix1 c)).trans ?_
  refine Finset.sum_congr rfl fun r _ => ?_
  refine (Ideal.multiReduction_add_single v 0x00000000#32 reduces_S19x128x128_S19x128 (.inl rfl) rfl _).trans ?_
  refine Finset.sum_congr rfl fun l _ => congrArg v (funext fun a => Fin.ext ?_)
  match a with
  | ⟨0, _⟩ => rfl
  | ⟨1, _⟩ => rfl
  | ⟨2, _⟩ => rfl

/-- A plane repeated along the classes reads the plane (any element type). -/
theorem plane_at {α : Type} (v : S128x128.Idx → α) (c : Fin 19) (r l : Fin 128) :
    broadcastTo S19x128x128 (shapeCast S1x128x128 v shapeCasts_S128x128_S1x128x128) broadcasts_S1x128x128_S19x128x128 (ix3 c r l)
      = v (ix2 r l) := by
  refine (broadcastTo_apply _ broadcasts_S1x128x128_S19x128x128 (ix3 c r l) (ix3 (0 : Fin 1) r l) (fun a => ?_)).trans ?_
  · match a with
    | ⟨0, _⟩ => rfl
    | ⟨1, _⟩ => rfl
    | ⟨2, _⟩ => rfl
  · exact shapeCast_ab_1ab_apply v _ 0 r l

theorem up_at (v : FVec Ideal S128x128 .f32) (c : Fin 19) (r l : Fin 128) : up v (ix3 c r l) = v (ix2 r l) :=
  plane_at v c r l

theorem sconf_at (W : BitVec 32) (p q : FVec Ideal S19x128x128 .f32) (c : Fin 19) :
    sconf W p q (ix1 c) = ∑ r : Fin 128, ∑ l : Fin 128, p (ix3 c r l) * above (q (ix3 c r l)) (Ideal.ofBits .f32 W) := by
  unfold sconf
  refine (red2_at _ c).trans (Finset.sum_congr rfl fun r _ => Finset.sum_congr rfl fun l _ => ?_)
  exact congrArg (p (ix3 c r l) * ·) (ind3_at W q _)

theorem spred_at (W : BitVec 32) (q : FVec Ideal S19x128x128 .f32) (c : Fin 19) :
    spred W q (ix1 c) = ∑ r : Fin 128, ∑ l : Fin 128, above (q (ix3 c r l)) (Ideal.ofBits .f32 W) := by
  unfold spred
  exact (red2_at _ c).trans (Finset.sum_congr rfl fun r _ => Finset.sum_congr rfl fun l _ => ind3_at W q _)

theorem sacc_at (W : BitVec 32) (h : FVec Ideal S19x128x128 .f32) (qt : FVec Ideal S128x128 .f32) (c : Fin 19) :
    sacc W h qt (ix1 c) = ∑ r : Fin 128, ∑ l : Fin 128, h (ix3 c r l) * above (qt (ix2 r l)) (Ideal.ofBits .f32 W) := by
  unfold sacc
  refine (red2_at _ c).trans (Finset.sum_congr rfl fun r _ => Finset.sum_congr rfl fun l _ => ?_)
  exact congrArg (h (ix3 c r l) * ·) ((up_at _ c r l).trans (ind2_at W qt _))

/-- A vector stood up as a column reads the vector. -/
theorem col_at (v : FVec Ideal S19 .f32) (c : Fin 19) : col v (ix2 c (0 : Fin 1)) = v (ix1 c) :=
  Cert.LibKeepdims.shapeCast_a_a1_apply v _ c 0

/-- Column b of the table: threshold sum b minus threshold sum b + 1 (minus nothing at the last). -/
theorem table_at (S : Fin 10 → FVec Ideal S19 .f32) (c : Fin 19) (b : Fin 10) :
    table S (ix2 c b) = S b (ix1 c) - (if hb : b.val + 1 < 10 then S ⟨b.val + 1, hb⟩ (ix1 c) else 0) := by
  unfold table
  match b with
  | ⟨0, _⟩ =>
    refine Eq.trans (concatenate_apply_piece (t := S19x10) (1 : Fin 2) _ _ _ 0 (by show 0 < 10; omega) S19x1 _ rfl rfl 0 rfl (ix2 c (0 : Fin 1))
      (fun b' hb' => by match b' with | ⟨0, _⟩ => rfl | ⟨1, _⟩ => exact absurd rfl hb') rfl) ?_
    refine (col_at _ c).trans ?_
    rw [dif_pos (show 0 + 1 < 10 by omega)]; rfl
  | ⟨1, _⟩ =>
    refine Eq.trans (concatenate_apply_piece (t := S19x10) (1 : Fin 2) _ _ _ 1 (by show 1 < 10; omega) S19x1 _ rfl rfl 1 rfl (ix2 c (0 : Fin 1))
      (fun b' hb' => by match b' with | ⟨0, _⟩ => rfl | ⟨1, _⟩ => exact absurd rfl hb') rfl) ?_
    refine (col_at _ c).trans ?_
    rw [dif_pos (show 1 + 1 < 10 by omega)]; rfl
  | ⟨2, _⟩ =>
    refine Eq.trans (concatenate_apply_piece (t := S19x10) (1 : Fin 2) _ _ _ 2 (by show 2 < 10; omega) S19x1 _ rfl rfl 2 rfl (ix2 c (0 : Fin 1))
      (fun b' hb' => by match b' with | ⟨0, _⟩ => rfl | ⟨1, _⟩ => exact absurd rfl hb') rfl) ?_
    refine (col_at _ c).trans ?_
    rw [dif_pos (show 2 + 1 < 10 by omega)]; rfl
  | ⟨3, _⟩ =>
    refine Eq.trans (concatenate_apply_piece (t := S19x10) (1 : Fin 2) _ _ _ 3 (by show 3 < 10; omega) S19x1 _ rfl rfl 3 rfl (ix2 c (0 : Fin 1))
      (fun b' hb' => by match b' with | ⟨0, _⟩ => rfl | ⟨1, _⟩ => exact absurd rfl hb') rfl) ?_
    refine (col_at _ c).trans ?_
    rw [dif_pos (show 3 + 1 < 10 by omega)]; rfl
  | ⟨4, _⟩ =>
    refine Eq.trans (concatenate_apply_piece (t := S19x10) (1 : Fin 2) _ _ _ 4 (by show 4 < 10; omega) S19x1 _ rfl rfl 4 rfl (ix2 c (0 : Fin 1))
      (fun b' hb' => by match b' with | ⟨0, _⟩ => rfl | ⟨1, _⟩ => exact absurd rfl hb') rfl) ?_
    refine (col_at _ c).trans ?_
    rw [dif_pos (show 4 + 1 < 10 by omega)]; rfl
  | ⟨5, _⟩ =>
    refine Eq.trans (concatenate_apply_piece (t := S19x10) (1 : Fin 2) _ _ _ 5 (by show 5 < 10; omega) S19x1 _ rfl rfl 5 rfl (ix2 c (0 : Fin 1))
      (fun b' hb' => by match b' with | ⟨0, _⟩ => rfl | ⟨1, _⟩ => exact absurd rfl hb') rfl) ?_
    refine (col_at _ c).trans ?_
    rw [dif_pos (show 5 + 1 < 10 by omega)]; rfl
  | ⟨6, _⟩ =>
    refine Eq.trans (concatenate_apply_piece (t := S19x10) (1 : Fin 2) _ _ _ 6 (by show 6 < 10; omega) S19x1 _ rfl rfl 6 rfl (ix2 c (0 : Fin 1))
      (fun b' hb' => by match b' with | ⟨0, _⟩ => rfl | ⟨1, _⟩ => exact absurd rfl hb') rfl) ?_
    refine (col_at _ c).trans ?_
    rw [dif_pos (show 6 + 1 < 10 by omega)]; rfl
  | ⟨7, _⟩ =>
    refine Eq.trans (concatenate_apply_piece (t := S19x10) (1 : Fin 2) _ _ _ 7 (by show 7 < 10; omega) S19x1 _ rfl rfl 7 rfl (ix2 c (0 : Fin 1))
      (fun b' hb' => by match b' with | ⟨0, _⟩ => rfl | ⟨1, _⟩ => exact absurd rfl hb') rfl) ?_
    refine (col_at _ c).trans ?_
    rw [dif_pos (show 7 + 1 < 10 by omega)]; rfl
  | ⟨8, _⟩ =>
    refine Eq.trans (concatenate_apply_piece (t := S19x10) (1 : Fin 2) _ _ _ 8 (by show 8 < 10; omega) S19x1 _ rfl rfl 8 rfl (ix2 c (0 : Fin 1))
      (fun b' hb' => by match b' with | ⟨0, _⟩ => rfl | ⟨1, _⟩ => exact absurd rfl hb') rfl) ?_
    refine (col_at _ c).trans ?_
    rw [dif_pos (show 8 + 1 < 10 by omega)]; rfl
  | ⟨9, _⟩ =>
    refine Eq.trans (concatenate_apply_piece (t := S19x10) (1 : Fin 2) _ _ _ 9 (by show 9 < 10; omega) S19x1 _ rfl rfl 9 rfl (ix2 c (0 : Fin 1))
      (fun b' hb' => by match b' with | ⟨0, _⟩ => rfl | ⟨1, _⟩ => exact absurd rfl hb') rfl) ?_
    refine (col_at _ c).trans ?_
    rw [dif_neg (show ¬ 9 + 1 < 10 by omega)]; show S 9 (ix1 c) - Ideal.ofBits .f32 0x00000000#32 = _; rw [Ideal.ofBits_zero_f32]; rfl

/-- Old contents plus table, and the zero block, at an entry. -/
theorem store_at (T : FVec Ideal S19x10 .f32) (xo : Vec Ideal S1x19x10 .f32) (u : Fin 1) (c : Fin 19) (b : Fin 10) :
    store T xo (ix3 u c b) = xo (ix3 (0 : Fin 1) c b) + T (ix2 c b) := by
  unfold store
  refine (shapeCast_ab_1ab_apply _ _ u c b).trans ?_
  show shapeCast S19x10 xo _ (ix2 c b) + T (ix2 c b) = _
  rw [shapeCast_1ab_ab_apply]

theorem zeroT_at (u : Fin 1) (c : Fin 19) (b : Fin 10) : (zeroT : FVec Ideal S1x19x10 .f32) (ix3 u c b) = 0 := by
  unfold zeroT
  refine (shapeCast_ab_1ab_apply _ _ u c b).trans ?_
  exact Ideal.ofBits_zero_f32

end Cert.KernelIdeal.Tile

end
-- ==== Proof.TileWhole.lean ====
/-
  The tile's softmax is the whole array's.

  When the [19, 128, 128] block holds the logits of rows 128 i + r and columns 128 j + l, and the [128, 128] block the
  labels there, the body's softmax at (c, r, l) is P at class c, row 128 i + r, column 128 j + l; its scaling is Q; the
  label indicator is hit; and ten times the label's own probability is Pt times ten.  Hence every entry of the tile's
  three tables is that tile's threshold sum minus the next threshold's sum, in the vocabulary of the specification.
-/
import proofs.«139248_j19292993094305_2_alg».proof.Proof.TileAt

set_option maxRecDepth 16384

noncomputable section

open scoped BigOperators
open Idealize.ShloMosaic Idealize.ShloMosaic.ValueIdx

namespace Cert.KernelIdeal.Tile

open Cert.KernelIdeal Cert.KernelIdeal.Gen Cert.Hist

section Generic
variable {F : FTy → Type} [FloatOps F]

/-- The shifted exponential and the softmax of a block, for any float instance. -/
def e3 (x : FVec F S19x128x128 .f32) : FVec F S19x128x128 .f32 :=
  exp (subf x (up (multiReduction .maximumf [0] S128x128 x 0xFF800000#32 reduces_S19x128x128_S128x128 (.inl rfl) rfl)))
def sm3 (x : FVec F S19x128x128 .f32) : FVec F S19x128x128 .f32 :=
  divf (e3 x) (up (multiReduction .add [0] S128x128 (e3 x) 0x00000000#32 reduces_S19x128x128_S128x128 (.inl rfl) rfl))

theorem pay7_eq (x0 : Vec F S19x128x128 .f32) :
    k0_pay7 x0 = sm3 (shapeCast S19x128x128 x0 shapeCasts_S19x128x128_S19x128x128) := rfl

end Generic

/-- The largest logit of a pixel of the block: the fold of max from the accumulator's value over the classes. -/
def tmax (x : FVec Ideal S19x128x128 .f32) (r l : Fin 128) : EReal :=
  (Finset.univ : Finset (Fin 19)).fold max (Ideal.ofBits .f32 0xFF800000#32) (fun k => x (ix3 k r l))

theorem max0_at (x : FVec Ideal S19x128x128 .f32) (r l : Fin 128) :
    multiReduction .maximumf [0] S128x128 x 0xFF800000#32 reduces_S19x128x128_S128x128 (.inl rfl) rfl (ix2 r l) = tmax x r l := by
  refine (Ideal.multiReduction_maximumf_single x 0xFF800000#32 reduces_S19x128x128_S128x128 (.inl rfl) rfl (ix2 r l)).trans ?_
  unfold tmax
  refine congrArg (fun f => (Finset.univ : Finset (Fin 19)).fold max (Ideal.ofBits .f32 0xFF800000#32) f) (funext fun k => ?_)
  refine congrArg x (funext fun a => Fin.ext ?_)
  match a with
  | ⟨0, _⟩ => rfl
  | ⟨1, _⟩ => rfl
  | ⟨2, _⟩ => rfl

theorem sum0_at (v : FVec Ideal S19x128x128 .f32) (r l : Fin 128) :
    multiReduction .add [0] S128x128 v 0x00000000#32 reduces_S19x128x128_S128x128 (.inl rfl) rfl (ix2 r l)
      = ∑ k : Fin 19, v (ix3 k r l) := by
  refine (Ideal.multiReduction_add_single v 0x00000000#32 reduces_S19x128x128_S128x128 (.inl rfl) rfl (ix2 r l)).trans ?_
  refine Finset.sum_congr rfl fun k _ => congrArg v (funext fun a => Fin.ext ?_)
  match a with
  | ⟨0, _⟩ => rfl
  | ⟨1, _⟩ => rfl
  | ⟨2, _⟩ => rfl

theorem e3_at (x : FVec Ideal S19x128x128 .f32) (c : Fin 19) (r l : Fin 128) :
    e3 x (ix3 c r l) = Ideal.exp (x (ix3 c r l) - tmax x r l) := by
  unfold e3
  show Ideal.exp (x (ix3 c r l) - up (F := Ideal) _ (ix3 c r l)) = _
  rw [up_at, max0_at]

theorem sm3_at (x : FVec Ideal S19x128x128 .f32) (c : Fin 19) (r l : Fin 128) :
    sm3 x (ix3 c r l) = Ideal.div (e3 x (ix3 c r l)) (∑ k : Fin 19, e3 x (ix3 k r l)) := by
  unfold sm3
  show Ideal.div (e3 x (ix3 c r l)) (up (F := Ideal) _ (ix3 c r l)) = _
  rw [up_at, sum0_at]

section Whole
variable (X : SX.Idx → EReal) (Tg : ST.Idx → BitVec 32) (i : Fin 8) (j : Fin 16)
variable (x0 : Vec Ideal S19x128x128 .f32) (x1 : Vec Ideal S128x128 .i32)
variable (hx0 : ∀ (k : Fin 19) (r l : Fin 128), x0 (ix3 k r l) = xat X k (row i r) (Hist.col j l))
variable (hx1 : ∀ (r l : Fin 128), x1 (ix2 r l) = Tg (ix3 (0 : Fin 1) (row i r) (Hist.col j l)))
include hx0

theorem pay7_whole (c : Fin 19) (r l : Fin 128) : k0_pay7 x0 (ix3 c r l) = P X c (row i r) (Hist.col j l) := by
  rw [pay7_eq, shapeCast_self, sm3_at]
  simp only [e3_at, tmax, hx0, negInf_val]
  rfl

theorem pay8_whole (c : Fin 19) (r l : Fin 128) : k0_pay8 x0 (ix3 c r l) = Q X c (row i r) (Hist.col j l) := by
  show k0_pay7 x0 (ix3 c r l) * Ideal.ofBits .f32 0x41200000#32 = _
  rw [pay7_whole X i j x0 hx0]
  rfl

omit hx0 in
include hx1 in
theorem pay9_whole (c : Fin 19) (r l : Fin 128) : k0_pay9 x1 (ix3 c r l) = hit Tg c (row i r) (Hist.col j l) := by
  unfold k0_pay9
  simp only [shapeCast_self]
  show (((BitVec.setWidth 32 (IntOp.cmpi .eq (broadcastTo S19x128x128 (shapeCast S1x128x128 x1 _) _ (ix3 c r l))
    (iota .tc S19x128x128 32 [0] iota_S19x128x128_d0_w32 (ix3 c r l)))).toInt : ℝ) : EReal) = _
  rw [plane_at, iota_single_apply, hx1, Cert.LibNormalize.toInt_setWidth_one]
  unfold hit IntOp.cmpi
  show ((((BitVec.ofBool (Tg (ix3 (0 : Fin 1) (row i r) (Hist.col j l)) == BitVec.ofNat 32 c.val)).toNat : ℤ) : ℝ) : EReal) = _
  by_cases h : Tg (ix3 (0 : Fin 1) (row i r) (Hist.col j l)) = BitVec.ofNat 32 c.val
  · rw [if_pos h]; simp [h]
  · rw [if_neg h]; simp [h]

include hx1 in
theorem pay10_whole (r l : Fin 128) : k0_pay10 x0 x1 (ix2 r l) = Pt X Tg (row i r) (Hist.col j l) * ten := by
  unfold k0_pay10
  show multiReduction .add [0] S128x128 (mulf (k0_pay9 x1) (k0_pay7 x0)) 0x00000000#32 reduces_S19x128x128_S128x128 (.inl rfl) rfl (ix2 r l)
    * Ideal.ofBits .f32 0x41200000#32 = _
  rw [sum0_at]
  unfold Pt ten
  refine congrArg (· * Ideal.ofBits .f32 0x41200000#32) (Finset.sum_congr rfl fun k _ => ?_)
  show k0_pay9 x1 (ix3 k r l) * k0_pay7 x0 (ix3 k r l) = _
  rw [pay9_whole Tg i j x1 hx1, pay7_whole X i j x0 hx0]

/-- The three tables of the tile, entry (c, b): this tile's threshold sum minus the next threshold's. -/
theorem confT_at (c : Fin 19) (b : Fin 10) :
    confT x0 (ix2 c b) = tsum (Vconf X) b i j c - tnext (Vconf X) b i j c := by
  have hS : ∀ b' : Fin 10, sconf (thrW b') (k0_pay7 x0) (k0_pay8 x0) (ix1 c) = tsum (Vconf X) b' i j c := fun b' => by
    rw [sconf_at]
    refine Finset.sum_congr rfl fun r _ => Finset.sum_congr rfl fun l _ => ?_
    rw [pay7_whole X i j x0 hx0, pay8_whole X i j x0 hx0]
    rfl
  unfold confT tnext
  rw [table_at]
  by_cases hb : b.val + 1 < 10
  · rw [dif_pos hb, dif_pos hb, hS, hS]
  · rw [dif_neg hb, dif_neg hb, hS]

theorem predT_at (c : Fin 19) (b : Fin 10) :
    predT x0 (ix2 c b) = tsum (Vpred X) b i j c - tnext (Vpred X) b i j c := by
  have hS : ∀ b' : Fin 10, spred (thrW b') (k0_pay8 x0) (ix1 c) = tsum (Vpred X) b' i j c := fun b' => by
    rw [spred_at]
    refine Finset.sum_congr rfl fun r _ => Finset.sum_congr rfl fun l _ => ?_
    rw [pay8_whole X i j x0 hx0]
    rfl
  unfold predT tnext
  rw [table_at]
  by_cases hb : b.val + 1 < 10
  · rw [dif_pos hb, dif_pos hb, hS, hS]
  · rw [dif_neg hb, dif_neg hb, hS]

include hx1 in
theorem accT_at (c : Fin 19) (b : Fin 10) :
    accT x0 x1 (ix2 c b) = tsum (Vacc X Tg) b i j c - tnext (Vacc X Tg) b i j c := by
  have hS : ∀ b' : Fin 10, sacc (thrW b') (k0_pay9 x1) (k0_pay10 x0 x1) (ix1 c) = tsum (Vacc X Tg) b' i j c := fun b' => by
    rw [sacc_at]
    refine Finset.sum_congr rfl fun r _ => Finset.sum_congr rfl fun l _ => ?_
    rw [pay9_whole Tg i j x1 hx1, pay10_whole X Tg i j x0 x1 hx0 hx1]
    rfl
  unfold accT tnext
  rw [table_at]
  by_cases hb : b.val + 1 < 10
  · rw [dif_pos hb, dif_pos hb, hS, hS]
  · rw [dif_neg hb, dif_neg hb, hS]

end Whole

end Cert.KernelIdeal.Tile

end
-- ==== Proof.Blocks.lean ====
/-
  The kernel's input blocks, read at an index.

  The grid is 8 × 16: point t has row tile t / 16 and column tile t % 16.  The first window's block at t is the
  logits restricted to all 19 classes, rows 128 (t / 16) + r and columns 128 (t % 16) + l; the second window's block
  is the labels at the same rows and columns.  Both arrays are the arguments with their leading unit axis dropped, so
  an entry (k, h, w) of the first is the argument at (0, k, h, w) and an entry (h, w) of the second the argument at (0, h, w).
-/
import proofs.«139248_j19292993094305_2_alg».proof.Proof.Gen.KernelIdeal.Frame
import proofs.«139248_j19292993094305_2_alg».proof.Proof.Spec
import Idealize.ShloMosaic.Lib.Pipeline.Value
import Idealize.ShloMosaic.Lib.StableHlo.Run
import Idealize.ShloMosaic.Lib.Tactic
import Idealize.ShloMosaic.Lib.ValueLayout

noncomputable section

namespace Cert.KernelIdeal.Blocks

open Idealize.ShloMosaic Idealize.ShloMosaic.TcCoe Idealize.SL.Sem
open Cert.KernelIdeal Cert.KernelIdeal.Gen Cert.Hist Idealize.ShloMosaic.ValueIdx
open Facts₀ Facts

variable [Facts]
variable (m : (ℓ : Loc nD τ sig) → Buf (Elt Ideal) ℓ)

/-- The first window's array is the logits with the leading unit axis dropped. -/
theorem V_main_v0 (c : Dev nD) :
    (V m c main_v0 : S19x1024x2048.Idx → EReal)
      = shapeCast S19x1024x2048 (m ((c : Thread nD τ).loc main_arg0)) Facts₀.shapeCasts_S1x19x1024x2048_S19x1024x2048 := by
  show StableHlo.after hostOps0 (fun b => m (c, b)) (Proc.devRef .tc main_v0) = _
  after_results
  rfl

/-- The second window's array is the labels with the leading unit axis dropped. -/
theorem V_main_v1 (c : Dev nD) :
    (V m c main_v1 : S1024x2048.Idx → BitVec 32)
      = shapeCast S1024x2048 (m ((c : Thread nD τ).loc main_arg1)) Facts₀.shapeCasts_S1x1024x2048_S1024x2048 := by
  show StableHlo.after hostOps0 (fun b => m (c, b)) (Proc.devRef .tc main_v1) = _
  after_results
  rfl

/-- The first window's block index at point t is (0, t / 16, t % 16). -/
theorem idx0 : ∀ t : Fin grid0.N,
    win0_0.index t 0 = 0 ∧ win0_0.index t 1 = t.val / 16 ∧ win0_0.index t 2 = t.val % 16 := by
  decide +kernel

/-- The second window's block index at point t is (t / 16, t % 16). -/
theorem idx1 : ∀ t : Fin grid0.N, win0_1.index t 0 = t.val / 16 ∧ win0_1.index t 1 = t.val % 16 := by
  decide +kernel

/-- The first block at (k, r, l) is the logit of class k at row 128 I + r and column 128 J + l. -/
theorem iblk0_at (c : Dev nD) (t : Fin cfg0.N) (I : Fin 8) (J : Fin 16) (hI : I.val = t.val / 16) (hJ : J.val = t.val % 16)
    (k : Fin 19) (r l : Fin 128) :
    (iblk m c 0 t : Vec Ideal S19x128x128 .f32) (ix3 k r l)
      = xat (m ((c : Thread nD τ).loc main_arg0)) k (row I r) (col J l) := by
  unfold iblk
  rw [View.read_apply]
  show (V m c main_v0 : S19x1024x2048.Idx → EReal) _ = _
  rw [V_main_v0]
  have he : (((cfg0.win 0).blk t).view.emb (ix3 k r l) : S19x1024x2048.Idx) = ix3 k (row I r) (col J l) := by
    funext a
    apply Fin.ext
    have hi := idx0 t
    match a with
    | ⟨0, _⟩ => show win0_0.index t 0 * 19 + 1 * k.val = k.val; rw [hi.1]; omega
    | ⟨1, _⟩ => show win0_0.index t 1 * 128 + 1 * r.val = 128 * I.val + r.val; rw [hi.2.1]; omega
    | ⟨2, _⟩ => show win0_0.index t 2 * 128 + 1 * l.val = 128 * J.val + l.val; rw [hi.2.2]; omega
  refine (congrArg (shapeCast S19x1024x2048 (m ((c : Thread nD τ).loc main_arg0)) Facts₀.shapeCasts_S1x19x1024x2048_S19x1024x2048) he).trans ?_
  exact shapeCast_1abc_abc_apply _ _ k (row I r) (col J l)

/-- The second block at (r, l) is the label at row 128 I + r and column 128 J + l. -/
theorem iblk1_at (c : Dev nD) (t : Fin cfg0.N) (I : Fin 8) (J : Fin 16) (hI : I.val = t.val / 16) (hJ : J.val = t.val % 16)
    (r l : Fin 128) :
    (iblk m c 1 t : Vec Ideal S128x128 .i32) (ix2 r l)
      = (m ((c : Thread nD τ).loc main_arg1)) (ix3 (0 : Fin 1) (row I r) (col J l)) := by
  unfold iblk
  rw [View.read_apply]
  show (V m c main_v1 : S1024x2048.Idx → BitVec 32) _ = _
  rw [V_main_v1]
  have he : (((cfg0.win 1).blk t).view.emb (ix2 r l) : S1024x2048.Idx) = ix2 (row I r) (col J l) := by
    funext a
    apply Fin.ext
    have hi := idx1 t
    match a with
    | ⟨0, _⟩ => show win0_1.index t 0 * 128 + 1 * r.val = 128 * I.val + r.val; rw [hi.1]; omega
    | ⟨1, _⟩ => show win0_1.index t 1 * 128 + 1 * l.val = 128 * J.val + l.val; rw [hi.2]; omega
  refine (congrArg (shapeCast S1024x2048 (m ((c : Thread nD τ).loc main_arg1)) Facts₀.shapeCasts_S1x1024x2048_S1024x2048) he).trans ?_
  exact shapeCast_1ab_ab_apply _ _ (row I r) (col J l)

end Cert.KernelIdeal.Blocks
end
-- ==== Proof.Chain.lean ====
/-
  The three accumulated blocks of the histogram kernel, point by point, and the arrays they are written to.

  Along a row of tiles the body adds each tile's table to the output block, starting from zero at the row's first
  tile; the block is written back after the row's last tile.  So the entry (c, b) of block i of an output array is
  the sum over the sixteen column tiles of that tile's threshold difference.
-/
import proofs.«139248_j19292993094305_2_alg».proof.Proof.TileWhole
import proofs.«139248_j19292993094305_2_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Tile Cert.Hist

/-- A quantity that restarts at each multiple of 16 and otherwise adds the point's term is the partial sum of the
    row's terms. -/
theorem restart_sum (f : ℕ → ℕ → EReal) (a : ℕ → EReal)
    (hA : ∀ n, n < 128 → n % 16 = 0 → a n = f (n / 16) (n % 16))
    (hB : ∀ n, n < 128 → ¬ n % 16 = 0 → a n = a (n - 1) + f (n / 16) (n % 16)) :
    ∀ n, n < 128 → a n = ∑ j ∈ Finset.range (n % 16 + 1), f (n / 16) j := by
  intro n
  induction n with
  | zero => intro h; rw [hA 0 h rfl]; simp
  | succ n ih =>
    intro h
    by_cases h0 : (n + 1) % 16 = 0
    · rw [hA _ h h0, h0]; simp
    · have e1 : (n + 1) / 16 = n / 16 := by omega
      have e2 : (n + 1) % 16 = n % 16 + 1 := by omega
      rw [hB _ h h0, Nat.add_sub_cancel, ih (by omega), e1, e2, Finset.sum_range_succ _ (n % 16 + 1)]

variable (m : (ℓ : Loc nD τ sig) → Buf (Elt Ideal) ℓ) (c : Dev nD)

/-- The two argument arrays. -/
abbrev X : SX.Idx → EReal := m ((c : Thread nD τ).loc main_arg0)
abbrev Tg : ST.Idx → BitVec 32 := m ((c : Thread nD τ).loc main_arg1)

/-- The threshold difference of tile (i, j), as a function of natural numbers (0 outside the grid). -/
def dN (V : Fin 10 → Field) (b : Fin 10) (c' : Fin 19) (i j : ℕ) : EReal :=
  if h : i < 8 ∧ j < 16 then tsum V b ⟨i, h.1⟩ ⟨j, h.2⟩ c' - tnext V b ⟨i, h.1⟩ ⟨j, h.2⟩ c' else 0

theorem lt128 (t : Fin cfg0.N) : t.val < 128 := lt_of_lt_of_eq t.isLt (show cfg0.N = 128 from N_0)

/-- The tables of the tile at point t. -/
theorem tile_conf (t : Fin cfg0.N) (c' : Fin 19) (b : Fin 10) :
    confT (iblk m c 0 t) (ix2 c' b) = dN (Vconf (X m c)) b c' (t.val / 16) (t.val % 16) := by
  have hN := lt128 t
  unfold dN
  rw [dif_pos ⟨by omega, by omega⟩]
  exact confT_at (X m c) ⟨t.val / 16, by omega⟩ ⟨t.val % 16, by omega⟩ (iblk m c 0 t)
    (fun k r l => Cert.KernelIdeal.Blocks.iblk0_at m c t ⟨t.val / 16, by omega⟩ ⟨t.val % 16, by omega⟩ rfl rfl k r l) c' b

theorem tile_pred (t : Fin cfg0.N) (c' : Fin 19) (b : Fin 10) :
    predT (iblk m c 0 t) (ix2 c' b) = dN (Vpred (X m c)) b c' (t.val / 16) (t.val % 16) := by
  have hN := lt128 t
  unfold dN
  rw [dif_pos ⟨by omega, by omega⟩]
  exact predT_at (X m c) ⟨t.val / 16, by omega⟩ ⟨t.val % 16, by omega⟩ (iblk m c 0 t)
    (fun k r l => Cert.KernelIdeal.Blocks.iblk0_at m c t ⟨t.val / 16, by omega⟩ ⟨t.val % 16, by omega⟩ rfl rfl k r l) c' b

theorem tile_acc (t : Fin cfg0.N) (c' : Fin 19) (b : Fin 10) :
    accT (iblk m c 0 t) (iblk m c 1 t) (ix2 c' b) = dN (Vacc (X m c) (Tg m c)) b c' (t.val / 16) (t.val % 16) := by
  have hN := lt128 t
  unfold dN
  rw [dif_pos ⟨by omega, by omega⟩]
  exact accT_at (X m c) (Tg m c) ⟨t.val / 16, by omega⟩ ⟨t.val % 16, by omega⟩ (iblk m c 0 t) (iblk m c 1 t)
    (fun k r l => Cert.KernelIdeal.Blocks.iblk0_at m c t ⟨t.val / 16, by omega⟩ ⟨t.val % 16, by omega⟩ rfl rfl k r l)
    (fun r l => Cert.KernelIdeal.Blocks.iblk1_at m c t ⟨t.val / 16, by omega⟩ ⟨t.val % 16, by omega⟩ rfl rfl r l) c' b

/-- At a row's first tile the three blocks hold the tile's tables. -/
theorem outs_A (t : Fin cfg0.N) (h0 : t.val % 16 = 0) (c' : Fin 19) (b : Fin 10) :
    (outsAt0 m c t.val t.isLt).1 (ix3 (0 : Fin 1) c' b) = confT (iblk m c 0 t) (ix2 c' b)
    ∧ (outsAt0 m c t.val t.isLt).2.1 (ix3 (0 : Fin 1) c' b) = predT (iblk m c 0 t) (ix2 c' b)
    ∧ (outsAt0 m c t.val t.isLt).2.2 (ix3 (0 : Fin 1) c' b) = accT (iblk m c 0 t) (iblk m c 1 t) (ix2 c' b) := by
  rw [outsAt0_A m c t h0]
  dsimp only
  refine ⟨?_, ?_, ?_⟩
  · refine (congrFun (out_A2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) (ix3 (0 : Fin 1) c' b)).trans ?_
    rw [store_at, zeroT_at, zero_add]
  · refine (congrFun (out_A3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) (ix3 (0 : Fin 1) c' b)).trans ?_
    rw [store_at, zeroT_at, zero_add]
  · refine (congrFun (out_A4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) (ix3 (0 : Fin 1) c' b)).trans ?_
    rw [store_at, zeroT_at, zero_add]

/-- At a later tile of the row each block holds what it held plus the tile's table. -/
theorem outs_B (t : Fin cfg0.N) (h0 : ¬ t.val % 16 = 0) (c' : Fin 19) (b : Fin 10) :
    (outsAt0 m c t.val t.isLt).1 (ix3 (0 : Fin 1) c' b)
        = (outsAt0 m c (t.val - 1) (Nat.lt_of_le_of_lt (Nat.sub_le _ _) t.isLt)).1 (ix3 (0 : Fin 1) c' b) + confT (iblk m c 0 t) (ix2 c' b)
    ∧ (outsAt0 m c t.val t.isLt).2.1 (ix3 (0 : Fin 1) c' b)
        = (outsAt0 m c (t.val - 1) (Nat.lt_of_le_of_lt (Nat.sub_le _ _) t.isLt)).2.1 (ix3 (0 : Fin 1) c' b) + predT (iblk m c 0 t) (ix2 c' b)
    ∧ (outsAt0 m c t.val t.isLt).2.2 (ix3 (0 : Fin 1) c' b)
        = (outsAt0 m c (t.val - 1) (Nat.lt_of_le_of_lt (Nat.sub_le _ _) t.isLt)).2.2 (ix3 (0 : Fin 1) c' b) + accT (iblk m c 0 t) (iblk m c 1 t) (ix2 c' b) := by
  rw [outsAt0_B m c t h0]
  dsimp only
  refine ⟨?_, ?_, ?_⟩
  · refine (congrFun (out_B2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) c' b)).trans ?_
    rw [store_at]
  · refine (congrFun (out_B3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) c' b)).trans ?_
    rw [store_at]
  · refine (congrFun (out_B4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) c' b)).trans ?_
    rw [store_at]

/-- Entry (c', b) of the three blocks after point n, as functions of a natural number (0 past the grid). -/
def aC (c' : Fin 19) (b : Fin 10) (n : ℕ) : EReal := if h : n < cfg0.N then (outsAt0 m c n h).1 (ix3 (0 : Fin 1) c' b) else 0
def aP (c' : Fin 19) (b : Fin 10) (n : ℕ) : EReal := if h : n < cfg0.N then (outsAt0 m c n h).2.1 (ix3 (0 : Fin 1) c' b) else 0
def aA (c' : Fin 19) (b : Fin 10) (n : ℕ) : EReal := if h : n < cfg0.N then (outsAt0 m c n h).2.2 (ix3 (0 : Fin 1) c' b) else 0

theorem hN128 : cfg0.N = 128 := N_0

/-- After point n each block's entry is the sum of the row's tile differences so far. -/
theorem outs_sum (c' : Fin 19) (b : Fin 10) (n : ℕ) (h : n < cfg0.N) :
    (outsAt0 m c n h).1 (ix3 (0 : Fin 1) c' b) = ∑ j ∈ Finset.range (n % 16 + 1), dN (Vconf (X m c)) b c' (n / 16) j
    ∧ (outsAt0 m c n h).2.1 (ix3 (0 : Fin 1) c' b) = ∑ j ∈ Finset.range (n % 16 + 1), dN (Vpred (X m c)) b c' (n / 16) j
    ∧ (outsAt0 m c n h).2.2 (ix3 (0 : Fin 1) c' b) = ∑ j ∈ Finset.range (n % 16 + 1), dN (Vacc (X m c) (Tg m c)) b c' (n / 16) j := by
  have h128 : n < 128 := lt_of_lt_of_eq h hN128
  have key : ∀ k, k < 128 → k < cfg0.N := fun k hk => lt_of_lt_of_eq hk hN128.symm
  have eC := restart_sum (dN (Vconf (X m c)) b c') (aC m c c' b)
    (fun k hk h0 => by
      unfold aC; rw [dif_pos (key k hk)]
      exact ((outs_A m c ⟨k, key k hk⟩ h0 c' b).1).trans (tile_conf m c ⟨k, key k hk⟩ c' b))
    (fun k hk h0 => by
      unfold aC; rw [dif_pos (key k hk), dif_pos (key (k - 1) (by omega))]
      exact ((outs_B m c ⟨k, key k hk⟩ h0 c' b).1).trans (congrArg _ (tile_conf m c ⟨k, key k hk⟩ c' b))) n h128
  have eP := restart_sum (dN (Vpred (X m c)) b c') (aP m c c' b)
    (fun k hk h0 => by
      unfold aP; rw [dif_pos (key k hk)]
      exact ((outs_A m c ⟨k, key k hk⟩ h0 c' b).2.1).trans (tile_pred m c ⟨k, key k hk⟩ c' b))
    (fun k hk h0 => by
      unfold aP; rw [dif_pos (key k hk), dif_pos (key (k - 1) (by omega))]
      exact ((outs_B m c ⟨k, key k hk⟩ h0 c' b).2.1).trans (congrArg _ (tile_pred m c ⟨k, key k hk⟩ c' b))) n h128
  have eA := restart_sum (dN (Vacc (X m c) (Tg m c)) b c') (aA m c c' b)
    (fun k hk h0 => by
      unfold aA; rw [dif_pos (key k hk)]
      exact ((outs_A m c ⟨k, key k hk⟩ h0 c' b).2.2).trans (tile_acc m c ⟨k, key k hk⟩ c' b))
    (fun k hk h0 => by
      unfold aA; rw [dif_pos (key k hk), dif_pos (key (k - 1) (by omega))]
      exact ((outs_B m c ⟨k, key k hk⟩ h0 c' b).2.2).trans (congrArg _ (tile_acc m c ⟨k, key k hk⟩ c' b))) n h128
  unfold aC at eC; unfold aP at eP; unfold aA at eA
  rw [dif_pos h] at eC eP eA
  exact ⟨eC, eP, eA⟩

end Cert.KernelIdeal.Chain

end
-- ==== Proof.Final.lean ====
import proofs.«139248_j19292993094305_2_alg».proof.Proof.Chain
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Tile Cert.Hist Cert.KernelIdeal.Chain

/-- Entry (i, c, b) of an output array: the sum over the sixteen column tiles of row-tile i of the threshold
    difference. -/
def G (V : Fin 10 → Field) : S8x19x10.Idx → EReal := fun idx =>
  ∑ j : Fin 16, (tsum V (idx 2) (idx 0) j (idx 1) - tnext V (idx 2) (idx 0) j (idx 1))

theorem G_at (V : Fin 10 → Field) (i : Fin 8) (c' : Fin 19) (b : Fin 10) :
    G V (ix3 i c' b) = ∑ j : Fin 16, (tsum V b i j c' - tnext V b i j c') := rfl

/-- A full row's partial sum is the sum over the sixteen column tiles. -/
theorem row_sum (V : Fin 10 → Field) (b : Fin 10) (c' : Fin 19) (i : ℕ) (hi : i < 8) :
    ∑ j ∈ Finset.range 16, dN V b c' i j = ∑ j : Fin 16, (tsum V b ⟨i, hi⟩ j c' - tnext V b ⟨i, hi⟩ j c') := by
  rw [Finset.sum_range]
  refine Finset.sum_congr rfl fun j _ => ?_
  unfold dN
  rw [dif_pos ⟨hi, j.isLt⟩]

variable (m : (ℓ : Loc nD τ sig) → Buf (Elt Ideal) ℓ) (c : Dev nD)

/-! ## Output window 2 -/

/-- The block of window 2 at point t is block (t / 16, 0, 0). -/
theorem idx_facts2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- An index of the array is in point t's block iff each coordinate is in the block's range on its axis. -/
theorem mem_blk2 (t : Fin cfg0.N) (i : S8x19x10.Idx) :
    i ∈ ((cfg0.win 2).blk t).view.set ↔ ∀ a : Fin 3, win0_2.index t a * S1x19x10.size a ≤ (i a).val ∧ (i a).val < win0_2.index t a * S1x19x10.size a + S1x19x10.size a := by
  show i ∈ ((View.whole main_v2_0).slice (win0_2.rect t)).set ↔ _
  rw [View.set_slice_whole, Rect.mem_set_unit]
  exact Iff.rfl

/-- What a row's last point writes back is its block of G. -/
theorem flushed2_eq (t : Fin cfg0.N) (hf : (cfg0.win 2).flush t = true) :
    (dats m 0 c).flushed 2 t = ((cfg0.win 2).blk t).view.read (Elt Ideal) (G (Vconf (X m c))) := by
  have hN : t.val < 128 := lt128 t
  have h15 : t.val % 16 = 15 := (flush0_2 t).mp hf
  obtain ⟨e0, e1, e2⟩ := idx_facts2 t
  show (cfg0.win 2).cut (grid0.coords t) ((dats m 0 c).after 2 t) = _
  rw [after0_2]
  funext y
  show (outsAt0 m c t.val t.isLt).1 y = G (Vconf (X m c)) (((cfg0.win 2).blk t).view.emb y)
  obtain ⟨a, c', b, rfl⟩ : ∃ (a : Fin 1) (c' : Fin 19) (b : Fin 10), y = ix3 a c' b := ⟨y 0, y 1, y 2, eq_ix3 y⟩
  obtain rfl : a = 0 := Subsingleton.elim _ _
  have he : ((cfg0.win 2).blk t).view.emb (ix3 (0 : Fin 1) c' b) = ix3 (⟨t.val / 16, by omega⟩ : Fin 8) c' b := by
    funext ax
    apply Fin.ext
    match ax with
    | ⟨0, _⟩ => show win0_2.index t 0 * 1 + 1 * 0 = t.val / 16; rw [e0]; omega
    | ⟨1, _⟩ => show win0_2.index t 1 * 19 + 1 * c'.val = c'.val; rw [e1]; omega
    | ⟨2, _⟩ => show win0_2.index t 2 * 10 + 1 * b.val = b.val; rw [e2]; omega
  rw [he, G_at, (outs_sum m c c' b t.val t.isLt).1, h15]
  exact row_sum _ b c' (t.val / 16) (by omega)

/-- The array after the run. -/
theorem final2 : (dats m 0 c).arrAt 2 cfg0.N = G (Vconf (X m c)) :=
  (dats m 0 c).arrAt_eq_of_cover 2 (G (Vconf (X m c))) (flushed2_eq m c) fun i => by
    have h0 : (i 0 : Nat) < 8 := (i 0).isLt
    have h1 : (i 1 : Nat) < 19 := (i 1).isLt
    have h2 : (i 2 : Nat) < 10 := (i 2).isLt
    have hlt : 16 * (i 0).val + 15 < cfg0.N := by rw [show cfg0.N = 128 from N_0]; omega
    refine ⟨⟨16 * (i 0).val + 15, hlt⟩, (flush0_2 _).mpr (by show (16 * (i 0).val + 15) % 16 = 15; omega), ?_⟩
    obtain ⟨e0, e1, e2⟩ := idx_facts2 ⟨16 * (i 0).val + 15, hlt⟩
    rw [mem_blk2]
    intro a
    match a with
    | ⟨0, _⟩ => show win0_2.index ⟨16 * (i 0).val + 15, hlt⟩ 0 * 1 ≤ (i 0).val ∧ (i 0).val < win0_2.index ⟨16 * (i 0).val + 15, hlt⟩ 0 * 1 + 1
                rw [e0]; show (16 * (i 0).val + 15) / 16 * 1 ≤ (i 0).val ∧ (i 0).val < (16 * (i 0).val + 15) / 16 * 1 + 1; omega
    | ⟨1, _⟩ => show win0_2.index ⟨16 * (i 0).val + 15, hlt⟩ 1 * 19 ≤ (i 1).val ∧ (i 1).val < win0_2.index ⟨16 * (i 0).val + 15, hlt⟩ 1 * 19 + 19
                rw [e1]; omega
    | ⟨2, _⟩ => show win0_2.index ⟨16 * (i 0).val + 15, hlt⟩ 2 * 10 ≤ (i 2).val ∧ (i 2).val < win0_2.index ⟨16 * (i 0).val + 15, hlt⟩ 2 * 10 + 10
                rw [e2]; omega

/-! ## Output window 3 -/

/-- The block of window 3 at point t is block (t / 16, 0, 0). -/
theorem idx_facts3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- An index of the array is in point t's block iff each coordinate is in the block's range on its axis. -/
theorem mem_blk3 (t : Fin cfg0.N) (i : S8x19x10.Idx) :
    i ∈ ((cfg0.win 3).blk t).view.set ↔ ∀ a : Fin 3, win0_3.index t a * S1x19x10.size a ≤ (i a).val ∧ (i a).val < win0_3.index t a * S1x19x10.size a + S1x19x10.size a := by
  show i ∈ ((View.whole main_v2_1).slice (win0_3.rect t)).set ↔ _
  rw [View.set_slice_whole, Rect.mem_set_unit]
  exact Iff.rfl

/-- What a row's last point writes back is its block of G. -/
theorem flushed3_eq (t : Fin cfg0.N) (hf : (cfg0.win 3).flush t = true) :
    (dats m 0 c).flushed 3 t = ((cfg0.win 3).blk t).view.read (Elt Ideal) (G (Vpred (X m c))) := by
  have hN : t.val < 128 := lt128 t
  have h15 : t.val % 16 = 15 := (flush0_3 t).mp hf
  obtain ⟨e0, e1, e2⟩ := idx_facts3 t
  show (cfg0.win 3).cut (grid0.coords t) ((dats m 0 c).after 3 t) = _
  rw [after0_3]
  funext y
  show (outsAt0 m c t.val t.isLt).2.1 y = G (Vpred (X m c)) (((cfg0.win 3).blk t).view.emb y)
  obtain ⟨a, c', b, rfl⟩ : ∃ (a : Fin 1) (c' : Fin 19) (b : Fin 10), y = ix3 a c' b := ⟨y 0, y 1, y 2, eq_ix3 y⟩
  obtain rfl : a = 0 := Subsingleton.elim _ _
  have he : ((cfg0.win 3).blk t).view.emb (ix3 (0 : Fin 1) c' b) = ix3 (⟨t.val / 16, by omega⟩ : Fin 8) c' b := by
    funext ax
    apply Fin.ext
    match ax with
    | ⟨0, _⟩ => show win0_3.index t 0 * 1 + 1 * 0 = t.val / 16; rw [e0]; omega
    | ⟨1, _⟩ => show win0_3.index t 1 * 19 + 1 * c'.val = c'.val; rw [e1]; omega
    | ⟨2, _⟩ => show win0_3.index t 2 * 10 + 1 * b.val = b.val; rw [e2]; omega
  rw [he, G_at, (outs_sum m c c' b t.val t.isLt).2.1, h15]
  exact row_sum _ b c' (t.val / 16) (by omega)

/-- The array after the run. -/
theorem final3 : (dats m 0 c).arrAt 3 cfg0.N = G (Vpred (X m c)) :=
  (dats m 0 c).arrAt_eq_of_cover 3 (G (Vpred (X m c))) (flushed3_eq m c) fun i => by
    have h0 : (i 0 : Nat) < 8 := (i 0).isLt
    have h1 : (i 1 : Nat) < 19 := (i 1).isLt
    have h2 : (i 2 : Nat) < 10 := (i 2).isLt
    have hlt : 16 * (i 0).val + 15 < cfg0.N := by rw [show cfg0.N = 128 from N_0]; omega
    refine ⟨⟨16 * (i 0).val + 15, hlt⟩, (flush0_3 _).mpr (by show (16 * (i 0).val + 15) % 16 = 15; omega), ?_⟩
    obtain ⟨e0, e1, e2⟩ := idx_facts3 ⟨16 * (i 0).val + 15, hlt⟩
    rw [mem_blk3]
    intro a
    match a with
    | ⟨0, _⟩ => show win0_3.index ⟨16 * (i 0).val + 15, hlt⟩ 0 * 1 ≤ (i 0).val ∧ (i 0).val < win0_3.index ⟨16 * (i 0).val + 15, hlt⟩ 0 * 1 + 1
                rw [e0]; show (16 * (i 0).val + 15) / 16 * 1 ≤ (i 0).val ∧ (i 0).val < (16 * (i 0).val + 15) / 16 * 1 + 1; omega
    | ⟨1, _⟩ => show win0_3.index ⟨16 * (i 0).val + 15, hlt⟩ 1 * 19 ≤ (i 1).val ∧ (i 1).val < win0_3.index ⟨16 * (i 0).val + 15, hlt⟩ 1 * 19 + 19
                rw [e1]; omega
    | ⟨2, _⟩ => show win0_3.index ⟨16 * (i 0).val + 15, hlt⟩ 2 * 10 ≤ (i 2).val ∧ (i 2).val < win0_3.index ⟨16 * (i 0).val + 15, hlt⟩ 2 * 10 + 10
                rw [e2]; omega

/-! ## Output window 4 -/

/-- The block of window 4 at point t is block (t / 16, 0, 0). -/
theorem idx_facts4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- An index of the array is in point t's block iff each coordinate is in the block's range on its axis. -/
theorem mem_blk4 (t : Fin cfg0.N) (i : S8x19x10.Idx) :
    i ∈ ((cfg0.win 4).blk t).view.set ↔ ∀ a : Fin 3, win0_4.index t a * S1x19x10.size a ≤ (i a).val ∧ (i a).val < win0_4.index t a * S1x19x10.size a + S1x19x10.size a := by
  show i ∈ ((View.whole main_v2_2).slice (win0_4.rect t)).set ↔ _
  rw [View.set_slice_whole, Rect.mem_set_unit]
  exact Iff.rfl

/-- What a row's last point writes back is its block of G. -/
theorem flushed4_eq (t : Fin cfg0.N) (hf : (cfg0.win 4).flush t = true) :
    (dats m 0 c).flushed 4 t = ((cfg0.win 4).blk t).view.read (Elt Ideal) (G (Vacc (X m c) (Tg m c))) := by
  have hN : t.val < 128 := lt128 t
  have h15 : t.val % 16 = 15 := (flush0_4 t).mp hf
  obtain ⟨e0, e1, e2⟩ := idx_facts4 t
  show (cfg0.win 4).cut (grid0.coords t) ((dats m 0 c).after 4 t) = _
  rw [after0_4]
  funext y
  show (outsAt0 m c t.val t.isLt).2.2 y = G (Vacc (X m c) (Tg m c)) (((cfg0.win 4).blk t).view.emb y)
  obtain ⟨a, c', b, rfl⟩ : ∃ (a : Fin 1) (c' : Fin 19) (b : Fin 10), y = ix3 a c' b := ⟨y 0, y 1, y 2, eq_ix3 y⟩
  obtain rfl : a = 0 := Subsingleton.elim _ _
  have he : ((cfg0.win 4).blk t).view.emb (ix3 (0 : Fin 1) c' b) = ix3 (⟨t.val / 16, by omega⟩ : Fin 8) c' b := by
    funext ax
    apply Fin.ext
    match ax with
    | ⟨0, _⟩ => show win0_4.index t 0 * 1 + 1 * 0 = t.val / 16; rw [e0]; omega
    | ⟨1, _⟩ => show win0_4.index t 1 * 19 + 1 * c'.val = c'.val; rw [e1]; omega
    | ⟨2, _⟩ => show win0_4.index t 2 * 10 + 1 * b.val = b.val; rw [e2]; omega
  rw [he, G_at, (outs_sum m c c' b t.val t.isLt).2.2, h15]
  exact row_sum _ b c' (t.val / 16) (by omega)

/-- The array after the run. -/
theorem final4 : (dats m 0 c).arrAt 4 cfg0.N = G (Vacc (X m c) (Tg m c)) :=
  (dats m 0 c).arrAt_eq_of_cover 4 (G (Vacc (X m c) (Tg m c))) (flushed4_eq m c) fun i => by
    have h0 : (i 0 : Nat) < 8 := (i 0).isLt
    have h1 : (i 1 : Nat) < 19 := (i 1).isLt
    have h2 : (i 2 : Nat) < 10 := (i 2).isLt
    have hlt : 16 * (i 0).val + 15 < cfg0.N := by rw [show cfg0.N = 128 from N_0]; omega
    refine ⟨⟨16 * (i 0).val + 15, hlt⟩, (flush0_4 _).mpr (by show (16 * (i 0).val + 15) % 16 = 15; omega), ?_⟩
    obtain ⟨e0, e1, e2⟩ := idx_facts4 ⟨16 * (i 0).val + 15, hlt⟩
    rw [mem_blk4]
    intro a
    match a with
    | ⟨0, _⟩ => show win0_4.index ⟨16 * (i 0).val + 15, hlt⟩ 0 * 1 ≤ (i 0).val ∧ (i 0).val < win0_4.index ⟨16 * (i 0).val + 15, hlt⟩ 0 * 1 + 1
                rw [e0]; show (16 * (i 0).val + 15) / 16 * 1 ≤ (i 0).val ∧ (i 0).val < (16 * (i 0).val + 15) / 16 * 1 + 1; omega
    | ⟨1, _⟩ => show win0_4.index ⟨16 * (i 0).val + 15, hlt⟩ 1 * 19 ≤ (i 1).val ∧ (i 1).val < win0_4.index ⟨16 * (i 0).val + 15, hlt⟩ 1 * 19 + 19
                rw [e1]; omega
    | ⟨2, _⟩ => show win0_4.index ⟨16 * (i 0).val + 15, hlt⟩ 2 * 10 ≤ (i 2).val ∧ (i 2).val < win0_4.index ⟨16 * (i 0).val + 15, hlt⟩ 2 * 10 + 10
                rw [e2]; omega

end Cert.KernelIdeal.Final

end
-- ==== Proof.Tail.lean ====
/-
  The scalar both programs end with, as one function of three tables [19, 10].

  With conf the summed probabilities, pred the counts and acc the counts of correctly labelled pixels,
    r1 = acc / (pred + ε),  r2 = conf / (pred + ε),  d = r1 - r2,  tot = Σ pred,
    result = Σ (d · d) · (pred / tot),
  where ε is the single-precision word 0x29E12E13 spread over the table, each sum runs over both axes from 0,
  and every operation is the host's at the extended reals.
-/
import proofs.«139248_j19292993094305_2_alg».proof.Proof.Spec
import Idealize.ShloMosaic.PureOps.Ideal
import Idealize.ShloMosaic.PureOps.Vector
import Idealize.ShloMosaic.PureOps.Contract
import Idealize.ShloMosaic.PureOps.ShapeOps

noncomputable section

namespace Cert.Hist

open Idealize.ShloMosaic

/-- The tables' shape and the scalar's. -/
abbrev T19x10 : Shape := ⟨2, ![19, 10]⟩
abbrev T0 : Shape := ⟨0, ![]⟩

/-- The common tail: the weighted squared gap between accuracy and confidence. -/
def tail (hred : T19x10.ReducesTo [0, 1] T0) (hpos : 0 < T0.numel)
    (hb : T0.BroadcastsInDim T19x10 (![] : Fin 0 → Fin T19x10.rank))
    (conf pred acc : FVec Ideal T19x10 .f32) : FVec Ideal T0 .f32 :=
  Host.reduceAdd (F := Ideal)
    (mulf (F := Ideal)
      (mulf (F := Ideal)
        (subf (F := Ideal)
          (Host.divf (F := Ideal) acc
            (addf (F := Ideal) pred (broadcastInDim T19x10 ![] hb (constant (F := Ideal) T0 .f32 0x29E12E13#32))))
          (Host.divf (F := Ideal) conf
            (addf (F := Ideal) pred (broadcastInDim T19x10 ![] hb (constant (F := Ideal) T0 .f32 0x29E12E13#32)))))
        (subf (F := Ideal)
          (Host.divf (F := Ideal) acc
            (addf (F := Ideal) pred (broadcastInDim T19x10 ![] hb (constant (F := Ideal) T0 .f32 0x29E12E13#32))))
          (Host.divf (F := Ideal) conf
            (addf (F := Ideal) pred (broadcastInDim T19x10 ![] hb (constant (F := Ideal) T0 .f32 0x29E12E13#32))))))
      (Host.divf (F := Ideal) pred
        (broadcastInDim T19x10 ![] hb
          (Host.reduceAdd (F := Ideal) pred (constant (F := Ideal) T0 .f32 0x00000000#32) hred hpos))))
    (constant (F := Ideal) T0 .f32 0x00000000#32) hred hpos

end Cert.Hist

end
-- ==== Proof.KernelTail.lean ====
/-
  The kernel program after its grid: each of the three arrays [8, 19, 10] the grid leaves (one partial table per
  row-tile) is summed over its first axis into a table [19, 10], and the program's result is the common tail of the
  three tables.

  The sum over the first axis, read at an entry (c, b), is the sum over the eight row-tiles i of the entries
  (i, c, b): the initial value is the word of 0.0, which denotes 0.
-/
import proofs.«139248_j19292993094305_2_alg».proof.Proof.Tail
import proofs.«139248_j19292993094305_2_alg».proof.Proof.Gen.KernelIdeal.Frame
import Idealize.ShloMosaic.Lib.StableHlo.Run
import Idealize.ShloMosaic.Lib.Tactic
import Idealize.ShloMosaic.Lib.IdealHost
import Idealize.ShloMosaic.PureOps.Ideal.Laws

noncomputable section

open scoped BigOperators

namespace Cert.Hist

open Idealize.ShloMosaic Idealize.ShloMosaic.ValueIdx Idealize.ShloMosaic.TcCoe Idealize.SL.Sem Idealize.ShloMosaic.StableHlo
open Cert.KernelIdeal Cert.KernelIdeal.Gen

/-- The host's sum over the first axis of an array [8, 19, 10] from 0, at the entry (c, b): the sum over the eight
    row-tiles of the entries (i, c, b). -/
theorem red8_at (A : FVec Ideal Cert.KernelIdeal.S8x19x10 .f32) (c : Fin 19) (b : Fin 10) :
    Host.reduceAdd (F := Ideal) A (constant (F := Ideal) Cert.KernelIdeal.S_ .f32 0x00000000#32)
        Cert.KernelIdeal.Facts₀.reducesTo_S8x19x10_S19x10_d0 Cert.KernelIdeal.Facts₀.h_S_ (ix2 c b)
      = ∑ i : Fin 8, A (ix3 i c b) := by
  rw [hostReduceAdd_apply,
    Ideal.hostReduceAdd_single _ (by decide : Cert.KernelIdeal.S8x19x10.Reduces [0] Cert.KernelIdeal.S19x10)]
  show Ideal.ofBits .f32 0x00000000#32 + _ = _
  rw [Ideal.ofBits_zero_f32, zero_add]
  refine Finset.sum_congr rfl fun i _ => congrArg A (funext fun ax => Fin.ext ?_)
  match ax with
  | ⟨0, _⟩ => rfl
  | ⟨1, _⟩ => rfl
  | ⟨2, _⟩ => rfl

variable (m : (ℓ : Loc nD τ sig) → Buf (Elt Ideal) ℓ) (c : Dev nD)

/-- The kernel program's result: the common tail of the three tables got by summing, over the row-tiles, the arrays
    A2 (summed probabilities), A3 (counts) and A4 (correctly labelled counts) that the grid leaves in its output
    windows 2, 3 and 4.  The operations after the grid are evaluated in order; the three arrays they read are the
    windows' arrays, which no later operation writes. -/
theorem kernel_tail (A2 A3 A4 : FVec Ideal S8x19x10 .f32)
    (h2 : (dats m 0 c).arrAt 2 cfg0.N = A2) (h3 : (dats m 0 c).arrAt 3 cfg0.N = A3)
    (h4 : (dats m 0 c).arrAt 4 cfg0.N = A4) :
    Pipeline.afterTail₀ cfgs (dats m) 0 (V0 m) [hostOps1] c main_v18
      = tail reducesTo_S19x10_S_d0_1 h_S_ bcast_S_S19x10
          (Host.reduceAdd (F := Ideal) A2 (constant (F := Ideal) S_ .f32 0x00000000#32) reducesTo_S8x19x10_S19x10_d0 h_S_)
          (Host.reduceAdd (F := Ideal) A3 (constant (F := Ideal) S_ .f32 0x00000000#32) reducesTo_S8x19x10_S19x10_d0 h_S_)
          (Host.reduceAdd (F := Ideal) A4 (constant (F := Ideal) S_ .f32 0x00000000#32) reducesTo_S8x19x10_S19x10_d0 h_S_) := by
  unfold Pipeline.afterTail₀
  show StableHlo.after hostOps1 _ (Proc.devRef .tc main_v18) = _
  after_results_simp
  have e2 : Pipeline.withArrays (cfgs 0).spec c (V0 m c) (fun w => (dats m 0 c).arrAt w (cfgs 0).N)
      (Proc.devRef .tc main_v2_0) = A2 :=
    (Pipeline.withArrays_arr spec0 launch0.win.arr_inj c _ _ 2).trans h2
  have e3 : Pipeline.withArrays (cfgs 0).spec c (V0 m c) (fun w => (dats m 0 c).arrAt w (cfgs 0).N)
      (Proc.devRef .tc main_v2_1) = A3 :=
    (Pipeline.withArrays_arr spec0 launch0.win.arr_inj c _ _ 3).trans h3
  have e4 : Pipeline.withArrays (cfgs 0).spec c (V0 m c) (fun w => (dats m 0 c).arrAt w (cfgs 0).N)
      (Proc.devRef .tc main_v2_2) = A4 :=
    (Pipeline.withArrays_arr spec0 launch0.win.arr_inj c _ _ 4).trans h4
  rw [e2, e3, e4]
  rfl

end Cert.Hist

end
-- ==== Proof.Tables.lean ====
/-
  The three [19, 10] tables of the histogram as arrays, and the scalar both programs compute from them.
-/
import proofs.«139248_j19292993094305_2_alg».proof.Proof.Spec
import proofs.«139248_j19292993094305_2_alg».proof.Proof.Tail

noncomputable section

namespace Cert.Hist

open Idealize.ShloMosaic Idealize.ShloMosaic.ValueIdx

/-- The sum of the probabilities, the count, and the count of label hits, per class and bin. -/
def tabC (X : SX.Idx → EReal) : FVec Ideal T19x10 .f32 := fun idx => canon (P X) (Q X) (idx 0) (idx 1)
def tabP (X : SX.Idx → EReal) : FVec Ideal T19x10 .f32 := fun idx => canon one (Q X) (idx 0) (idx 1)
def tabA (X : SX.Idx → EReal) (Tg : ST.Idx → BitVec 32) : FVec Ideal T19x10 .f32 := fun idx => canon (hit Tg) (Q X) (idx 0) (idx 1)

/-- The calibration error computed from the three tables. -/
def loss (hred : T19x10.ReducesTo [0, 1] T0) (hpos : 0 < T0.numel) (hb : T0.BroadcastsInDim T19x10 (![] : Fin 0 → Fin T19x10.rank))
    (X : SX.Idx → EReal) (Tg : ST.Idx → BitVec 32) : FVec Ideal T0 .f32 :=
  tail hred hpos hb (tabC X) (tabP X) (tabA X Tg)

end Cert.Hist

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Law2.lean ====
/-
  The softmax probability of real logits is a positive real.

  The largest of finitely many reals is a real, so each shifted logit x - M is a real, its exponential is a
  positive real, the sum of the nineteen exponentials is a positive real, and the quotient of a positive real
  by a positive real is a positive real.
-/
import proofs.«139248_j19292993094305_2_alg».proof.Proof.Spec
import proofs.«139248_j19292993094305_2_alg».proof.Proof.LibRealLaw

noncomputable section

open scoped BigOperators

namespace Cert.Hist

open Idealize.ShloMosaic Idealize.ShloMosaic.ValueIdx

/-- The fold of max from -∞ over a nonempty finite family of reals is a real. -/
theorem fold_max_real {K : Type*} [DecidableEq K] (f : K → ℝ) (s : Finset K) (hs : s.Nonempty) :
    ∃ m : ℝ, s.fold max (⊥ : EReal) (fun k => (f k : EReal)) = (m : EReal) := by
  induction s using Finset.induction_on with
  | empty => exact absurd hs (by simp)
  | insert a s ha ih =>
    rw [Finset.fold_insert ha]
    rcases s.eq_empty_or_nonempty with h0 | hne
    · subst h0
      exact ⟨f a, by simp⟩
    · obtain ⟨m, hm⟩ := ih hne
      exact ⟨max (f a) m, by rw [hm]; exact (EReal.coe_strictMono.monotone.map_max).symm⟩

/-- The largest logit at a pixel is a real. -/
theorem mx_real (X : SX.Idx → EReal) (hX : ∀ i, ∃ r : ℝ, X i = (r : EReal)) (h : Fin 1024) (w : Fin 2048) :
    ∃ m : ℝ, mx X h w = (m : EReal) := by
  classical
  choose X' hX' using hX
  have hx : (fun c : Fin 19 => xat X c h w) = fun c => ((X' (ix4 (0 : Fin 1) c h w) : ℝ) : EReal) := by
    funext c; exact hX' _
  unfold mx
  rw [hx]
  exact fold_max_real _ _ ⟨0, Finset.mem_univ _⟩

/-- The shifted exponential is a positive real. -/
theorem ex_pos (X : SX.Idx → EReal) (hX : ∀ i, ∃ r : ℝ, X i = (r : EReal)) (c : Fin 19) (h : Fin 1024) (w : Fin 2048) :
    ∃ r : ℝ, 0 < r ∧ ex X c h w = (r : EReal) := by
  obtain ⟨m, hm⟩ := mx_real X hX h w
  obtain ⟨x, hx⟩ := hX (ix4 (0 : Fin 1) c h w)
  refine ⟨Real.exp (x - m), Real.exp_pos _, ?_⟩
  unfold ex xat
  rw [hm, hx, ← EReal.coe_sub, Ideal.exp_coe]

/-- The sum of the exponentials is a positive real. -/
theorem den_pos (X : SX.Idx → EReal) (hX : ∀ i, ∃ r : ℝ, X i = (r : EReal)) (h : Fin 1024) (w : Fin 2048) :
    ∃ r : ℝ, 0 < r ∧ den X h w = (r : EReal) := by
  choose e he using fun c => ex_pos X hX c h w
  refine ⟨∑ c : Fin 19, e c, Finset.sum_pos (fun c _ => (he c).1) ⟨0, Finset.mem_univ _⟩, ?_⟩
  unfold den
  rw [Cert.Attn.RealLaw.coe_sum]
  exact Finset.sum_congr rfl fun c _ => (he c).2

/-- The softmax probability is a positive real. -/
theorem P_pos (X : SX.Idx → EReal) (hX : ∀ i, ∃ r : ℝ, X i = (r : EReal)) (c : Fin 19) (h : Fin 1024) (w : Fin 2048) :
    ∃ r : ℝ, 0 < r ∧ P X c h w = (r : EReal) := by
  obtain ⟨e, he, hee⟩ := ex_pos X hX c h w
  obtain ⟨d, hd, hdd⟩ := den_pos X hX h w
  refine ⟨e * (1 / d), mul_pos he (one_div_pos.mpr hd), ?_⟩
  unfold P
  rw [hee, hdd, Ideal.div_coe (ne_of_gt hd), EReal.coe_mul]

end Cert.Hist

end
-- ==== Proof.LibBlockSum.lean ====
/-
  A finite sum over `Fin n` with `n = a * b` regrouped into `a` consecutive blocks of length `b`: the sum of the
  block sums. It holds in every commutative additive monoid, in particular on the extended reals, where
  it needs no finiteness: only associativity and commutativity of `+` are used.
-/
import Mathlib.Algebra.BigOperators.Fin
import Mathlib.Logic.Equiv.Fin.Basic

namespace Cert.LibBlockSum

open Finset

/-- Position `j` of block `i` among `a` blocks of length `b`: `i * b + j`. -/
def pos {a b n : ℕ} (h : a * b = n) (i : Fin a) (j : Fin b) : Fin n :=
  ⟨i.val * b + j.val, by
    subst h
    have h1 : i.val * b + j.val < (i.val + 1) * b := by
      rw [Nat.add_one_mul]; exact Nat.add_lt_add_left j.isLt _
    exact lt_of_lt_of_le h1 (Nat.mul_le_mul_right b i.isLt)⟩

@[simp] theorem pos_val {a b n : ℕ} (h : a * b = n) (i : Fin a) (j : Fin b) :
    (pos h i j).val = i.val * b + j.val := rfl

/-- The sum over all positions is the sum over the blocks of each block's sum. -/
theorem sum_blocks {M : Type*} [AddCommMonoid M] {a b n : ℕ} (h : a * b = n) (f : Fin n → M) :
    ∑ k : Fin n, f k = ∑ i : Fin a, ∑ j : Fin b, f (pos h i j) := by
  subst h
  rw [← Fintype.sum_prod_type' (fun i j => f (pos rfl i j))]
  refine (Equiv.sum_comp (finProdFinEquiv (m := a) (n := b)) f).symm.trans ?_
  refine Fintype.sum_congr _ _ fun p => congrArg f (Fin.ext ?_)
  show (p.2 : ℕ) + b * (p.1 : ℕ) = (p.1 : ℕ) * b + (p.2 : ℕ)
  rw [Nat.mul_comm, Nat.add_comm]

end Cert.LibBlockSum
-- ==== Proof.Law3.lean ====
/-
  The law: a table reached as differences of consecutive threshold sums, tile by tile, is the table that adds
  each pixel into its bin.

  Every term is a real (the weight is real, the indicator is 0 or 1), so each tile sum is a real and the
  difference of two tile sums is the sum of the pointwise differences.  Pointwise, since threshold b is below
  threshold b + 1, U·[thr b < q] - U·[thr (b+1) < q] is U when q is in bin b and 0 otherwise (for the last bin
  the subtrahend is absent).  Finally the 8 × 16 tiles of 128 × 128 pixels cover the 1024 × 2048 pixels once each.
-/
import proofs.«139248_j19292993094305_2_alg».proof.Proof.Spec
import proofs.«139248_j19292993094305_2_alg».proof.Proof.LibRealLaw
import proofs.«139248_j19292993094305_2_alg».proof.Proof.LibBlockSum
import proofs.«139248_j19292993094305_2_alg».proof.Proof.Law1

noncomputable section

open scoped BigOperators

namespace Cert.Hist

open Idealize.ShloMosaic Idealize.ShloMosaic.ValueIdx

/-- The tiles cover the pixels: a sum over tiles of sums within a tile is the sum over all rows and columns. -/
theorem sum_tiles {M : Type*} [AddCommMonoid M] (d : Fin 1024 → Fin 2048 → M) :
    ∑ i : Fin 8, ∑ j : Fin 16, ∑ r : Fin 128, ∑ l : Fin 128, d (row i r) (col j l)
      = ∑ h : Fin 1024, ∑ w : Fin 2048, d h w := by
  have hrow : ∀ i r, row i r = Cert.LibBlockSum.pos (show 8 * 128 = 1024 by norm_num) i r := by
    intro i r; apply Fin.ext; simp only [row, Cert.LibBlockSum.pos_val]; omega
  have hcol : ∀ j l, col j l = Cert.LibBlockSum.pos (show 16 * 128 = 2048 by norm_num) j l := by
    intro j l; apply Fin.ext; simp only [col, Cert.LibBlockSum.pos_val]; omega
  rw [Cert.LibBlockSum.sum_blocks (show 8 * 128 = 1024 by norm_num)]
  refine Finset.sum_congr rfl fun i _ => ?_
  rw [Finset.sum_comm]
  refine Finset.sum_congr rfl fun r _ => ?_
  rw [Cert.LibBlockSum.sum_blocks (show 16 * 128 = 2048 by norm_num)]
  simp only [hrow, hcol]

/-- Consecutive thresholds increase. -/
theorem thr_lt_next (b : Fin 10) (hb : b.val + 1 < 10) : thr b < thr ⟨b.val + 1, hb⟩ := by
  rw [thr_val, thr_val, EReal.coe_lt_coe_iff]
  exact_mod_cast Nat.lt_succ_self b.val

/-- The law. -/
theorem ksum_eq_canon (U q : Field) (V : Fin 10 → Field)
    (hU : ∀ c h w, ∃ r : ℝ, U c h w = (r : EReal))
    (hV : ∀ b c h w, V b c h w = U c h w * above (q c h w) (thr b))
    (c : Fin 19) (b : Fin 10) : ksum V c b = canon U q c b := by
  classical
  choose U' hU' using hU
  -- the indicator as a real
  let A : Fin 10 → Fin 1024 → Fin 2048 → ℝ := fun b h w => if thr b < q c h w then 1 else 0
  have hA : ∀ b h w, above (q c h w) (thr b) = ((A b h w : ℝ) : EReal) := by
    intro b h w
    unfold above
    show _ = (((if thr b < q c h w then (1 : ℝ) else 0) : ℝ) : EReal)
    split_ifs <;> simp
  -- the threshold term and the next threshold term as reals
  let G : Fin 1024 → Fin 2048 → ℝ := fun h w => U' c h w * A b h w
  let N : Fin 1024 → Fin 2048 → ℝ := fun h w =>
    if hb : b.val + 1 < 10 then U' c h w * A ⟨b.val + 1, hb⟩ h w else 0
  let E : Fin 1024 → Fin 2048 → ℝ := fun h w => if inBin (q c h w) b then U' c h w else 0
  have hVr : ∀ b h w, V b c h w = ((U' c h w * A b h w : ℝ) : EReal) := by
    intro b h w; rw [hV, hU', hA, EReal.coe_mul]
  have hts : ∀ b' i j, tsum V b' i j c
      = ((∑ r : Fin 128, ∑ l : Fin 128, U' c (row i r) (col j l) * A b' (row i r) (col j l) : ℝ) : EReal) := by
    intro b' i j
    unfold tsum
    simp only [hVr, Cert.Attn.RealLaw.coe_sum]
  have htn : ∀ i j, tnext V b i j c
      = ((∑ r : Fin 128, ∑ l : Fin 128, N (row i r) (col j l) : ℝ) : EReal) := by
    intro i j
    unfold tnext
    by_cases hb : b.val + 1 < 10
    · rw [dif_pos hb, hts]
      simp only [N, dif_pos hb]
    · rw [dif_neg hb]
      simp only [N, dif_neg hb, Finset.sum_const_zero, EReal.coe_zero]
  -- the pointwise difference
  have hD : ∀ h w, G h w - N h w = E h w := by
    intro h w
    have hin : inBin (q c h w) b ↔
        (thr b < q c h w ∧ ∀ hb : b.val + 1 < 10, ¬ thr ⟨b.val + 1, hb⟩ < q c h w) := Iff.rfl
    simp only [G, N, E, A]
    by_cases hb : b.val + 1 < 10
    · have hlt := thr_lt_next b hb
      rw [dif_pos hb]
      by_cases h2 : thr ⟨b.val + 1, hb⟩ < q c h w
      · have h1 : thr b < q c h w := lt_trans hlt h2
        rw [if_pos h1, if_pos h2, if_neg (fun hh => (hin.mp hh).2 hb h2)]
        ring
      · rw [if_neg h2]
        by_cases h1 : thr b < q c h w
        · rw [if_pos h1, if_pos (hin.mpr ⟨h1, fun _ => h2⟩)]; ring
        · rw [if_neg h1, if_neg (fun hh => h1 (hin.mp hh).1)]; ring
    · rw [dif_neg hb]
      by_cases h1 : thr b < q c h w
      · rw [if_pos h1, if_pos (hin.mpr ⟨h1, fun hb' => absurd hb' hb⟩)]; ring
      · rw [if_neg h1, if_neg (fun hh => h1 (hin.mp hh).1)]; ring
  -- both tables as reals
  have hk : ksum V c b = ((∑ i : Fin 8, ∑ j : Fin 16,
      ((∑ r : Fin 128, ∑ l : Fin 128, G (row i r) (col j l))
        - ∑ r : Fin 128, ∑ l : Fin 128, N (row i r) (col j l)) : ℝ) : EReal) := by
    unfold ksum
    rw [Cert.Attn.RealLaw.coe_sum]
    refine Finset.sum_congr rfl fun i _ => ?_
    rw [Cert.Attn.RealLaw.coe_sum]
    refine Finset.sum_congr rfl fun j _ => ?_
    rw [hts, htn, EReal.coe_sub]
  have hc : canon U q c b = ((∑ h : Fin 1024, ∑ w : Fin 2048, E h w : ℝ) : EReal) := by
    unfold canon
    simp only [Cert.Attn.RealLaw.coe_sum]
    refine Finset.sum_congr rfl fun h _ => Finset.sum_congr rfl fun w _ => ?_
    simp only [E]
    split_ifs
    · exact hU' c h w
    · simp
  rw [hk, hc]
  congr 1
  simp only [← Finset.sum_sub_distrib, hD]
  exact sum_tiles E

end Cert.Hist

end
-- ==== Proof.Law4.lean ====
/-
  The label's threshold term, and the three tables.

  Where the pixel's label is the class c, the label's own probability Pt is the probability of c: in the sum over
  the classes of hit · P every class other than c has hit 0, because the words of two different class numbers
  below 19 differ.  Where the label is not c both sides are 0.  The three tables then follow from the law with
  the weights P, 1 and hit.
-/
import proofs.«139248_j19292993094305_2_alg».proof.Proof.Spec
import proofs.«139248_j19292993094305_2_alg».proof.Proof.Law2
import proofs.«139248_j19292993094305_2_alg».proof.Proof.Law3

noncomputable section

open scoped BigOperators

namespace Cert.Hist

open Idealize.ShloMosaic Idealize.ShloMosaic.ValueIdx

/-- The words of two class numbers agree only when the classes do. -/
theorem ofNat_class_inj {c c' : Fin 19} (h : BitVec.ofNat 32 c'.val = BitVec.ofNat 32 c.val) : c' = c := by
  have h2 := congrArg BitVec.toNat h
  simp only [BitVec.toNat_ofNat] at h2
  have hc := c.isLt
  have hc' := c'.isLt
  apply Fin.ext
  omega

/-- hit is 0 or 1. -/
theorem hit_cases (Tg : ST.Idx → BitVec 32) (c : Fin 19) (h : Fin 1024) (w : Fin 2048) :
    (hit Tg c h w = 0 ∧ Tg (ix3 (0 : Fin 1) h w) ≠ BitVec.ofNat 32 c.val)
      ∨ (hit Tg c h w = 1 ∧ Tg (ix3 (0 : Fin 1) h w) = BitVec.ofNat 32 c.val) := by
  unfold hit
  by_cases hT : Tg (ix3 (0 : Fin 1) h w) = BitVec.ofNat 32 c.val
  · right; exact ⟨if_pos hT, hT⟩
  · left; exact ⟨if_neg hT, hT⟩

/-- Where the label is the class c, the label's own probability is the probability of c. -/
theorem Pt_of_hit (X : SX.Idx → EReal) (Tg : ST.Idx → BitVec 32) (c : Fin 19) (h : Fin 1024) (w : Fin 2048)
    (hT : Tg (ix3 (0 : Fin 1) h w) = BitVec.ofNat 32 c.val) : Pt X Tg h w = P X c h w := by
  unfold Pt
  rw [Finset.sum_eq_single c]
  · have : hit Tg c h w = 1 := by unfold hit; exact if_pos hT
    rw [this, one_mul]
  · intro c' _ hne
    have : hit Tg c' h w = 0 := by
      unfold hit
      exact if_neg (fun h' => hne (ofNat_class_inj (h'.symm.trans hT)))
    rw [this, zero_mul]
  · intro hn; exact absurd (Finset.mem_univ c) hn

/-- The label's threshold term is hit times the indicator at the class's own scaled probability. -/
theorem Vacc_eq (X : SX.Idx → EReal) (Tg : ST.Idx → BitVec 32)
    (_hX : ∀ i, ∃ r : ℝ, X i = (r : EReal)) (b : Fin 10) (c : Fin 19) (h : Fin 1024) (w : Fin 2048) :
    Vacc X Tg b c h w = hit Tg c h w * above (Q X c h w) (thr b) := by
  unfold Vacc Q
  rcases hit_cases Tg c h w with ⟨h0, _⟩ | ⟨_, hT⟩
  · rw [h0, zero_mul, zero_mul]
  · rw [Pt_of_hit X Tg c h w hT]

/-- The table of summed probabilities. -/
theorem conf_law (X : SX.Idx → EReal) (hX : ∀ i, ∃ r : ℝ, X i = (r : EReal)) (c : Fin 19) (b : Fin 10) :
    ksum (Vconf X) c b = canon (P X) (Q X) c b :=
  ksum_eq_canon (P X) (Q X) (Vconf X)
    (fun c h w => by obtain ⟨r, _, hr⟩ := P_pos X hX c h w; exact ⟨r, hr⟩)
    (fun _ _ _ _ => rfl) c b

/-- The table of counts. -/
theorem pred_law (X : SX.Idx → EReal) (_hX : ∀ i, ∃ r : ℝ, X i = (r : EReal)) (c : Fin 19) (b : Fin 10) :
    ksum (Vpred X) c b = canon one (Q X) c b :=
  ksum_eq_canon one (Q X) (Vpred X)
    (fun _ _ _ => ⟨1, rfl⟩)
    (fun b c h w => by show above (Q X c h w) (thr b) = (1 : EReal) * above (Q X c h w) (thr b); rw [one_mul]) c b

/-- The table of counts of pixels labelled with the class. -/
theorem acc_law (X : SX.Idx → EReal) (Tg : ST.Idx → BitVec 32) (hX : ∀ i, ∃ r : ℝ, X i = (r : EReal))
    (c : Fin 19) (b : Fin 10) :
    ksum (Vacc X Tg) c b = canon (hit Tg) (Q X) c b :=
  ksum_eq_canon (hit Tg) (Q X) (Vacc X Tg)
    (fun c h w => by
      rcases hit_cases Tg c h w with ⟨h0, _⟩ | ⟨h1, _⟩
      · exact ⟨0, by rw [h0]; rfl⟩
      · exact ⟨1, by rw [h1]; rfl⟩)
    (fun b c h w => Vacc_eq X Tg hX b c h w) c b

end Cert.Hist

end
-- ==== Proof.Law.lean ====
/-
  The pure mathematics of the histogram of softmax confidences, gathered: the literal values, the positivity
  of the softmax probability, the law relating threshold differences to bins, and the three tables.
-/
import proofs.«139248_j19292993094305_2_alg».proof.Proof.Law1
import proofs.«139248_j19292993094305_2_alg».proof.Proof.Law2
import proofs.«139248_j19292993094305_2_alg».proof.Proof.Law3
import proofs.«139248_j19292993094305_2_alg».proof.Proof.Law4
-- ==== Proof.KernelValue.lean ====
/-
  The kernel program's result as a closed term.

  Each of the three output arrays holds, in block i, the row's sum of tile differences; the host then sums the eight
  blocks, which gives the table "sum over all tiles of the threshold differences"; for real logits that table is
  the binned table of the specification; and the scalar computed from the three tables is the calibration error.
-/
import proofs.«139248_j19292993094305_2_alg».proof.Proof.Final
import proofs.«139248_j19292993094305_2_alg».proof.Proof.KernelTail
import proofs.«139248_j19292993094305_2_alg».proof.Proof.Tables
import proofs.«139248_j19292993094305_2_alg».proof.Proof.Law

set_option maxRecDepth 16384

noncomputable section

open scoped BigOperators
open Idealize.ShloMosaic Idealize.ShloMosaic.TcCoe Idealize.SL.Sem Idealize.ShloMosaic.ValueIdx

namespace Cert.KernelIdeal.Result

open Cert.KernelIdeal Cert.KernelIdeal.Gen Cert.KernelIdeal.Chain Cert.KernelIdeal.Final Cert.Hist

variable (m : (ℓ : Loc nD τ sig) → Buf (Elt Ideal) ℓ) (c : Dev nD)

/-- The host's sum of the eight blocks of an output array is the sum over all tiles. -/
theorem blocks_sum (V : Fin 10 → Field) (c' : Fin 19) (b : Fin 10) :
    Host.reduceAdd (F := Ideal) (G V) (constant (F := Ideal) S_ .f32 0x00000000#32) Gen.reducesTo_S8x19x10_S19x10_d0 Gen.h_S_ (ix2 c' b)
      = ksum V c' b := by
  rw [Cert.Hist.red8_at]
  rfl

/-- The kernel program's result is the calibration error of the specification's tables. -/
theorem kernel_loss (hX : ∀ i, ∃ r : ℝ, X m c i = (r : EReal)) :
    Pipeline.afterTail₀ cfgs (dats m) 0 (V0 m) [hostOps1] c main_v18
      = loss Gen.reducesTo_S19x10_S_d0_1 Gen.h_S_ Gen.bcast_S_S19x10 (X m c) (Tg m c) := by
  rw [Cert.Hist.kernel_tail m c _ _ _ (final2 m c) (final3 m c) (final4 m c)]
  unfold loss
  have hC : Host.reduceAdd (F := Ideal) (G (Vconf (X m c))) (constant (F := Ideal) S_ .f32 0x00000000#32) Gen.reducesTo_S8x19x10_S19x10_d0 Gen.h_S_
      = tabC (X m c) := by
    funext idx
    obtain ⟨c', b, rfl⟩ : ∃ (c' : Fin 19) (b : Fin 10), idx = ix2 c' b := ⟨idx 0, idx 1, eq_ix2 idx⟩
    exact (blocks_sum _ c' b).trans (conf_law (X m c) hX c' b)
  have hP : Host.reduceAdd (F := Ideal) (G (Vpred (X m c))) (constant (F := Ideal) S_ .f32 0x00000000#32) Gen.reducesTo_S8x19x10_S19x10_d0 Gen.h_S_
      = tabP (X m c) := by
    funext idx
    obtain ⟨c', b, rfl⟩ : ∃ (c' : Fin 19) (b : Fin 10), idx = ix2 c' b := ⟨idx 0, idx 1, eq_ix2 idx⟩
    exact (blocks_sum _ c' b).trans (pred_law (X m c) hX c' b)
  have hA : Host.reduceAdd (F := Ideal) (G (Vacc (X m c) (Tg m c))) (constant (F := Ideal) S_ .f32 0x00000000#32) Gen.reducesTo_S8x19x10_S19x10_d0 Gen.h_S_
      = tabA (X m c) (Tg m c) := by
    funext idx
    obtain ⟨c', b, rfl⟩ : ∃ (c' : Fin 19) (b : Fin 10), idx = ix2 c' b := ⟨idx 0, idx 1, eq_ix2 idx⟩
    exact (blocks_sum _ c' b).trans (acc_law (X m c) (Tg m c) hX c' b)
  rw [hC, hP, hA]

end Cert.KernelIdeal.Result

end
-- ==== Proof.RefTail.lean ====
/-
  The reference program's result is the common tail of its three tables: its last thirteen operations, in the
  order the program lists them, are the tail's operations applied to the tables of summed probabilities (%33),
  counts (%39) and correctly labelled counts (%50).
-/
import proofs.«139248_j19292993094305_2_alg».proof.Proof.Tail
import proofs.«139248_j19292993094305_2_alg».proof.Proof.Gen.ReferenceIdeal.Read

noncomputable section

namespace Cert.Hist

open Idealize.ShloMosaic

/-- The reference's scalar is the tail of its three tables. -/
theorem ref_tail (X : SX.Idx → EReal) (Tg : ST.Idx → BitVec 32) :
    Cert.ReferenceIdeal.Read.val_main_v63 (F := Ideal) X Tg
      = tail Cert.ReferenceIdeal.Facts₀.reducesTo_S19x10_S_d0_1 Cert.ReferenceIdeal.Facts₀.h_S_
          Cert.ReferenceIdeal.Facts₀.bcast_S_S19x10
          (Cert.ReferenceIdeal.Read.val_main_v33 (F := Ideal) X)
          (Cert.ReferenceIdeal.Read.val_main_v39 (F := Ideal) X)
          (Cert.ReferenceIdeal.Read.val_main_v50 (F := Ideal) X Tg) := by
  unfold Cert.ReferenceIdeal.Read.val_main_v63 Cert.ReferenceIdeal.Read.val_main_v62
    Cert.ReferenceIdeal.Read.val_main_v61 Cert.ReferenceIdeal.Read.val_main_v60
    Cert.ReferenceIdeal.Read.val_main_v59 Cert.ReferenceIdeal.Read.val_main_v58
    Cert.ReferenceIdeal.Read.val_main_v57 Cert.ReferenceIdeal.Read.val_main_v56
    Cert.ReferenceIdeal.Read.val_main_v55 Cert.ReferenceIdeal.Read.val_main_v54
    Cert.ReferenceIdeal.Read.val_main_v53 Cert.ReferenceIdeal.Read.val_main_v52
    Cert.ReferenceIdeal.Read.val_main_v51
    Cert.ReferenceIdeal.Read.val_main_cst_12 Cert.ReferenceIdeal.Read.val_main_cst_13
    Cert.ReferenceIdeal.Read.val_main_cst_14 Cert.ReferenceIdeal.Read.val_main_cst_15
  generalize Cert.ReferenceIdeal.Read.val_main_v33 (F := Ideal) X = conf
  generalize Cert.ReferenceIdeal.Read.val_main_v39 (F := Ideal) X = pred
  generalize Cert.ReferenceIdeal.Read.val_main_v50 (F := Ideal) X Tg = acc
  rfl

end Cert.Hist

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.RefSoftmax.lean ====
import proofs.«139248_j19292993094305_2_alg».proof.Proof.Spec
import proofs.«139248_j19292993094305_2_alg».proof.Proof.Gen.ReferenceIdeal.Read
import proofs.«139248_j19292993094305_2_alg».proof.Proof.LibRowMax

noncomputable section

open scoped BigOperators

namespace Cert.Hist.Ref

open Idealize.ShloMosaic Idealize.ShloMosaic.ValueIdx Cert.ReferenceIdeal Cert.ReferenceIdeal.Gen Cert.ReferenceIdeal.Read

/-- The reference's row maximum is the fold of max from -∞ over the classes. -/
theorem ref_max (hneg : Ideal.ofBits .f32 0xFF800000#32 = (⊥ : EReal)) (X : SX.Idx → EReal) (h : Fin 1024) (w : Fin 2048) :
    val_main_v2 (F := Ideal) X (ix3 (0 : Fin 1) h w) = mx X h w := by
  rw [val_main_v2_apply, val_main_v1_apply, val_main_cst_0_apply]
  unfold val_main_v0
  rw [Cert.LibRowMax.hostReduce_maximumf_single X (val_main_cst (F := Ideal)) reducesTo_S1x19x1024x2048_S1x1024x2048_d1 (by decide) h_S_]
  rw [val_main_cst_apply]
  show max (Ideal.ofBits .f32 0xFF800000#32) (Finset.fold max (Ideal.ofBits .f32 0xFF800000#32) _ Finset.univ) = mx X h w
  rw [hneg, max_bot_left]
  unfold mx xat
  refine congrArg (fun f => Finset.fold max ⊥ f Finset.univ) (funext fun k => congrArg X (funext fun a => Fin.ext ?_))
  match a with
  | ⟨0, _⟩ => rfl
  | ⟨1, _⟩ => rfl
  | ⟨2, _⟩ => rfl
  | ⟨3, _⟩ => rfl

/-- The reference's shifted exponential. -/
theorem ref_ex (hneg : Ideal.ofBits .f32 0xFF800000#32 = (⊥ : EReal)) (X : SX.Idx → EReal) (c : Fin 19) (h : Fin 1024) (w : Fin 2048) :
    val_main_v6 (F := Ideal) X (ix4 (0 : Fin 1) c h w) = ex X c h w := by
  rw [val_main_v6_apply, val_main_v5_apply, val_main_v4_apply, val_main_v3_apply]
  have hi : idx_main_v3 (idx_main_v4 (ix4 (0 : Fin 1) c h w)) = ix3 (0 : Fin 1) h w := by
    funext a
    match a with
    | ⟨0, _⟩ => rfl
    | ⟨1, _⟩ => rfl
    | ⟨2, _⟩ => rfl
  rw [hi, ref_max hneg]
  rfl

/-- The reference's sum of the shifted exponentials over the classes. -/
theorem ref_den (hneg : Ideal.ofBits .f32 0xFF800000#32 = (⊥ : EReal)) (X : SX.Idx → EReal) (h : Fin 1024) (w : Fin 2048) :
    val_main_v7 (F := Ideal) X (ix3 (0 : Fin 1) h w) = den X h w := by
  rw [val_main_v7_apply, val_main_cst_1_apply]
  show Ideal.ofBits .f32 0x00000000#32 + _ = _
  rw [Ideal.ofBits_zero_f32, zero_add]
  unfold den
  refine Finset.sum_congr rfl fun k _ => ?_
  have hi : idx_main_v7 (ix3 (0 : Fin 1) h w) k = ix4 (0 : Fin 1) k h w := by
    funext a
    match a with
    | ⟨0, _⟩ => rfl
    | ⟨1, _⟩ => rfl
    | ⟨2, _⟩ => rfl
    | ⟨3, _⟩ => rfl
  rw [hi, ref_ex hneg]

/-- The reference's softmax probability. -/
theorem ref_p (hneg : Ideal.ofBits .f32 0xFF800000#32 = (⊥ : EReal)) (X : SX.Idx → EReal) (c : Fin 19) (h : Fin 1024) (w : Fin 2048) :
    val_main_v10 (F := Ideal) X (ix4 (0 : Fin 1) c h w) = P X c h w := by
  rw [val_main_v10_apply, val_main_v9_apply, val_main_v8_apply, ref_ex hneg]
  have hi : idx_main_v8 (idx_main_v9 (ix4 (0 : Fin 1) c h w)) = ix3 (0 : Fin 1) h w := by
    funext a
    match a with
    | ⟨0, _⟩ => rfl
    | ⟨1, _⟩ => rfl
    | ⟨2, _⟩ => rfl
  rw [hi, ref_den hneg]
  rfl

/-- The reference's scaled probability. -/
theorem ref_q (hneg : Ideal.ofBits .f32 0xFF800000#32 = (⊥ : EReal)) (X : SX.Idx → EReal) (c : Fin 19) (h : Fin 1024) (w : Fin 2048) :
    val_main_v12 (F := Ideal) X (ix4 (0 : Fin 1) c h w) = Q X c h w := by
  rw [val_main_v12_apply, ref_p hneg, val_main_v11_apply, val_main_cst_2_apply]
  rfl

/-- The segment word of an element: where the probability is positive, ten times the class plus the bin
    (the ceiling of the scaled probability less one, kept within 0 … 9); elsewhere the spare place 190. -/
def segWord (c' : Fin 19) (p q : EReal) : BitVec 32 :=
  Scalar.select (FloatOps.cmpf (F := Ideal) (φ := .f32) .ogt p (FloatOps.ofBits (F := Ideal) .f32 0x00000000#32))
    (IntOp.addi (IntOp.muli (BitVec.ofNat 32 c'.val) 10#32)
      (IntOp.minsi 9#32 (IntOp.maxsi 0#32 (IntOp.subi (FloatOps.fptosi (F := Ideal) (φ := .f32) 32 (FloatOps.hostUnary (F := Ideal) (φ := .f32) .ceil q)) 1#32))))
    190#32

theorem ref_seg (hneg : Ideal.ofBits .f32 0xFF800000#32 = (⊥ : EReal)) (X : SX.Idx → EReal) (c : Fin 19) (h : Fin 1024) (w : Fin 2048) :
    val_main_v26 (F := Ideal) X (ix4 (0 : Fin 1) c h w) = segWord c (P X c h w) (Q X c h w) := by
  rw [val_main_v26_apply, val_main_v19_apply, val_main_v25_apply, val_main_v24_apply, val_main_v23_apply,
    val_main_v21_apply, val_main_v20_apply, val_main_v22_apply, val_main_c_6_apply, val_main_v17_apply,
    val_main_call0_v4_apply, val_main_call0_v3_apply, val_main_c_4_apply, val_main_call0_v2_apply,
    val_main_call0_v1_apply, val_main_call0_v0_apply, val_main_c_3_apply, val_main_v16_apply, val_main_v14_apply,
    val_main_v13_apply, val_main_v15_apply, val_main_c_apply, val_main_call1_v1_apply, val_main_call1_v0_apply,
    val_main_c_7_apply, val_main_v18_apply, val_main_cst_5_apply, ref_p hneg, ref_q hneg]
  rfl

end Cert.Hist.Ref
end
-- ==== Proof.LibHistogram.lean ====
/- A histogram computed as a scatter of additions.

   The host's scatter with an adding body leaves, at each place of the operand, the operand's entry plus the sum of
   the updates that land on that place: the left fold over the updates changes one place per update, and addition
   of words is associative, so the place's final value does not depend on the order.  For a rank-1 operand of
   `N` places and a column `[E, 1]` of start indices (one scalar update per index: what `x.at[idx].add(u)` lowers
   to) update `n` lands on place `k` exactly when its index word, read as a signed integer, is `k`; an index
   outside `[0, N)` is dropped.  With every update one this is the histogram of the indices. -/
import Idealize.ShloMosaic.PureOps
import Idealize.ShloMosaic.Lib.ValueIdx
import Mathlib.Algebra.BigOperators.Fin
import Mathlib.Data.BitVec

noncomputable section

open scoped BigOperators

namespace Cert.LibHistogram

open Idealize.ShloMosaic Idealize.ShloMosaic.ValueIdx

section Fold
variable {s si u : Shape} {w wi : Nat}

/-- The fold of the adding scatter step over a list of update positions, read at one place `i0`: the start
    contents there plus the updates of the list that land there. -/
theorem scatter_foldl (d : ScatterDims s si u) (idx : IVec si wi) (upd : u.Idx → BitVec w) (i0 : s.Idx)
    (L : List (Fin u.numel)) (r : s.Idx → BitVec w) :
    (L.foldl (fun r n =>
        match d.resultIdx? (u.rowMajor.symm n) idx with
        | some i => fun i' => if i' = i then IntOp.addi (r i) (upd (u.rowMajor.symm n)) else r i'
        | none => r) r) i0
      = r i0 + (L.map fun n => if d.resultIdx? (u.rowMajor.symm n) idx = some i0 then upd (u.rowMajor.symm n) else 0).sum := by
  induction L generalizing r with
  | nil => simp
  | cons n L ih =>
    rw [List.foldl_cons, ih, List.map_cons, List.sum_cons, ← BitVec.add_assoc]
    congr 1
    cases hres : d.resultIdx? (u.rowMajor.symm n) idx with
    | none => simp
    | some i =>
      by_cases hi : i0 = i
      · subst hi
        simp [IntOp.addi]
      · have hne : ¬ (some i = some i0) := fun h => hi (Option.some.inj h).symm
        simp [hi, hne]

/-- THE ADDING SCATTER AT A PLACE: the operand's entry plus the sum of the updates landing there. -/
theorem scatter_add_apply (d : ScatterDims s si u) (x : s.Idx → BitVec w) (idx : IVec si wi) (upd : u.Idx → BitVec w)
    (i0 : s.Idx) :
    Host.scatter d IntOp.addi x idx upd i0 = x i0 + ∑ j : u.Idx, if d.resultIdx? j idx = some i0 then upd j else 0 := by
  unfold Host.scatter
  refine (scatter_foldl d idx upd i0 (List.finRange u.numel) x).trans ?_
  rw [← Fin.sum_univ_def]
  congr 1
  exact Equiv.sum_comp u.rowMajor.symm fun j => if d.resultIdx? j idx = some i0 then upd j else 0

end Fold

section Column
variable {w wi : Nat}

/-- The dimension numbers: a rank-1 operand of `N` places, a column `[E, 1]` of start indices (the index vector
    along axis 1, its one component naming the operand's axis), `E` scalar updates. -/
abbrev colDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem zero_mem : (0 : Fin 1) ∈ ([0] : List (Fin 1)) := by decide

/-- Update `n`'s window starts at its index word read signed … -/
theorem start_col {N E : Nat} (wf : ScatterDims.WF ⟨1, ![N]⟩ ⟨2, ![E, 1]⟩ ⟨1, ![E]⟩ [] [0] [0] 1)
    (idx : IVec ⟨2, ![E, 1]⟩ wi) (n : Fin E) :
    (colDims N E wf).start (ix1 n) idx 0 = (idx (ix2 n (0 : Fin 1))).toInt := by
  unfold ScatterDims.start
  rw [dif_pos (show (0 : Fin 1) ∈ (colDims N E wf).scatterDimsToOperandDims from zero_mem)]
  have hsi : (colDims N E wf).siIdx (ix1 n) ⟨List.idxOf (0 : Fin 1) (colDims N E wf).scatterDimsToOperandDims,
      List.idxOf_lt_length_iff.2 zero_mem⟩ = ix2 n (0 : Fin 1) := by
    funext c; refine Fin.ext ?_
    match c with
    | ⟨0, _⟩ => rfl
    | ⟨1, _⟩ => rfl
  rw [hsi]

/-- … and has no window coordinate: the operand's one axis is an inserted one. -/
theorem window_col {N E : Nat} (wf : ScatterDims.WF ⟨1, ![N]⟩ ⟨2, ![E, 1]⟩ ⟨1, ![E]⟩ [] [0] [0] 1) (n : Fin E) :
    (colDims N E wf).window (ix1 n) 0 = 0 := by
  unfold ScatterDims.window
  rw [dif_neg]
  show (0 : Fin 1) ∉ (List.finRange 1).filter (· ∉ ([0] : List (Fin 1)))
  decide

/-- Update `n` lands on place `k` exactly when its index word, read signed, is `k`. -/
theorem resultIdx_col {N E : Nat} (wf : ScatterDims.WF ⟨1, ![N]⟩ ⟨2, ![E, 1]⟩ ⟨1, ![E]⟩ [] [0] [0] 1)
    (idx : IVec ⟨2, ![E, 1]⟩ wi) (n : Fin E) (k : Fin N) :
    (colDims N E wf).resultIdx? (ix1 n) idx = some (ix1 k) ↔ (idx (ix2 n (0 : Fin 1))).toInt = (k.val : Int) := by
  unfold ScatterDims.resultIdx?
  have hone : ∀ a : Fin 1, a = 0 := fun a => Subsingleton.elim _ _
  by_cases h : ∀ a, 0 ≤ (colDims N E wf).start (ix1 n) idx a + (colDims N E wf).window (ix1 n) a
      ∧ (colDims N E wf).start (ix1 n) idx a + (colDims N E wf).window (ix1 n) a < ((⟨1, ![N]⟩ : Shape).size a : Int)
  · rw [dif_pos h]
    have h0 := h 0
    rw [start_col, window_col] at h0
    constructor
    · intro he
      have := congrFun (Option.some.inj he) 0
      have hv := congrArg Fin.val this
      simp only [start_col, window_col] at hv
      have hv' : ((idx (ix2 n (0 : Fin 1))).toInt + ((0 : Nat) : Int)).toNat = k.val := hv
      omega
    · intro he
      refine congrArg some (funext fun a => Fin.ext ?_)
      rw [hone a]
      show ((colDims N E wf).start (ix1 n) idx 0 + ((colDims N E wf).window (ix1 n) 0 : Int)).toNat = k.val
      rw [start_col, window_col, he]
      simp
  · rw [dif_neg h]
    constructor
    · intro he; exact absurd he (by simp)
    · intro he
      exfalso
      apply h
      intro a
      rw [hone a, start_col, window_col, he]
      have := k.isLt
      constructor
      · simp
      · show ((k.val : Int) + ((0 : Nat) : Int)) < ((N : Nat) : Int)
        omega

end Column

end Cert.LibHistogram

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibRowNorm.lean ====
/-
  Row normalization h / (Σ_d h(r, d) + ε) of an [a, b] matrix over the extended reals, read at an entry in the two spellings a
  program may print it in: a lane sum cast to a column, shifted by a splat constant, broadcast along the columns and divided
  into the matrix (a kernel body's); and the host's reduce-add broadcast into a column, shifted by a broadcast scalar,
  broadcast along the columns and divided into the matrix. Both are one function of the matrix and of ε.
  Also: six pieces of one shape [a, K] laid side by side along axis 1, read at an entry.
-/
import Idealize.ShloMosaic.Lib.Pipeline.Value
import Idealize.ShloMosaic.Lib.ValueIdx
import Idealize.ShloMosaic.Lib.IdealHost
import Idealize.ShloMosaic.PureOps.Ideal.Laws
import proofs.«139248_j19292993094305_2_alg».proof.Proof.LibKeepdims
import proofs.«139248_j19292993094305_2_alg».proof.Proof.LibHostRows

noncomputable section

open scoped BigOperators

namespace Cert.LibRowNorm

open Idealize.ShloMosaic Idealize.ShloMosaic.ValueIdx

/-- Entry (r, c) of the row-normalized matrix: the entry over its row's sum shifted by `e`. -/
def rowNorm {a b : ℕ} (x : (⟨2, ![a, b]⟩ : Shape).Idx → EReal) (e : EReal) : (⟨2, ![a, b]⟩ : Shape).Idx → EReal :=
  fun i => Ideal.div (x i) ((∑ d : Fin b, x (ix2 (i 0) d)) + e)

theorem rowNorm_apply {a b : ℕ} (x : (⟨2, ![a, b]⟩ : Shape).Idx → EReal) (e : EReal) (r : Fin a) (c : Fin b) :
    rowNorm x e (ix2 r c) = Ideal.div (x (ix2 r c)) ((∑ d : Fin b, x (ix2 r d)) + e) := rfl

/-- The kernel body's spelling. -/
theorem kernel_rowNorm {a b : ℕ} (h : FVec Ideal ⟨2, ![a, b]⟩ .f32) (acc : BitVec (FTy.bits .f32))
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf h (broadcastTo ⟨2, ![a, b]⟩ (addf (shapeCast ⟨2, ![a, 1]⟩ (multiReduction .add [1] ⟨1, ![a]⟩ h acc hr hφ hacc) hc)
      (broadcast ⟨2, ![a, 1]⟩ e)) hb) (ix2 r c) = rowNorm h e (ix2 r c) := by
  rw [divf_apply, Cert.LibKeepdims.broadcastTo_a1_ab_apply, addf_apply, Cert.LibKeepdims.shapeCast_a_a1_apply,
    Cert.LibKeepdims.multiReduction_add_rows, broadcast_apply]
  rfl

/-- The host's spelling: the reduce-add starts from the zero word, which is the real zero. -/
theorem host_rowNorm {a b : ℕ} (x : FVec Ideal ⟨2, ![a, b]⟩ .f32) (ew : BitVec 32)
    (dims2 : Fin (⟨2, ![a, 1]⟩ : Shape).rank → Fin (⟨2, ![a, b]⟩ : Shape).rank) (hd20 : dims2 0 = 0) (hd21 : dims2 1 = 1)
    (h2 : (⟨2, ![a, 1]⟩ : Shape).BroadcastsInDim ⟨2, ![a, b]⟩ dims2)
    (dims1 : Fin (⟨1, ![a]⟩ : Shape).rank → Fin (⟨2, ![a, 1]⟩ : Shape).rank) (hd1 : dims1 0 = 0)
    (h1 : (⟨1, ![a]⟩ : Shape).BroadcastsInDim ⟨2, ![a, 1]⟩ dims1)
    (dims0 : Fin (⟨0, ![]⟩ : Shape).rank → Fin (⟨2, ![a, 1]⟩ : Shape).rank)
    (h0 : (⟨0, ![]⟩ : Shape).BroadcastsInDim ⟨2, ![a, 1]⟩ dims0)
    (h' : (⟨2, ![a, b]⟩ : Shape).ReducesTo [1] ⟨1, ![a]⟩) (hu : 0 < (⟨0, ![]⟩ : Shape).numel) (r : Fin a) (c : Fin b) :
    Host.divf x (broadcastInDim ⟨2, ![a, b]⟩ dims2 h2 (addf (broadcastInDim ⟨2, ![a, 1]⟩ dims1 h1
        (Host.reduceAdd x (constant (F := Ideal) ⟨0, ![]⟩ .f32 0x00000000#32) h' hu))
      (broadcastInDim ⟨2, ![a, 1]⟩ dims0 h0 (constant (F := Ideal) ⟨0, ![]⟩ .f32 ew)))) (ix2 r c)
      = rowNorm x (Ideal.ofBits .f32 ew) (ix2 r c) := by
  have hR : (⟨2, ![a, b]⟩ : Shape).Reduces [1] ⟨1, ![a]⟩ := by
    obtain ⟨g1, g2⟩ := h'; exact ⟨g1, Nat.one_pos, g2⟩
  have hc : broadcastInDim ⟨2, ![a, 1]⟩ dims0 h0 (constant (F := Ideal) ⟨0, ![]⟩ .f32 ew) (ix2 r (0 : Fin 1))
      = Ideal.ofBits .f32 ew :=
    broadcastInDim_apply dims0 h0 _ (ix2 r (0 : Fin 1)) ix0 (fun ax => ax.elim0)
  show Ideal.div (x (ix2 r c)) _ = _
  rw [Cert.LibHostRows.bcast_a1_ab_at dims2 hd20 hd21 h2, addf_apply, Cert.LibHostRows.bcast_a_a1_at dims1 hd1 h1,
    Cert.LibHostRows.hostReduceAdd_rows x _ h' hR hu, hc, constant_apply, Ideal.ofBits_zero_f32, zero_add]
  rfl

/-- Six pieces of one shape laid along axis `a`: entry `j` is piece `(j a) / K` at the index whose axis coordinate is
    `(j a) % K` and whose other coordinates are `j`'s, `K` the pieces' common extent on the axis. -/
theorem concat6_apply {α : Type} {t s₁ : Shape} (a : Fin t.rank) (x0 x1 x2 x3 x4 x5 : s₁.Idx → α)
    (h : Shape.Concatenates (([⟨s₁, x0⟩, ⟨s₁, x1⟩, ⟨s₁, x2⟩, ⟨s₁, x3⟩, ⟨s₁, x4⟩, ⟨s₁, x5⟩] :
      List ((s : Shape) × (s.Idx → α))).map (·.1)) t a)
    (hr : s₁.rank = t.rank) (K : Nat) (hK : s₁.size (a.cast hr.symm) = K) (j : t.Idx) (n : Fin 6)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩] h j
      = (![x0, x1, x2, x3, x4, x5] : Fin 6 → s₁.Idx → α) n i :=
  concatenate_ofFn_apply a (![x0, x1, x2, x3, x4, x5] : Fin 6 → s₁.Idx → α) h hr K hK j n hn i hia hi

/-- Two pieces of one shape laid along axis `a`, the same way. -/
theorem concat2_apply {α : Type} {t s₁ : Shape} (a : Fin t.rank) (x0 x1 : s₁.Idx → α)
    (h : Shape.Concatenates (([⟨s₁, x0⟩, ⟨s₁, x1⟩] : List ((s : Shape) × (s.Idx → α))).map (·.1)) t a)
    (hr : s₁.rank = t.rank) (K : Nat) (hK : s₁.size (a.cast hr.symm) = K) (j : t.Idx) (n : Fin 2)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩] h j = (![x0, x1] : Fin 2 → s₁.Idx → α) n i :=
  concatenate_ofFn_apply a (![x0, x1] : Fin 2 → s₁.Idx → α) h hr K hK j n hn i hia hi

/-- A propagated feature matrix with its self-return term removed: entry (r, c) is h(r, c) - l(r, c) · re(r, k), `re` holding one
    return weight per row in its column `k`. -/
def corr {a b n : ℕ} (h l : (⟨2, ![a, b]⟩ : Shape).Idx → EReal) (re : (⟨2, ![a, n]⟩ : Shape).Idx → EReal) (k : Fin n) :
    (⟨2, ![a, b]⟩ : Shape).Idx → EReal :=
  fun i => h i - l i * re (ix2 (i 0) k)

/-- Six `[a, 32]` matrices side by side: entry (r, q) is matrix `q / 32` at (r, q % 32). -/
def cat6 {a : ℕ} (p0 p1 p2 p3 p4 p5 : (⟨2, ![a, 32]⟩ : Shape).Idx → EReal) : (⟨2, ![a, 192]⟩ : Shape).Idx → EReal :=
  fun j => (![p0, p1, p2, p3, p4, p5] : Fin 6 → (⟨2, ![a, 32]⟩ : Shape).Idx → EReal)
    ⟨(j 1).val / 32, by have : (j 1).val < 192 := idx2_lt1 j; omega⟩ (ix2 (j 0) ⟨(j 1).val % 32, Nat.mod_lt _ (by decide)⟩)

end Cert.LibRowNorm

end
-- ==== Proof.LibDegree.lean ====
/-
  Degree counts. Over the extended reals a float scatter-add into a rank-1 array [N] at a column [E, 1] of indices reads, at
  place k, the operand's entry plus the sum of the updates whose index word, read signed, is k. When the column is the
  concatenation of two index vectors a ++ b, the sum splits into the two vectors' sums: scattering into zeros over a ++ b is
  the entrywise sum of scattering over a and over b.
-/
import Idealize.ShloMosaic.Lib.Pipeline.Value
import Idealize.ShloMosaic.Lib.ValueIdx
import Idealize.ShloMosaic.PureOps.Ideal.Laws
import proofs.«139248_j19292993094305_2_alg».proof.Proof.LibHistogram
import proofs.«139248_j19292993094305_2_alg».proof.Proof.LibHostRows
import proofs.«139248_j19292993094305_2_alg».proof.Proof.LibRowNorm

noncomputable section

open scoped BigOperators

namespace Cert.LibDegree

open Idealize.ShloMosaic Idealize.ShloMosaic.ValueIdx Cert.LibHistogram

/-- Place `k` of a float scatter-add into a rank-1 array. -/
theorem scatterAdd_col_apply {N E wi : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ wi) (upd : (⟨1, ![E]⟩ : Shape).Idx → EReal) (k : Fin N) :
    Ideal.hostScatterAdd (colDims N E wf) x idx upd (ix1 k)
      = x (ix1 k) + ∑ n : Fin E, if (idx (ix2 n (0 : Fin 1))).toInt = (k.val : Int) then upd (ix1 n) else 0 := by
  unfold Ideal.hostScatterAdd
  congr 1
  rw [Finset.sum_filter]
  let e : Fin E ≃ (⟨1, ![E]⟩ : Shape).Idx := ⟨ix1, fun j => j 0, fun _ => rfl, fun j => (eq_ix1 j).symm⟩
  rw [← Equiv.sum_comp e]
  refine Finset.sum_congr rfl fun n _ => ?_
  show (if (colDims N E wf).resultIdx? (ix1 n) idx = some (ix1 k) then upd (ix1 n) else 0) = _
  by_cases h : (idx (ix2 n (0 : Fin 1))).toInt = (k.val : Int)
  · rw [if_pos ((resultIdx_col wf idx n k).mpr h), if_pos h]
  · rw [if_neg (fun h' => h ((resultIdx_col wf idx n k).mp h')), if_neg h]

/-- The column made of `a ++ b`, read at row `n`: `a`'s word below `E`, `b`'s from `E` on. -/
theorem col_concat_at {α : Type} {E E2 : ℕ} (hE : E2 = E + E) (a b : (⟨1, ![E]⟩ : Shape).Idx → α)
    (hc : Shape.Concatenates (([⟨⟨1, ![E]⟩, a⟩, ⟨⟨1, ![E]⟩, b⟩] : List ((s : Shape) × (s.Idx → α))).map (·.1)) ⟨1, ![E2]⟩ 0)
    (dims : Fin (⟨1, ![E2]⟩ : Shape).rank → Fin (⟨2, ![E2, 1]⟩ : Shape).rank) (hd : dims 0 = 0)
    (hb : (⟨1, ![E2]⟩ : Shape).BroadcastsInDim ⟨2, ![E2, 1]⟩ dims) (n : Fin E2) :
    broadcastInDim ⟨2, ![E2, 1]⟩ dims hb (concatenate ⟨1, ![E2]⟩ 0 [⟨⟨1, ![E]⟩, a⟩, ⟨⟨1, ![E]⟩, b⟩] hc) (ix2 n (0 : Fin 1))
      = if h : n.val < E then a (ix1 ⟨n.val, h⟩) else b (ix1 ⟨n.val - E, by have := n.isLt; omega⟩) := by
  rw [Cert.LibHostRows.bcast_a_a1_at dims hd hb]
  have hn := n.isLt
  by_cases h : n.val < E
  · rw [dif_pos h]
    exact Cert.LibRowNorm.concat2_apply (t := ⟨1, ![E2]⟩) (s₁ := ⟨1, ![E]⟩) (0 : Fin 1) a b hc rfl E rfl (ix1 n) 0 (Nat.div_eq_of_lt h) (ix1 ⟨n.val, h⟩)
      (Nat.mod_eq_of_lt h).symm (fun c hcne => absurd (Subsingleton.elim _ _) hcne)
  · rw [dif_neg h]
    have h1 : n.val / E = 1 := by
      have hpos : 0 < E := by omega
      rw [Nat.div_eq_iff hpos]; omega
    have h2 : n.val % E = n.val - E := by
      rw [Nat.mod_eq_sub_mod (by omega)]; exact Nat.mod_eq_of_lt (by omega)
    exact Cert.LibRowNorm.concat2_apply (t := ⟨1, ![E2]⟩) (s₁ := ⟨1, ![E]⟩) (0 : Fin 1) a b hc rfl E rfl (ix1 n) 1 h1 (ix1 ⟨n.val - E, by omega⟩)
      h2.symm (fun c hcne => absurd (Subsingleton.elim _ _) hcne)

/-- A sum over `E + E` rows of a column `a ++ b` is the sum over `a`'s rows plus the sum over `b`'s. -/
theorem sum_concat {E E2 : ℕ} (hE : E2 = E + E) (f : Fin E2 → EReal) (g₁ g₂ : Fin E → EReal)
    (h₁ : ∀ (n : Fin E), f ⟨n.val, by have := n.isLt; omega⟩ = g₁ n)
    (h₂ : ∀ (n : Fin E), f ⟨E + n.val, by have := n.isLt; omega⟩ = g₂ n) :
    ∑ n : Fin E2, f n = ∑ n : Fin E, g₁ n + ∑ n : Fin E, g₂ n := by
  subst hE
  rw [Fin.sum_univ_add]
  refine congrArg₂ (· + ·) (Finset.sum_congr rfl fun n _ => ?_) (Finset.sum_congr rfl fun n _ => ?_)
  · exact h₁ n
  · exact h₂ n

/-- Scattering the constant `o` into zeros at the column `a ++ b` is, at each place, the sum of scattering it at `a`'s
    column and at `b`'s. -/
theorem degree_concat {N E E2 wi : ℕ} (hE : E2 = E + E)
    (wf2 : ScatterDims.WF ⟨1, ![N]⟩ ⟨2, ![E2, 1]⟩ ⟨1, ![E2]⟩ [] [0] [0] 1)
    (wf : ScatterDims.WF ⟨1, ![N]⟩ ⟨2, ![E, 1]⟩ ⟨1, ![E]⟩ [] [0] [0] 1)
    (z2 z : (⟨1, ![N]⟩ : Shape).Idx → EReal) (hz2 : ∀ i, z2 i = 0) (hz : ∀ i, z i = 0)
    (u2 : (⟨1, ![E2]⟩ : Shape).Idx → EReal) (u : (⟨1, ![E]⟩ : Shape).Idx → EReal) (o : EReal) (hu2 : ∀ i, u2 i = o) (hu : ∀ i, u i = o)
    (idx2 : IVec ⟨2, ![E2, 1]⟩ wi) (ia ib : IVec ⟨2, ![E, 1]⟩ wi)
    (hidx : ∀ n : Fin E2, idx2 (ix2 n (0 : Fin 1))
      = if h : n.val < E then ia (ix2 ⟨n.val, h⟩ (0 : Fin 1)) else ib (ix2 ⟨n.val - E, by have := n.isLt; omega⟩ (0 : Fin 1)))
    (k : Fin N) :
    Ideal.hostScatterAdd (colDims N E2 wf2) z2 idx2 u2 (ix1 k)
      = Ideal.hostScatterAdd (colDims N E wf) z ia u (ix1 k) + Ideal.hostScatterAdd (colDims N E wf) z ib u (ix1 k) := by
  rw [scatterAdd_col_apply, scatterAdd_col_apply, scatterAdd_col_apply, hz2, hz, zero_add, zero_add, zero_add]
  refine sum_concat hE _ _ _ (fun n => ?_) (fun n => ?_)
  · have hn := n.isLt
    rw [hidx, dif_pos (show (⟨n.val, by omega⟩ : Fin E2).val < E from hn), hu2, hu]
  · have hn := n.isLt
    rw [hidx, dif_neg (show ¬ (⟨E + n.val, by omega⟩ : Fin E2).val < E from by simp), hu2, hu]
    have : (⟨(⟨E + n.val, by omega⟩ : Fin E2).val - E, by simp⟩ : Fin E) = n := Fin.ext (by simp)
    rw [this]

end Cert.LibDegree

end
-- ==== Proof.RefScatter.lean ====
import proofs.«139248_j19292993094305_2_alg».proof.Proof.Spec
import proofs.«139248_j19292993094305_2_alg».proof.Proof.Gen.ReferenceIdeal.Read
import proofs.«139248_j19292993094305_2_alg».proof.Proof.LibDegree

noncomputable section

open scoped BigOperators

namespace Cert.Hist.Ref

open Idealize.ShloMosaic Idealize.ShloMosaic.ValueIdx Cert.ReferenceIdeal Cert.ReferenceIdeal.Gen Cert.ReferenceIdeal.Read

/-- The flat place of element (c, h, w) of a [1, 19, 1024, 2048] array in row-major order. -/
def flat (c : Fin 19) (h : Fin 1024) (w : Fin 2048) : Fin 39845888 :=
  ⟨(c.val * 1024 + h.val) * 2048 + w.val, by have := c.isLt; have := h.isLt; have := w.isLt; omega⟩

/-- The flat places are exactly the triples (c, h, w). -/
def flatEquiv : (Fin 19 × Fin 1024 × Fin 2048) ≃ Fin 39845888 where
  toFun t := flat t.1 t.2.1 t.2.2
  invFun n := (⟨n.val / 2097152 % 19, by have := n.isLt; omega⟩, ⟨n.val / 2048 % 1024, by have := n.isLt; omega⟩,
    ⟨n.val % 2048, by have := n.isLt; omega⟩)
  left_inv := by
    rintro ⟨c, h, w⟩
    have := c.isLt; have := h.isLt; have := w.isLt
    refine Prod.ext (Fin.ext ?_) (Prod.ext (Fin.ext ?_) (Fin.ext ?_))
    · show ((c.val * 1024 + h.val) * 2048 + w.val) / 2097152 % 19 = c.val; omega
    · show ((c.val * 1024 + h.val) * 2048 + w.val) / 2048 % 1024 = h.val; omega
    · show ((c.val * 1024 + h.val) * 2048 + w.val) % 2048 = w.val; omega
  right_inv := by
    intro n
    have := n.isLt
    refine Fin.ext ?_
    show (n.val / 2097152 % 19 * 1024 + n.val / 2048 % 1024) * 2048 + n.val % 2048 = n.val
    omega

/-- A sum over the flat places is the triple sum over class, row and column. -/
theorem sum_flat (f : Fin 39845888 → EReal) :
    ∑ n : Fin 39845888, f n = ∑ c : Fin 19, ∑ h : Fin 1024, ∑ w : Fin 2048, f (flat c h w) := by
  rw [← Equiv.sum_comp flatEquiv f, Fintype.sum_prod_type]
  refine Finset.sum_congr rfl fun c _ => ?_
  rw [Fintype.sum_prod_type]
  rfl

/-- The reshape to the flat array reads element (c, h, w) at its flat place. -/
theorem idx27_flat (c : Fin 19) (h : Fin 1024) (w : Fin 2048) :
    idx_main_v27 (ix1 (flat c h w)) = ix4 (0 : Fin 1) c h w := by
  have := c.isLt; have := h.isLt; have := w.isLt
  funext a
  refine Fin.ext ?_
  match a with
  | ⟨0, _⟩ => rfl
  | ⟨1, _⟩ => show ((c.val * 1024 + h.val) * 2048 + w.val) / 2097152 % 19 = c.val; omega
  | ⟨2, _⟩ => show ((c.val * 1024 + h.val) * 2048 + w.val) / 2048 % 1024 = h.val; omega
  | ⟨3, _⟩ => show ((c.val * 1024 + h.val) * 2048 + w.val) % 2048 = w.val; omega

/-- A scatter-add into zeros of length 191, at the column of the flat segment words, reads at place k the sum of
    the updates of the elements whose segment word is k. -/
theorem scatter_tables (z : S191.Idx → EReal) (hz : ∀ i, z i = 0) (idx : IVec S39845888x1 32)
    (upd : S39845888.Idx → EReal) (k : Fin 191) :
    Host.scatterAdd (F := Ideal) (φ := .f32) scatter_S191_S39845888x1_S39845888_n_0_0_1 z idx upd (ix1 k)
      = ∑ c : Fin 19, ∑ h : Fin 1024, ∑ w : Fin 2048,
          if (idx (ix2 (flat c h w) (0 : Fin 1))).toInt = (k.val : Int) then upd (ix1 (flat c h w)) else 0 := by
  show Ideal.hostScatterAdd (Cert.LibHistogram.colDims 191 39845888 Facts₀.scatter_S191_S39845888x1_S39845888_n_0_0_1_wf) z idx upd (ix1 k) = _
  rw [Cert.LibDegree.scatterAdd_col_apply, hz, zero_add]
  exact sum_flat _

end Cert.Hist.Ref
end
-- ==== Proof.RefTables.lean ====
import proofs.«139248_j19292993094305_2_alg».proof.Proof.Spec
import proofs.«139248_j19292993094305_2_alg».proof.Proof.Gen.ReferenceIdeal.Read
import proofs.«139248_j19292993094305_2_alg».proof.Proof.RefSoftmax
import proofs.«139248_j19292993094305_2_alg».proof.Proof.RefScatter

noncomputable section

open scoped BigOperators

namespace Cert.Hist.Ref

open Idealize.ShloMosaic Idealize.ShloMosaic.ValueIdx Cert.ReferenceIdeal Cert.ReferenceIdeal.Gen Cert.ReferenceIdeal.Read

/-- What is assumed of the segment word: for a positive probability and a positive scaled probability its signed
    value is the place 10 c + b exactly when the element's class is c and the scaled probability is in bin b. -/
def SegPlace : Prop :=
  ∀ (c' c : Fin 19) (b : Fin 10) (p q : ℝ), 0 < p → 0 < q →
    ((segWord c' (p : EReal) (q : EReal)).toInt = ((10 * c.val + b.val : ℕ) : ℤ) ↔ c' = c ∧ inBin (q : EReal) b)

/-- The place of table entry (c, b) in the flat array of length 191. -/
def place (c : Fin 19) (b : Fin 10) : Fin 191 := ⟨c.val * 10 + b.val, by have := c.isLt; have := b.isLt; omega⟩

/-- The label indicator of an element, as the reference computes it. -/
theorem ref_hit (Tg : ST.Idx → BitVec 32) (c : Fin 19) (h : Fin 1024) (w : Fin 2048) :
    val_main_v44 (F := Ideal) Tg (ix4 (0 : Fin 1) c h w) = hit Tg c h w := by
  rw [val_main_v44_apply, val_main_v43_apply, val_main_v41_apply, val_main_v40_apply, val_main_v42_apply,
    val_main_v21_apply, val_main_v20_apply]
  have hi : idx_main_v40 (idx_main_v41 (ix4 (0 : Fin 1) c h w)) = ix3 (0 : Fin 1) h w := by
    funext a
    match a with
    | ⟨0, _⟩ => rfl
    | ⟨1, _⟩ => rfl
    | ⟨2, _⟩ => rfl
  rw [hi]
  show (((IntOp.cmpi .eq (Tg (ix3 (0 : Fin 1) h w)) (BitVec.ofNat 32 c.val)).toNat : ℝ) : EReal) = hit Tg c h w
  unfold hit
  by_cases heq : Tg (ix3 (0 : Fin 1) h w) = BitVec.ofNat 32 c.val
  · rw [if_pos heq, heq]
    simp [IntOp.cmpi]
  · rw [if_neg heq]
    simp [IntOp.cmpi, heq]

section
variable (hneg : Ideal.ofBits .f32 0xFF800000#32 = (⊥ : EReal))
  (X : SX.Idx → EReal)
  (hP : ∀ c h w, ∃ r : ℝ, 0 < r ∧ P X c h w = (r : EReal))
  (hten : ten = ((10 : ℝ) : EReal))
  (hbin : SegPlace)
include hP hten hbin

/-- An element's segment word is the place (c, b) exactly when its class is c and its scaled probability is in bin b. -/
theorem seg_iff (c' c : Fin 19) (b : Fin 10) (h : Fin 1024) (w : Fin 2048) :
    (segWord c' (P X c' h w) (Q X c' h w)).toInt = ((place c b).val : ℤ) ↔ c' = c ∧ inBin (Q X c' h w) b := by
  obtain ⟨r, hr, hPr⟩ := hP c' h w
  have hQ : Q X c' h w = ((r * 10 : ℝ) : EReal) := by
    unfold Q; rw [hPr, hten, EReal.coe_mul]
  have hk : ((place c b).val : ℤ) = ((10 * c.val + b.val : ℕ) : ℤ) := by
    show ((c.val * 10 + b.val : ℕ) : ℤ) = _
    rw [Nat.mul_comm]
  rw [hPr, hQ, hk]
  exact hbin c' c b r (r * 10) hr (by positivity)

/-- The sum over all elements of a weight U at the elements whose segment word is the place (c, b): the table of U
    binned by the scaled probability. -/
theorem table_eq (U : Field) (c : Fin 19) (b : Fin 10) :
    (∑ c' : Fin 19, ∑ h : Fin 1024, ∑ w : Fin 2048,
        if (segWord c' (P X c' h w) (Q X c' h w)).toInt = ((place c b).val : ℤ) then U c' h w else 0)
      = canon U (Q X) c b := by
  classical
  unfold canon
  rw [Finset.sum_eq_single c]
  · refine Finset.sum_congr rfl fun h _ => Finset.sum_congr rfl fun w _ => ?_
    have hw := seg_iff X hP hten hbin c c b h w
    by_cases hb : inBin (Q X c h w) b
    · rw [if_pos hb, if_pos (hw.mpr ⟨rfl, hb⟩)]
    · rw [if_neg hb, if_neg (fun h' => hb (hw.mp h').2)]
  · intro c' _ hne
    refine Finset.sum_eq_zero fun h _ => Finset.sum_eq_zero fun w _ => ?_
    exact if_neg (fun h' => hne ((seg_iff X hP hten hbin c' c b h w).mp h').1)
  · intro hc
    exact absurd (Finset.mem_univ c) hc

include hneg

/-- The column of segment words, read at an element's flat place. -/
theorem col_at (c : Fin 19) (h : Fin 1024) (w : Fin 2048) :
    val_main_v30 (F := Ideal) X (ix2 (flat c h w) (0 : Fin 1)) = segWord c (P X c h w) (Q X c h w) := by
  rw [val_main_v30_apply, val_main_v27_apply]
  have hi : idx_main_v27 (idx_main_v30 (ix2 (flat c h w) (0 : Fin 1))) = ix4 (0 : Fin 1) c h w := by
    rw [← idx27_flat c h w]
  rw [hi, ref_seg hneg]

/-- The table of summed probabilities. -/
theorem ref_conf (c : Fin 19) (b : Fin 10) :
    val_main_v33 (F := Ideal) X (ix2 c b) = canon (P X) (Q X) c b := by
  rw [val_main_v33_apply, val_main_v32_apply]
  have hi : idx_main_v32 (idx_main_v33 (ix2 c b)) = ix1 (place c b) := by
    funext a
    match a with
    | ⟨0, _⟩ => rfl
  rw [hi]
  unfold val_main_v31
  rw [scatter_tables _ (fun i => by rw [val_main_v29_apply, val_main_cst_8_apply]; exact Ideal.ofBits_zero_f32)]
  rw [← table_eq X hP hten hbin (P X) c b]
  refine Finset.sum_congr rfl fun c' _ => Finset.sum_congr rfl fun h _ => Finset.sum_congr rfl fun w _ => ?_
  rw [col_at hneg X hP hten hbin, val_main_v28_apply]
  have hi2 : idx_main_v28 (ix1 (flat c' h w)) = ix4 (0 : Fin 1) c' h w := idx27_flat c' h w
  rw [hi2, ref_p hneg]

/-- The same column, as the second and third scatters read it. -/
theorem col_at36 (c : Fin 19) (h : Fin 1024) (w : Fin 2048) :
    val_main_v36 (F := Ideal) X (ix2 (flat c h w) (0 : Fin 1)) = segWord c (P X c h w) (Q X c h w) := by
  rw [val_main_v36_apply, val_main_v27_apply]
  have hi : idx_main_v27 (idx_main_v36 (ix2 (flat c h w) (0 : Fin 1))) = ix4 (0 : Fin 1) c h w := by
    rw [← idx27_flat c h w]
  rw [hi, ref_seg hneg]

theorem col_at47 (c : Fin 19) (h : Fin 1024) (w : Fin 2048) :
    val_main_v47 (F := Ideal) X (ix2 (flat c h w) (0 : Fin 1)) = segWord c (P X c h w) (Q X c h w) := by
  rw [val_main_v47_apply, val_main_v27_apply]
  have hi : idx_main_v27 (idx_main_v47 (ix2 (flat c h w) (0 : Fin 1))) = ix4 (0 : Fin 1) c h w := by
    rw [← idx27_flat c h w]
  rw [hi, ref_seg hneg]

/-- The table of counts. -/
theorem ref_pred (hone : Ideal.ofBits .f32 0x3F800000#32 = (1 : EReal)) (c : Fin 19) (b : Fin 10) :
    val_main_v39 (F := Ideal) X (ix2 c b) = canon one (Q X) c b := by
  rw [val_main_v39_apply, val_main_v38_apply]
  have hi : idx_main_v38 (idx_main_v39 (ix2 c b)) = ix1 (place c b) := by
    funext a
    match a with
    | ⟨0, _⟩ => rfl
  rw [hi]
  unfold val_main_v37
  rw [scatter_tables _ (fun i => by rw [val_main_v35_apply, val_main_cst_10_apply]; exact Ideal.ofBits_zero_f32)]
  rw [← table_eq X hP hten hbin one c b]
  refine Finset.sum_congr rfl fun c' _ => Finset.sum_congr rfl fun h _ => Finset.sum_congr rfl fun w _ => ?_
  rw [col_at36 hneg X hP hten hbin, val_main_v34_apply, val_main_cst_9_apply]
  show (if _ then Ideal.ofBits .f32 0x3F800000#32 else 0) = if _ then (1 : EReal) else 0
  rw [hone]

/-- The table of label hits. -/
theorem ref_acc (Tg : ST.Idx → BitVec 32) (c : Fin 19) (b : Fin 10) :
    val_main_v50 (F := Ideal) X Tg (ix2 c b) = canon (hit Tg) (Q X) c b := by
  rw [val_main_v50_apply, val_main_v49_apply]
  have hi : idx_main_v49 (idx_main_v50 (ix2 c b)) = ix1 (place c b) := by
    funext a
    match a with
    | ⟨0, _⟩ => rfl
  rw [hi]
  unfold val_main_v48
  rw [scatter_tables _ (fun i => by rw [val_main_v46_apply, val_main_cst_11_apply]; exact Ideal.ofBits_zero_f32)]
  rw [← table_eq X hP hten hbin (hit Tg) c b]
  refine Finset.sum_congr rfl fun c' _ => Finset.sum_congr rfl fun h _ => Finset.sum_congr rfl fun w _ => ?_
  rw [col_at47 hneg X hP hten hbin, val_main_v45_apply]
  have hi2 : idx_main_v45 (ix1 (flat c' h w)) = ix4 (0 : Fin 1) c' h w := idx27_flat c' h w
  rw [hi2, ref_hit]

end

end Cert.Hist.Ref
end
-- ==== Proof.BinWord.lean ====
/-
  The bin of a scaled probability as a 32-bit word.

  For a real q > 0 the word  min 9 (max 0 (⌈q⌉ - 1))  (the ceiling converted to a signed word, saturating at
  2^31 - 1; the subtraction, maximum and minimum on signed 32-bit words) has the signed value b exactly when
  b < q and, for b < 9, not b + 1 < q; and the segment word 10 * c' + (that word) for a class c' < 19 does not
  wrap, so it equals 10 * c + b exactly when c' = c and q is in bin b.
-/
import proofs.«139248_j19292993094305_2_alg».proof.Proof.Spec
import Idealize.ShloMosaic.PureOps.Ideal

noncomputable section

namespace Cert.Hist

open Idealize.ShloMosaic

/-! ### Signed maximum, minimum, and their order of operands -/

theorem toInt_maxsi (x y : BitVec 32) : (IntOp.maxsi x y).toInt = max x.toInt y.toInt := by
  unfold IntOp.maxsi
  by_cases h : y.toInt < x.toInt
  · rw [if_pos (by rw [BitVec.slt_eq_decide]; exact decide_eq_true h)]; omega
  · rw [if_neg (by rw [BitVec.slt_eq_decide]; simpa using h)]; omega

theorem toInt_minsi (x y : BitVec 32) : (IntOp.minsi x y).toInt = min x.toInt y.toInt := by
  unfold IntOp.minsi
  by_cases h : x.toInt < y.toInt
  · rw [if_pos (by rw [BitVec.slt_eq_decide]; exact decide_eq_true h)]; omega
  · rw [if_neg (by rw [BitVec.slt_eq_decide]; simpa using h)]; omega

theorem maxsi_comm (x y : BitVec 32) : IntOp.maxsi x y = IntOp.maxsi y x :=
  BitVec.eq_of_toInt_eq (by rw [toInt_maxsi, toInt_maxsi, max_comm])

theorem minsi_comm (x y : BitVec 32) : IntOp.minsi x y = IntOp.minsi y x :=
  BitVec.eq_of_toInt_eq (by rw [toInt_minsi, toInt_minsi, min_comm])

theorem addi_comm (x y : BitVec 32) : IntOp.addi x y = IntOp.addi y x := by
  unfold IntOp.addi; exact BitVec.add_comm x y

theorem muli_comm (x y : BitVec 32) : IntOp.muli x y = IntOp.muli y x := by
  unfold IntOp.muli; exact BitVec.mul_comm x y

/-! ### (i) The ceiling of a positive real as a signed word -/

theorem fptosi_ceil_pos (q : ℝ) (hq : 0 < q) :
    Ideal.fptosi 32 (Ideal.liftRound Int.ceil (q : EReal)) = BitVec.ofInt 32 (min (2 ^ 31 - 1) ⌈q⌉) := by
  have h1 : (1 : ℤ) ≤ ⌈q⌉ := Int.one_le_ceil_iff.mpr hq
  have h0 : (0 : ℝ) ≤ ((⌈q⌉ : ℤ) : ℝ) := by exact_mod_cast (by omega : (0 : ℤ) ≤ ⌈q⌉)
  show BitVec.ofInt 32 (max (-((2 ^ (32 - 1) : ℕ) : ℤ)) (min (((2 ^ (32 - 1) : ℕ) : ℤ) - 1)
      (if 0 ≤ ((⌈q⌉ : ℤ) : ℝ) then ⌊((⌈q⌉ : ℤ) : ℝ)⌋ else ⌈((⌈q⌉ : ℤ) : ℝ)⌉))) = _
  rw [if_pos h0, Int.floor_intCast]
  congr 1
  norm_num
  omega

/-! ### (ii) The clipped word's signed value -/

/-- The signed value of a word given by an integer in the signed range. -/
theorem toInt_ofInt_of_range (z : ℤ) (hlo : -(2 ^ 31) ≤ z) (hhi : z ≤ 2 ^ 31 - 1) :
    (BitVec.ofInt 32 z).toInt = z := by
  rw [BitVec.toInt_ofInt, Int.bmod_def]
  split_ifs <;> omega

/-- The clip  min 9 (max 0 (x - 1))  of a word x whose signed value is at least one. -/
theorem toInt_clip (x : BitVec 32) (hx : 1 ≤ x.toInt) :
    (IntOp.minsi 9#32 (IntOp.maxsi 0#32 (IntOp.subi x 1#32))).toInt = min 9 (max 0 (x.toInt - 1)) := by
  have hsub : (IntOp.subi x 1#32).toInt = x.toInt - 1 := by
    unfold IntOp.subi
    have hlt := BitVec.toInt_lt (x := x)
    rw [BitVec.toInt_sub, Int.bmod_def]
    have e1 : (1#32 : BitVec 32).toInt = 1 := by decide
    rw [e1]
    norm_num at hlt ⊢
    split_ifs <;> omega
  rw [toInt_minsi, toInt_maxsi, hsub]
  have e9 : (9#32 : BitVec 32).toInt = 9 := by decide
  have e0 : (0#32 : BitVec 32).toInt = 0 := by decide
  rw [e9, e0]

/-- The clipped ceiling of a positive real, as an integer. -/
def binOf (q : ℝ) : ℤ := min 9 (max 0 (min (2 ^ 31 - 1) ⌈q⌉ - 1))

theorem binOf_nonneg (q : ℝ) : 0 ≤ binOf q := by unfold binOf; omega
theorem binOf_le (q : ℝ) : binOf q ≤ 9 := by unfold binOf; omega

theorem toInt_binWord (q : ℝ) (hq : 0 < q) :
    (IntOp.minsi 9#32 (IntOp.maxsi 0#32 (IntOp.subi
      (Ideal.fptosi 32 (Ideal.liftRound Int.ceil (q : EReal))) 1#32))).toInt = binOf q := by
  have h1 : (1 : ℤ) ≤ ⌈q⌉ := Int.one_le_ceil_iff.mpr hq
  have hz : (BitVec.ofInt 32 (min (2 ^ 31 - 1) ⌈q⌉)).toInt = min (2 ^ 31 - 1) ⌈q⌉ :=
    toInt_ofInt_of_range _ (by omega) (by omega)
  rw [fptosi_ceil_pos q hq, toInt_clip _ (by rw [hz]; omega), hz, binOf]

/-! ### (iii) The clipped ceiling is the bin -/

theorem binOf_eq_iff (q : ℝ) (hq : 0 < q) (b : Fin 10) :
    binOf q = (b.val : ℤ) ↔
      ((b.val : ℕ) : ℝ) < q ∧ ∀ hb : b.val + 1 < 10, ¬ (((b.val + 1 : ℕ) : ℕ) : ℝ) < q := by
  have h1 : (1 : ℤ) ≤ ⌈q⌉ := Int.one_le_ceil_iff.mpr hq
  have hb := b.isLt
  have ha : ((b.val : ℕ) : ℝ) < q ↔ (b.val : ℤ) < ⌈q⌉ := by
    rw [Int.lt_ceil]; norm_cast
  have hn : (¬ (((b.val + 1 : ℕ) : ℕ) : ℝ) < q) ↔ ⌈q⌉ ≤ ((b.val + 1 : ℕ) : ℤ) := by
    rw [not_lt, Int.ceil_le]; norm_cast
  unfold binOf
  constructor
  · intro h
    refine ⟨ha.mpr (by omega), fun hb1 => hn.mpr (by push_cast; omega)⟩
  · rintro ⟨h1', h2⟩
    have h1'' := ha.mp h1'
    by_cases hb1 : b.val + 1 < 10
    · have := hn.mp (h2 hb1); push_cast at this; omega
    · omega

theorem binOf_eq_iff_inBin (hthr : ∀ b : Fin 10, thr b = (((b.val : ℕ) : ℝ) : EReal))
    (q : ℝ) (hq : 0 < q) (b : Fin 10) :
    binOf q = (b.val : ℤ) ↔ inBin (q : EReal) b := by
  rw [binOf_eq_iff q hq b]
  unfold inBin
  rw [hthr b, EReal.coe_lt_coe_iff]
  constructor
  · rintro ⟨h1, h2⟩
    refine ⟨h1, fun hb => ?_⟩
    rw [hthr ⟨b.val + 1, hb⟩, EReal.coe_lt_coe_iff]
    exact h2 hb
  · rintro ⟨h1, h2⟩
    refine ⟨h1, fun hb => ?_⟩
    have := h2 hb
    rw [hthr ⟨b.val + 1, hb⟩, EReal.coe_lt_coe_iff] at this
    exact this

/-! ### (iv) The segment word does not wrap -/

theorem toInt_segment (c' : Fin 19) (w : BitVec 32) (h0 : 0 ≤ w.toInt) (h9 : w.toInt ≤ 9) :
    (IntOp.addi (IntOp.muli (BitVec.ofNat 32 c'.val) 10#32) w).toInt = 10 * (c'.val : ℤ) + w.toInt := by
  have hc := c'.isLt
  unfold IntOp.addi IntOp.muli
  have ec : (BitVec.ofNat 32 c'.val).toInt = (c'.val : ℤ) := by
    rw [BitVec.toInt_ofNat', Int.bmod_def]; norm_num; split_ifs <;> omega
  have e10 : (10#32 : BitVec 32).toInt = 10 := by decide
  have em : (BitVec.ofNat 32 c'.val * 10#32).toInt = 10 * (c'.val : ℤ) := by
    rw [BitVec.toInt_mul, ec, e10, Int.bmod_def]; norm_num; split_ifs <;> omega
  rw [BitVec.toInt_add, em, Int.bmod_def]; norm_num; split_ifs <;> omega

theorem segment_eq_iff (c' c : Fin 19) (b : Fin 10) (k : ℤ) (h0 : 0 ≤ k) (h9 : k ≤ 9) :
    10 * (c'.val : ℤ) + k = ((10 * c.val + b.val : ℕ) : ℤ) ↔ c' = c ∧ k = (b.val : ℤ) := by
  have hb := b.isLt
  rw [Fin.ext_iff]
  push_cast
  constructor
  · intro h; constructor <;> omega
  · rintro ⟨h1, h2⟩; rw [h1, h2]

/-! ### The segment word of a positive scaled probability -/

theorem segment_word_eq_iff (hthr : ∀ b : Fin 10, thr b = (((b.val : ℕ) : ℝ) : EReal))
    (q : ℝ) (hq : 0 < q) (c' c : Fin 19) (b : Fin 10) :
    (IntOp.addi (IntOp.muli (BitVec.ofNat 32 c'.val) 10#32)
      (IntOp.minsi 9#32 (IntOp.maxsi 0#32 (IntOp.subi
        (Ideal.fptosi 32 (Ideal.liftRound Int.ceil (q : EReal))) 1#32)))).toInt
        = ((10 * c.val + b.val : ℕ) : Int) ↔ c' = c ∧ inBin (q : EReal) b := by
  have hw := toInt_binWord q hq
  rw [toInt_segment c' _ (by rw [hw]; exact binOf_nonneg q) (by rw [hw]; exact binOf_le q), hw,
    segment_eq_iff c' c b _ (binOf_nonneg q) (binOf_le q), binOf_eq_iff_inBin hthr q hq b]

/-! ### The same with the comparison and the selection around it -/

/-- The single-precision word of zero denotes zero. -/
theorem ofBits_zero : Ideal.ofBits .f32 0x00000000#32 = 0 := by simp [Ideal.ofBits, Ideal.ieee]

/-- A selection on "x is above zero" is the conditional on that. -/
theorem select_ogt_zero {α : Type} (x : EReal) (a d : α) :
    Scalar.select (FloatOps.cmpf (F := Ideal) (φ := .f32) .ogt x (FloatOps.ofBits .f32 0x00000000#32)) a d
      = if 0 < x then a else d := by
  show Scalar.select (Ideal.cmp .ogt x (Ideal.ofBits .f32 0x00000000#32)) a d = _
  rw [ofBits_zero]
  unfold Scalar.select Ideal.cmp
  by_cases h : (0 : EReal) < x <;> simp [h]

theorem select_segment_word_eq_iff (hthr : ∀ b : Fin 10, thr b = (((b.val : ℕ) : ℝ) : EReal))
    (p q : ℝ) (hp : 0 < p) (hq : 0 < q) (c' c : Fin 19) (b : Fin 10) :
    (Scalar.select (FloatOps.cmpf (F := Ideal) (φ := .f32) .ogt (p : EReal) (FloatOps.ofBits .f32 0x00000000#32))
      (IntOp.addi (IntOp.muli (BitVec.ofNat 32 c'.val) 10#32)
        (IntOp.minsi 9#32 (IntOp.maxsi 0#32 (IntOp.subi
          (FloatOps.fptosi (F := Ideal) (φ := .f32) 32
            (FloatOps.hostUnary (F := Ideal) (φ := .f32) .ceil (q : EReal))) 1#32))))
      190#32).toInt = ((10 * c.val + b.val : ℕ) : Int) ↔ c' = c ∧ inBin (q : EReal) b := by
  rw [select_ogt_zero, if_pos (by exact_mod_cast hp)]
  exact segment_word_eq_iff hthr q hq c' c b

end Cert.Hist

end
-- ==== Proof.SegWord.lean ====
/-
  The reference's segment word of an element with positive probability p and positive scaled probability q
  is 10 * c + b exactly when the element's class is c and q is in bin b.
-/
import proofs.«139248_j19292993094305_2_alg».proof.Proof.BinWord
import proofs.«139248_j19292993094305_2_alg».proof.Proof.RefSoftmax

noncomputable section

namespace Cert.Hist

open Idealize.ShloMosaic

theorem segWord_toInt_eq_iff (hthr : ∀ b : Fin 10, thr b = (((b.val : ℕ) : ℝ) : EReal))
    (c' c : Fin 19) (b : Fin 10) (p q : ℝ) (hp : 0 < p) (hq : 0 < q) :
    (Ref.segWord c' (p : EReal) (q : EReal)).toInt = ((10 * c.val + b.val : ℕ) : ℤ)
      ↔ c' = c ∧ inBin (q : EReal) b := by
  unfold Ref.segWord
  exact select_segment_word_eq_iff hthr p q hp hq c' c b

end Cert.Hist

end
-- ==== Proof.RefTablesThr.lean ====
import proofs.«139248_j19292993094305_2_alg».proof.Proof.RefTables
import proofs.«139248_j19292993094305_2_alg».proof.Proof.SegWord

noncomputable section

open scoped BigOperators

namespace Cert.Hist.Ref

open Idealize.ShloMosaic Idealize.ShloMosaic.ValueIdx Cert.ReferenceIdeal Cert.ReferenceIdeal.Gen Cert.ReferenceIdeal.Read

/-- With the thresholds 0, 1, …, 9 the segment word names the place of class and bin. -/
theorem segPlace_of_thr (hthr : ∀ b : Fin 10, thr b = (((b.val : ℕ) : ℝ) : EReal)) : SegPlace :=
  fun c' c b p q hp hq => Cert.Hist.segWord_toInt_eq_iff hthr c' c b p q hp hq

section
variable (hneg : Ideal.ofBits .f32 0xFF800000#32 = (⊥ : EReal))
  (X : SX.Idx → EReal)
  (hP : ∀ c h w, ∃ r : ℝ, 0 < r ∧ P X c h w = (r : EReal))
  (hten : ten = ((10 : ℝ) : EReal))
  (hthr : ∀ b : Fin 10, thr b = (((b.val : ℕ) : ℝ) : EReal))
include hneg hP hten hthr

/-- The reference's three tables are the tables of the probability, of one and of the label hit, binned by the
    scaled probability. -/
theorem ref_conf_thr (c : Fin 19) (b : Fin 10) :
    val_main_v33 (F := Ideal) X (ix2 c b) = canon (P X) (Q X) c b :=
  ref_conf hneg X hP hten (segPlace_of_thr hthr) c b

theorem ref_pred_thr (hone : Ideal.ofBits .f32 0x3F800000#32 = (1 : EReal)) (c : Fin 19) (b : Fin 10) :
    val_main_v39 (F := Ideal) X (ix2 c b) = canon one (Q X) c b :=
  ref_pred hneg X hP hten (segPlace_of_thr hthr) hone c b

theorem ref_acc_thr (Tg : ST.Idx → BitVec 32) (c : Fin 19) (b : Fin 10) :
    val_main_v50 (F := Ideal) X Tg (ix2 c b) = canon (hit Tg) (Q X) c b :=
  ref_acc hneg X hP hten (segPlace_of_thr hthr) Tg c b

end

end Cert.Hist.Ref
end
-- ==== Proof.PreReal.lean ====
/-
  From the precondition to "every logit is a real number".

  The precondition says that the conjunction, over all entries x of the logits, of |x| < +∞ is true.  A conjunction
  that is true has every conjunct true; |x| = max x (-x) below +∞ excludes x = +∞ and x = -∞, so x is a real.
-/
import proofs.«139248_j19292993094305_2_alg».proof.Defs
import Idealize.ShloMosaic.Lib.ReduceAll
import Idealize.ShloMosaic.Lib.ValueIdx

noncomputable section

namespace Cert.Hist

open Idealize.ShloMosaic Idealize.SL.Sem

/-- The shape with no axes has one index. -/
instance : Subsingleton Cert.Pre_finite_inputs.S_.Idx := ⟨fun a b => funext fun d => d.elim0⟩

/-- The single-precision word of +∞ denotes +∞. -/
theorem ofBits_posInf : Ideal.ofBits .f32 0x7F800000#32 = (⊤ : EReal) := by simp [Ideal.ofBits, Ideal.ieee]

/-- An extended real whose absolute value max x (-x) is below +∞ is a real. -/
theorem exists_real_of_abs_lt_top (x : EReal) (h : max x (-x) < ⊤) : ∃ r : ℝ, x = (r : EReal) := by
  obtain ⟨h1, h2⟩ := max_lt_iff.mp h
  induction x using EReal.rec with
  | bot => exact absurd h2 (by simp)
  | coe r => exact ⟨r, rfl⟩
  | top => exact absurd h1 (lt_irrefl _)

/-- Where the finiteness predicate of two argument arrays is all ones, every entry of the first is a real. -/
theorem real_of_finite [Cert.Pre_finite_inputs.Facts]
    (X : FVec Ideal Cert.Pre_finite_inputs.S1x19x1024x2048 .f32) (T : IVec Cert.Pre_finite_inputs.S1x1024x2048 32)
    (h : Cert.Pre_finite_inputs.fn (F := Ideal) X T = fun _ => 1#1) (i : Cert.Pre_finite_inputs.S1x19x1024x2048.Idx) :
    ∃ r : ℝ, X i = (r : EReal) := by
  have h0 := congrFun h ValueIdx.ix0
  dsimp only [Cert.Pre_finite_inputs.fn] at h0
  have hi := Host.reduce_andi_all _ _ _ _ _ h0 i
  have hi' : Ideal.cmp .olt (max (X i) (-(X i))) (Ideal.ofBits .f32 0x7F800000#32) = 1#1 := hi
  rw [ofBits_posInf] at hi'
  refine exists_real_of_abs_lt_top (X i) ?_
  unfold Ideal.cmp at hi'
  by_contra hn
  simp [hn] at hi'

/-- Under the certificate's precondition every logit, on every device, is a real number. -/
theorem pre_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD)
    (i : Cert.Pre_finite_inputs.S1x19x1024x2048.Idx) :
    ∃ r : ℝ, (m ((c.tc : Thread Cert.KernelIdeal.nD Cert.KernelIdeal.τ).loc Cert.KernelIdeal.main_arg0)
      : FVec Ideal Cert.Pre_finite_inputs.S1x19x1024x2048 .f32) i = (r : EReal) :=
  real_of_finite _ _ (h c) i

end Cert.Hist

end
-- ==== Proof.RefValue.lean ====
/-
  The reference program's result as one closed term.

  Its three [19, 10] tables are the tables of the probability, of one and of the label hit binned by the scaled
  probability (every logit being a real, so every probability a positive real), and its scalar is the common tail
  of those tables: the calibration error of the logits and labels.
-/
import proofs.«139248_j19292993094305_2_alg».proof.Proof.Tables
import proofs.«139248_j19292993094305_2_alg».proof.Proof.RefTail
import proofs.«139248_j19292993094305_2_alg».proof.Proof.RefTablesThr
import proofs.«139248_j19292993094305_2_alg».proof.Proof.Law
import proofs.«139248_j19292993094305_2_alg».proof.Proof.PreReal
import proofs.«139248_j19292993094305_2_alg».proof.Proof.Gen.ReferenceIdeal.Read
import proofs.«139248_j19292993094305_2_alg».proof.Proof.Gen.ReferenceIdeal.Run

noncomputable section

namespace Cert.Hist

open Idealize.ShloMosaic Idealize.ShloMosaic.ValueIdx Idealize.SL.Sem

/-- The reference's table of summed probabilities is the table of P binned by Q. -/
theorem ref_tabC (X : SX.Idx → EReal) (hX : ∀ i, ∃ r : ℝ, X i = (r : EReal)) :
    Cert.ReferenceIdeal.Read.val_main_v33 (F := Ideal) X = tabC X := by
  funext idx
  rw [eq_ix2 idx]
  exact Ref.ref_conf_thr negInf_val X (fun c h w => P_pos X hX c h w) ten_val thr_val _ _

/-- The reference's table of counts is the table of one binned by Q. -/
theorem ref_tabP (X : SX.Idx → EReal) (hX : ∀ i, ∃ r : ℝ, X i = (r : EReal)) :
    Cert.ReferenceIdeal.Read.val_main_v39 (F := Ideal) X = tabP X := by
  funext idx
  rw [eq_ix2 idx]
  exact Ref.ref_pred_thr negInf_val X (fun c h w => P_pos X hX c h w) ten_val thr_val one_val _ _

/-- The reference's table of correctly labelled counts is the table of the label hit binned by Q. -/
theorem ref_tabA (X : SX.Idx → EReal) (Tg : ST.Idx → BitVec 32) (hX : ∀ i, ∃ r : ℝ, X i = (r : EReal)) :
    Cert.ReferenceIdeal.Read.val_main_v50 (F := Ideal) X Tg = tabA X Tg := by
  funext idx
  rw [eq_ix2 idx]
  exact Ref.ref_acc_thr negInf_val X (fun c h w => P_pos X hX c h w) ten_val thr_val Tg _ _

/-- The reference's scalar is the calibration error of the logits and labels. -/
theorem ref_loss (X : SX.Idx → EReal) (Tg : ST.Idx → BitVec 32) (hX : ∀ i, ∃ r : ℝ, X i = (r : EReal)) :
    Cert.ReferenceIdeal.Read.val_main_v63 (F := Ideal) X Tg
      = loss Cert.ReferenceIdeal.Facts₀.reducesTo_S19x10_S_d0_1 Cert.ReferenceIdeal.Facts₀.h_S_
          Cert.ReferenceIdeal.Facts₀.bcast_S_S19x10 X Tg := by
  rw [ref_tail, ref_tabC X hX, ref_tabP X hX, ref_tabA X Tg hX]
  rfl

/-- The same of the value the reference's run leaves in its result. -/
theorem ref_run_loss
    (m' : (ℓ : Loc Cert.ReferenceIdeal.nD Cert.ReferenceIdeal.τ Cert.ReferenceIdeal.sig) → Buf (Elt Ideal) ℓ)
    (c : Dev Cert.ReferenceIdeal.nD)
    (hX : ∀ i, ∃ r : ℝ, (m' ((c.tc : Thread _ Cert.ReferenceIdeal.τ).loc Cert.ReferenceIdeal.main_arg0)
      : SX.Idx → EReal) i = (r : EReal)) :
    Cert.ReferenceIdeal.Value.res_main_v63 (F := Ideal) m' c
      = loss Cert.ReferenceIdeal.Facts₀.reducesTo_S19x10_S_d0_1 Cert.ReferenceIdeal.Facts₀.h_S_
          Cert.ReferenceIdeal.Facts₀.bcast_S_S19x10
          (m' ((c.tc : Thread _ Cert.ReferenceIdeal.τ).loc Cert.ReferenceIdeal.main_arg0))
          (m' ((c.tc : Thread _ Cert.ReferenceIdeal.τ).loc Cert.ReferenceIdeal.main_arg1)) := by
  rw [Cert.ReferenceIdeal.Read.val_main_v63_eq m' c]
  exact ref_loss _ _ hX

end Cert.Hist

end
-- ==== Proof.lean ====
/-
  A confidence histogram for calibration error: the tiled kernel against the segment-sum reference.

  For logits [1, 19, 1024, 2048] and labels [1, 1024, 2048] both programs take the softmax over the 19 classes,
  scale it by ten, and fill three [19, 10] tables over all pixels — the sum of the probabilities, the count, and the
  count of label hits, per class and per bin (b, b + 1] of the scaled probability — and from them compute one
  number, Σ (acc/(n + ε) − conf/(n + ε))² · n / Σ n.

  The reference places each (class, pixel) in its bin by ⌈10 p⌉ − 1 clipped to [0, 9] and adds it there.  The
  kernel, tile by tile, takes for each threshold b = 0 … 9 the sum over the tile of the terms with 10 p > b, and
  stores the difference of consecutive threshold sums; along a row of tiles it accumulates these into a block, and
  the host adds the eight blocks.  For finite logits every probability is a positive real, so a difference of two
  threshold sums is the sum of the terms with b < 10 p and not b + 1 < 10 p, which is the reference's bin; the
  tables agree entry by entry over the extended reals, and the final number is the same function of them.

  The two word-level frames and the idealized kernel's frame are the generated ones; the reference's frame is its
  generated run; the idealization changed nothing.
-/
import proofs.«139248_j19292993094305_2_alg».proof.Defs
import proofs.«139248_j19292993094305_2_alg».proof.Proof.Gen.Kernel
import proofs.«139248_j19292993094305_2_alg».proof.Proof.Gen.Kernel.Skeleton
import proofs.«139248_j19292993094305_2_alg».proof.Proof.Gen.Kernel.Launch
import proofs.«139248_j19292993094305_2_alg».proof.Proof.Gen.Kernel.Points
import proofs.«139248_j19292993094305_2_alg».proof.Proof.Gen.Kernel.Frame
import proofs.«139248_j19292993094305_2_alg».proof.Proof.Gen.KernelIdeal
import proofs.«139248_j19292993094305_2_alg».proof.Proof.Gen.KernelIdeal.Skeleton
import proofs.«139248_j19292993094305_2_alg».proof.Proof.Gen.KernelIdeal.Launch
import proofs.«139248_j19292993094305_2_alg».proof.Proof.Gen.KernelIdeal.Points
import proofs.«139248_j19292993094305_2_alg».proof.Proof.Gen.KernelIdeal.Frame
import proofs.«139248_j19292993094305_2_alg».proof.Proof.Gen.ReferenceIdeal
import proofs.«139248_j19292993094305_2_alg».proof.Proof.Gen.Pre_finite_inputs
import proofs.«139248_j19292993094305_2_alg».proof.Proof.Gen.ReferenceIdeal.Run
import proofs.«139248_j19292993094305_2_alg».proof.Proof.Gen.ReferenceIdeal.Read
import proofs.«139248_j19292993094305_2_alg».proof.Proof.KernelValue
import proofs.«139248_j19292993094305_2_alg».proof.Proof.RefValue
import proofs.«139248_j19292993094305_2_alg».proof.Proof.PreReal
import Idealize.ShloMosaic.Adequacy
import Idealize.ShloMosaic.Init

noncomputable section

namespace Cert.Proof

open Idealize.ShloMosaic Idealize.SL.Sem Cert.Kernel

/-- The reference runs and leaves its arguments as they were: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both idealized programs end at the calibration error of the specification's tables of the same arguments. -/
theorem algebraic : Cert.algebraic_KernelIdeal_ReferenceIdeal := by
  intro m ρ m' ρ' hpre hagree
  refine ⟨fun c => Cert.Hist.loss Cert.KernelIdeal.Gen.reducesTo_S19x10_S_d0_1 Cert.KernelIdeal.Gen.h_S_ Cert.KernelIdeal.Gen.bcast_S_S19x10
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main m ρ)
    · exact ((h c).2 Cert.KernelIdeal.main_v18 (Pipeline.mem_restRefs_of Cert.KernelIdeal.main_v18 (by decide) (by decide))).trans
        (Cert.KernelIdeal.Result.kernel_loss m c (Cert.Hist.pre_real m hpre c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2.1, (h c).2.2⟩)
      (Cert.ReferenceIdeal.Value.run (F := Ideal) m' ρ')
    rw [(h c).1, Cert.Hist.ref_run_loss m' c (by rw [(hagree c).1]; exact Cert.Hist.pre_real m hpre c), (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
